-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x576 : Shape := ⟨2, ![200000, 576]⟩
abbrev S1728 : Shape := ⟨1, ![1728]⟩
abbrev S1728x4 : Shape := ⟨2, ![1728, 4]⟩
abbrev S_ : Shape := ⟨0, ![]⟩

class Facts : Prop where
  bcast_S_S200000x576 : S_.BroadcastsInDim S200000x576 (![] : Fin 0 → Fin S200000x576.rank)
  reducesTo_S200000x576_S_d0_1 : S200000x576.ReducesTo [0, 1] S_
  h_S_ : 0 < S_.numel
  bcast_S_S1728 : S_.BroadcastsInDim S1728 (![] : Fin 0 → Fin S1728.rank)
  reducesTo_S1728_S_d0 : S1728.ReducesTo [0] S_
  bcast_S_S1728x4 : S_.BroadcastsInDim S1728x4 (![] : Fin 0 → Fin S1728x4.rank)
  reducesTo_S1728x4_S_d0_1 : S1728x4.ReducesTo [0, 1] S_

variable [Facts]

def fn {F : FTy → Type} [FloatOps F] (main_arg0 : FVec F S200000x576 .f32) (main_arg1 : FVec F S1728 .f32) (main_arg2 : FVec F S1728x4 .f32) : IVec S_ 1 :=
  let main_v0 : FVec F S200000x576 .f32 := Host.absf main_arg0
  let main_cst : FVec F S_ .f32 := constant S_ .f32 0x7F800000#32
  let main_v1 : FVec F S200000x576 .f32 := broadcastInDim S200000x576 ![] bcast_S_S200000x576 main_cst
  let main_v2 : IVec S200000x576 1 := cmpf .olt main_v0 main_v1
  let main_c : IVec S_ 1 := constantI S_ 1 1#1
  let main_v3 : IVec S_ 1 := (fun x v => Host.reduce IntOp.andi x v reducesTo_S200000x576_S_d0_1 h_S_) main_v2 main_c
  let main_v4 : FVec F S1728 .f32 := Host.absf main_arg1
  let main_cst_0 : FVec F S_ .f32 := constant S_ .f32 0x7F800000#32
  let main_v5 : FVec F S1728 .f32 := broadcastInDim S1728 ![] bcast_S_S1728 main_cst_0
  let main_v6 : IVec S1728 1 := cmpf .olt main_v4 main_v5
  let main_c_1 : IVec S_ 1 := constantI S_ 1 1#1
  let main_v7 : IVec S_ 1 := (fun x v => Host.reduce IntOp.andi x v reducesTo_S1728_S_d0 h_S_) main_v6 main_c_1
  let main_v8 : IVec S_ 1 := andi main_v3 main_v7
  let main_v9 : FVec F S1728x4 .f32 := Host.absf main_arg2
  let main_cst_2 : FVec F S_ .f32 := constant S_ .f32 0x7F800000#32
  let main_v10 : FVec F S1728x4 .f32 := broadcastInDim S1728x4 ![] bcast_S_S1728x4 main_cst_2
  let main_v11 : IVec S1728x4 1 := cmpf .olt main_v9 main_v10
  let main_c_3 : IVec S_ 1 := constantI S_ 1 1#1
  let main_v12 : IVec S_ 1 := (fun x v => Host.reduce IntOp.andi x v reducesTo_S1728x4_S_d0_1 h_S_) main_v11 main_c_3
  let main_v13 : IVec S_ 1 := andi main_v8 main_v12
  main_v13
-- ==== Kernel.lean ====
abbrev S200000x576 : Shape := ⟨2, ![200000, 576]⟩
abbrev S1728 : Shape := ⟨1, ![1728]⟩
abbrev S1728x4 : Shape := ⟨2, ![1728, 4]⟩
abbrev S100000x1152 : Shape := ⟨2, ![100000, 1152]⟩
abbrev S2x1x1152 : Shape := ⟨3, ![2, 1, 1152]⟩
abbrev S1000x1152 : Shape := ⟨2, ![1000, 1152]⟩
abbrev S1x1x1152 : Shape := ⟨3, ![1, 1, 1152]⟩
abbrev S1x1152 : Shape := ⟨2, ![1, 1152]⟩
abbrev S1152 : Shape := ⟨1, ![1152]⟩
abbrev S2x1152 : Shape := ⟨2, ![2, 1152]⟩
abbrev S576 : Shape := ⟨1, ![576]⟩
abbrev S_ : Shape := ⟨0, ![]⟩
abbrev S576x1 : Shape := ⟨2, ![576, 1]⟩
abbrev S576x3 : Shape := ⟨2, ![576, 3]⟩
abbrev S1x1728 : Shape := ⟨2, ![1, 1728]⟩
abbrev S1x4 : Shape := ⟨2, ![1, 4]⟩

abbrev nBuf : Space → Nat
  | .hbm => 42
  | .vmem => 8
  | .smem => 0
  | _ => 0

abbrev bufTy : (tb : Table) → Fin (tcTables nBuf tb) → BufTy
  | .hbm, ⟨0, _⟩ => ⟨S200000x576, .f32⟩
  | .hbm, ⟨1, _⟩ => ⟨S1728, .f32⟩
  | .hbm, ⟨2, _⟩ => ⟨S1728x4, .f32⟩
  | .hbm, ⟨3, _⟩ => ⟨S100000x1152, .f32⟩
  | .hbm, ⟨4, _⟩ => ⟨S2x1x1152, .f32⟩
  | .hbm, ⟨5, _⟩ => ⟨S2x1x1152, .f32⟩
  | .hbm, ⟨6, _⟩ => ⟨S2x1152, .f32⟩
  | .hbm, ⟨7, _⟩ => ⟨S2x1152, .f32⟩
  | .hbm, ⟨8, _⟩ => ⟨S1x1152, .f32⟩
  | .hbm, ⟨9, _⟩ => ⟨S1152, .f32⟩
  | .hbm, ⟨10, _⟩ => ⟨S1x1152, .f32⟩
  | .hbm, ⟨11, _⟩ => ⟨S1152, .f32⟩
  | .hbm, ⟨12, _⟩ => ⟨S1152, .f32⟩
  | .hbm, ⟨13, _⟩ => ⟨S1x1152, .f32⟩
  | .hbm, ⟨14, _⟩ => ⟨S1152, .f32⟩
  | .hbm, ⟨15, _⟩ => ⟨S1x1152, .f32⟩
  | .hbm, ⟨16, _⟩ => ⟨S1152, .f32⟩
  | .hbm, ⟨17, _⟩ => ⟨S1152, .f32⟩
  | .hbm, ⟨18, _⟩ => ⟨S576, .f32⟩
  | .hbm, ⟨19, _⟩ => ⟨S576, .f32⟩
  | .hbm, ⟨20, _⟩ => ⟨S576, .f32⟩
  | .hbm, ⟨21, _⟩ => ⟨S576, .f32⟩
  | .hbm, ⟨22, _⟩ => ⟨S576, .f32⟩
  | .hbm, ⟨23, _⟩ => ⟨S576, .f32⟩
  | .hbm, ⟨24, _⟩ => ⟨S_, .f32⟩
  | .hbm, ⟨25, _⟩ => ⟨S576, .f32⟩
  | .hbm, ⟨26, _⟩ => ⟨S576, .f32⟩
  | .hbm, ⟨27, _⟩ => ⟨S_, .f32⟩
  | .hbm, ⟨28, _⟩ => ⟨S576, .f32⟩
  | .hbm, ⟨29, _⟩ => ⟨S_, .f32⟩
  | .hbm, ⟨30, _⟩ => ⟨S576, .f32⟩
  | .hbm, ⟨31, _⟩ => ⟨S576, .f32⟩
  | .hbm, ⟨32, _⟩ => ⟨S576, .f32⟩
  | .hbm, ⟨33, _⟩ => ⟨S576, .f32⟩
  | .hbm, ⟨34, _⟩ => ⟨S576x1, .f32⟩
  | .hbm, ⟨35, _⟩ => ⟨S576x1, .f32⟩
  | .hbm, ⟨36, _⟩ => ⟨S576x1, .f32⟩
  | .hbm, ⟨37, _⟩ => ⟨S576x3, .f32⟩
  | .hbm, ⟨38, _⟩ => ⟨S1x1728, .f32⟩
  | .hbm, ⟨39, _⟩ => ⟨S1x1728, .f32⟩
  | .hbm, ⟨40, _⟩ => ⟨S1x1728, .f32⟩
  | .hbm, ⟨41, _⟩ => ⟨S1x4, .f32⟩
  | .local _ .vmem, ⟨0, _⟩ => ⟨S1000x1152, .f32⟩
  | .local _ .vmem, ⟨1, _⟩ => ⟨S1000x1152, .f32⟩
  | .local _ .vmem, ⟨2, _⟩ => ⟨S1x1x1152, .f32⟩
  | .local _ .vmem, ⟨3, _⟩ => ⟨S1x1x1152, .f32⟩
  | .local _ .vmem, ⟨4, _⟩ => ⟨S1x1x1152, .f32⟩
  | .local _ .vmem, ⟨5, _⟩ => ⟨S1x1x1152, .f32⟩
  | .local _ .vmem, ⟨6, _⟩ => ⟨S1x1152, .f32⟩
  | .local _ .vmem, ⟨7, _⟩ => ⟨S1x1152, .f32⟩
  | _, _ => ⟨S200000x576, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_cst : Ref sig .tc := ⟨.hbm, 24, rfl⟩
abbrev main_v20 : Ref sig .tc := ⟨.hbm, 25, rfl⟩
abbrev main_v21 : Ref sig .tc := ⟨.hbm, 26, rfl⟩
abbrev main_cst_0 : Ref sig .tc := ⟨.hbm, 27, rfl⟩
abbrev main_v22 : Ref sig .tc := ⟨.hbm, 28, rfl⟩
abbrev main_cst_1 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 50], ![false, false]⟩

def k0_cond2 (i : grid0.Coords) : BitVec 1 :=
  let arg1 : BitVec 32 := BitVec.ofNat 32 (i 1).val
  let c49_i32 : BitVec 32 := 49#32
  let v20 : BitVec 1 := Scalar.cmpi .eq arg1 c49_i32
  let v21 : BitVec 32 := Scalar.extui v20
  let c0_i32_11 : BitVec 32 := 0#32
  let v22 : BitVec 1 := Scalar.cmpi .ne v21 c0_i32_11
  v22

def cc0_transform_0 (i : grid0.Coords) : Fin 2 → Nat :=
  let arg0 : BitVec 32 := BitVec.ofNat 32 (i 0).val
  let arg1 : BitVec 32 := BitVec.ofNat 32 (i 1).val
  let c50_i32 : BitVec 32 := 50#32
  let v0 : BitVec 32 := Scalar.muli arg0 c50_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1000x1152 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1152 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S200000x576_S100000x1152 : S200000x576.ShapeCasts S100000x1152
  inb_S1x1152_S1x1152_0_0 : ∀ a, (![0, 0] : Fin 2 → Nat) a + S1x1152.size a ≤ S1x1152.size a
  h_S1x1152 : 0 < S1x1152.numel
  shapeCasts_S1x1152_S1x1152 : S1x1152.ShapeCasts S1x1152
  inb_S1000x1152_S1000x1152_0_0 : ∀ a, (![0, 0] : Fin 2 → Nat) a + S1000x1152.size a ≤ S1000x1152.size a
  h_S1000x1152 : 0 < S1000x1152.numel
  shapeCasts_S1000x1152_S1000x1152 : S1000x1152.ShapeCasts S1000x1152
  reduces_S1000x1152_S1152 : S1000x1152.Reduces [0] S1152
  shapeCasts_S1152_S1x1152 : S1152.ShapeCasts S1x1152
  inb_S1x1x1152_S1x1x1152_0_0_0 : ∀ a, (![0, 0, 0] : Fin 3 → Nat) a + S1x1x1152.size a ≤ S1x1x1152.size a
  h_S1x1x1152 : 0 < S1x1x1152.numel
  shapeCasts_S1x1x1152_S1x1152 : S1x1x1152.ShapeCasts S1x1152
  shapeCasts_S1x1152_S1x1x1152 : S1x1152.ShapeCasts S1x1x1152
  shapeCasts_S2x1x1152_S2x1152 : S2x1x1152.ShapeCasts S2x1152
  slices_S2x1152_S1x1152_0_0 : S2x1152.Slices ![0, 0] S1x1152
  shapeCasts_S1x1152_S1152 : S1x1152.ShapeCasts S1152
  slices_S2x1152_S1x1152_1_0 : S2x1152.Slices ![1, 0] S1x1152
  slices_S1152_S576_0 : S1152.Slices ![0] S576
  slices_S1152_S576_576 : S1152.Slices ![576] S576
  bcast_S_S576 : S_.BroadcastsInDim S576 (![] : Fin 0 → Fin S576.rank)
  bcast_S576_S576x1_0 : S576.BroadcastsInDim S576x1 (![0] : Fin 1 → Fin S576x1.rank)
  concatenates_S576x1_S576x1_S576x1_S576x3_d1 : Shape.Concatenates [S576x1, S576x1, S576x1] S576x3 1
  shapeCasts_S576x3_S1x1728 : S576x3.ShapeCasts S1x1728
  bcast_S1728_S1x1728_1 : S1728.BroadcastsInDim S1x1728 (![1] : Fin 1 → Fin S1x1728.rank)
  dot_S1x1728_S1728x4_S1x4_1_0_0_1_n_n_wf : DotDims.WF S1x1728 S1728x4 S1x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x1152.size a ≤ S100000x1152.size a
  hwx0_0 : ∀ i : grid0.Coords, EltTy.bits .f32 = 32 ∨ (Rect.block (s := S100000x1152) S1000x1152.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x1152.size a ≤ S2x1x1152.size a
  hwx0_1 : ∀ i : grid0.Coords, EltTy.bits .f32 = 32 ∨ (Rect.block (s := S2x1x1152) S1x1x1152.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1152.size a ≤ S2x1x1152.size a
  hwx0_2 : ∀ i : grid0.Coords, EltTy.bits .f32 = 32 ∨ (Rect.block (s := S2x1x1152) S1x1x1152.size (cc0_transform_2 i) (hinb0_2 i)).WholeWords (EltTy.packing .f32)

variable [Facts₀]

def dot_S1x1728_S1728x4_S1x4_1_0_0_1_n_n : DotDims S1x1728 S1728x4 S1x4 where
  lhsContracting := [1]
  rhsContracting := [0]
  lhsNonContracting := [0]
  rhsNonContracting := [1]
  lhsBatch := []
  rhsBatch := []
  wf := dot_S1x1728_S1728x4_S1x4_1_0_0_1_n_n_wf

abbrev win0_0 : Pipeline.Window sig grid0 :=
  Pipeline.Window.ofSpec (Memref.whole main_v0) S1000x1152.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1_0) S1x1x1152.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_1) S1x1x1152.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun i => !(k0_cond2 i == 1#1) | 2 => fun i => !(k0_cond2 i == 1#1) | ⟨_ + 3, h⟩ => absurd h (Nat.not_lt.2 (Nat.le_add_left _ _))

class Facts : Prop extends Facts₀ where

variable [Facts]
-- ==== ReferenceIdeal.lean ====
abbrev S200000x576 : Shape := ⟨2, ![200000, 576]⟩
abbrev S1728 : Shape := ⟨1, ![1728]⟩
abbrev S1728x4 : Shape := ⟨2, ![1728, 4]⟩
abbrev S_ : Shape := ⟨0, ![]⟩
abbrev S576 : Shape := ⟨1, ![576]⟩
abbrev S1x576 : Shape := ⟨2, ![1, 576]⟩
abbrev S576x1 : Shape := ⟨2, ![576, 1]⟩
abbrev S576x3 : Shape := ⟨2, ![576, 3]⟩
abbrev S1x1728 : Shape := ⟨2, ![1, 1728]⟩
abbrev S1x4 : Shape := ⟨2, ![1, 4]⟩

abbrev nBuf : Space → Nat
  | .hbm => 30
  | .vmem => 0
  | .smem => 0
  | _ => 0

abbrev bufTy : (tb : Table) → Fin (tcTables nBuf tb) → BufTy
  | .hbm, ⟨0, _⟩ => ⟨S200000x576, .f32⟩
  | .hbm, ⟨1, _⟩ => ⟨S1728, .f32⟩
  | .hbm, ⟨2, _⟩ => ⟨S1728x4, .f32⟩
  | .hbm, ⟨3, _⟩ => ⟨S_, .f32⟩
  | .hbm, ⟨4, _⟩ => ⟨S576, .f32⟩
  | .hbm, ⟨5, _⟩ => ⟨S_, .f32⟩
  | .hbm, ⟨6, _⟩ => ⟨S576, .f32⟩
  | .hbm, ⟨7, _⟩ => ⟨S576, .f32⟩
  | .hbm, ⟨8, _⟩ => ⟨S1x576, .f32⟩
  | .hbm, ⟨9, _⟩ => ⟨S200000x576, .f32⟩
  | .hbm, ⟨10, _⟩ => ⟨S200000x576, .f32⟩
  | .hbm, ⟨11, _⟩ => ⟨S_, .f32⟩
  | .hbm, ⟨12, _⟩ => ⟨S576, .f32⟩
  | .hbm, ⟨13, _⟩ => ⟨S_, .f32⟩
  | .hbm, ⟨14, _⟩ => ⟨S576, .f32⟩
  | .hbm, ⟨15, _⟩ => ⟨S576, .f32⟩
  | .hbm, ⟨16, _⟩ => ⟨S200000x576, .f32⟩
  | .hbm, ⟨17, _⟩ => ⟨S_, .f32⟩
  | .hbm, ⟨18, _⟩ => ⟨S576, .f32⟩
  | .hbm, ⟨19, _⟩ => ⟨S_, .f32⟩
  | .hbm, ⟨20, _⟩ => ⟨S576, .f32⟩
  | .hbm, ⟨21, _⟩ => ⟨S576, .f32⟩
  | .hbm, ⟨22, _⟩ => ⟨S576x1, .f32⟩
  | .hbm, ⟨23, _⟩ => ⟨S576x1, .f32⟩
  | .hbm, ⟨24, _⟩ => ⟨S576x1, .f32⟩
  | .hbm, ⟨25, _⟩ => ⟨S576x3, .f32⟩
  | .hbm, ⟨26, _⟩ => ⟨S1x1728, .f32⟩
  | .hbm, ⟨27, _⟩ => ⟨S1x1728, .f32⟩
  | .hbm, ⟨28, _⟩ => ⟨S1x1728, .f32⟩
  | .hbm, ⟨29, _⟩ => ⟨S1x4, .f32⟩
  | _, _ => ⟨S200000x576, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_3 : Ref sig .tc := ⟨.hbm, 17, rfl⟩
abbrev main_v10 : Ref sig .tc := ⟨.hbm, 18, rfl⟩
abbrev main_cst_4 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]

class Facts₀ : Prop where
  reducesTo_S200000x576_S576_d0 : S200000x576.ReducesTo [0] S576
  h_S_ : 0 < S_.numel
  bcast_S_S576 : S_.BroadcastsInDim S576 (![] : Fin 0 → Fin S576.rank)
  bcast_S576_S1x576_1 : S576.BroadcastsInDim S1x576 (![1] : Fin 1 → Fin S1x576.rank)
  bcast_S1x576_S200000x576_0_1 : S1x576.BroadcastsInDim S200000x576 (![0, 1] : Fin 2 → Fin S200000x576.rank)
  bcast_S576_S576x1_0 : S576.BroadcastsInDim S576x1 (![0] : Fin 1 → Fin S576x1.rank)
  concatenates_S576x1_S576x1_S576x1_S576x3_d1 : Shape.Concatenates [S576x1, S576x1, S576x1] S576x3 1
  shapeCasts_S576x3_S1x1728 : S576x3.ShapeCasts S1x1728
  bcast_S1728_S1x1728_1 : S1728.BroadcastsInDim S1x1728 (![1] : Fin 1 → Fin S1x1728.rank)
  dot_S1x1728_S1728x4_S1x4_1_0_0_1_n_n_wf : DotDims.WF S1x1728 S1728x4 S1x4 [1] [0] [0] [1] [] []

variable [Facts₀]

def dot_S1x1728_S1728x4_S1x4_1_0_0_1_n_n : DotDims S1x1728 S1728x4 S1x4 where
  lhsContracting := [1]
  rhsContracting := [0]
  lhsNonContracting := [0]
  rhsNonContracting := [1]
  lhsBatch := []
  rhsBatch := []
  wf := dot_S1x1728_S1728x4_S1x4_1_0_0_1_n_n_wf

class Facts : Prop extends Facts₀ where

variable [Facts]
-- ==== Proof.WordFrame.Base.lean ====
/-
  The moments kernel's run, shared groundwork.  The program is: one reshape of the input into its
  pair-merged form, the region on a grid of 100 points (point t is tile t % 50 of core t / 50), and
  36 host operations on the region's two outputs.  Stated here: the memory as the region finds it
  (after the reshape), how the program reduces to the region continued by the later operations, that
  those operations touch only buffers they may and write none of the region's arrays, the two branch
  conditions of the body in closed form over the grid (a core's first tile, t % 50 = 0; its last,
  t % 50 = 49), at which points each output window is idle, and the two accumulators as memrefs.
-/
import proofs.«173802_j78176994722585_2_alg».proof.Proof.Gen.Kernel.Launch
import proofs.«173802_j78176994722585_2_alg».proof.Proof.Gen.Kernel.Skeleton
import proofs.«173802_j78176994722585_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- A core's buffer contents when the region is entered: the launch memory after the reshape. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

theorem hostOps1_fresh : (hostOps1 : List (HloOp τ sig (Elt F))).Forall fun op => op.fresh = ∅ := by
  simp only [List.Forall]; repeat' constructor

/-- The program is the reshape, the region, then the later operations: it reduces to the region continued by them. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The later operations touch only the region's arrays and the buffers that bypass it. -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)

/-- They allocate nothing. -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

/-- Each writes only its own result buffer, which is none of the region's three arrays. -/
theorem hostOps1_keeps : (hostOps1 : List (HloOp τ sig (Elt F))).Forall fun op =>
    ∀ w, Proc.devRef .tc (Pipeline.arrRef spec0 w) ∉ op.writes := by
  simp only [List.Forall]
  repeat' constructor
  all_goals intro w; fin_cases w <;> simp only [StableHlo.nullary_writes, StableHlo.unary_writes, StableHlo.binary_writes, StableHlo.nary_writes, StableHlo.reshape_writes, Finset.mem_singleton] <;> exact StableHlo.devRef_ne_of_ne (by decide)

theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  exact (List.forall_iff_forall_mem.mp hostOps1_keeps) op hop

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The input window's current staging buffer holds its block at every point, for any proof data whose
    array is the region-entry one and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The body's two branch conditions -/

/-- "This is the core's first tile": the accumulators are reset. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 50 = 0 :=
  (by decide +kernel : ∀ t : Fin grid0.N, cond0_0 (grid0.coords t) ↔ t.val % 50 = 0)

/-- "This is the core's last tile": the accumulators are copied to the outputs. -/
abbrev cond0_1 (i : grid0.Coords) : Prop := k0_cond2 i = 1#1
theorem hcond0_1 : ∀ t : Fin cfg0.N, cond0_1 (grid0.coords t) ↔ t.val % 50 = 49 :=
  (by decide +kernel : ∀ t : Fin grid0.N, cond0_1 (grid0.coords t) ↔ t.val % 50 = 49)

/-! ## Where the windows are idle -/

theorem liveAt0_0 : ∀ t : Fin cfg0.N, cfg0.idle 0 (grid0.coords t) = false := by decide +kernel
/-- Off a core's last tile nothing is stored into either output window, and neither is written back. -/
theorem idleAt0_1 : ∀ t : Fin cfg0.N, ¬cond0_1 (grid0.coords t) → cfg0.idle 1 (grid0.coords t) = true := by decide +kernel
theorem noFlush0_1 : ∀ t : Fin cfg0.N, ¬cond0_1 (grid0.coords t) → (cfg0.win 1).flush t = false := by decide +kernel
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
/-- On it both are stored into. -/
theorem liveAt0_1 : ∀ t : Fin cfg0.N, cond0_1 (grid0.coords t) → cfg0.idle 1 (grid0.coords t) = false := by decide +kernel
theorem liveAt0_2 : ∀ t : Fin cfg0.N, cond0_1 (grid0.coords t) → cfg0.idle 2 (grid0.coords t) = false := by decide +kernel

/-! ## The memrefs the body is called with -/

/-- One staging buffer of each output window, through which its contents are stated. -/
abbrev VO0_1 : View sig .tc .vmem S1x1x1152 .f32 := (Memref.whole cc0_stg1_0 : Memref sig .tc .vmem S1x1x1152 .f32).view
abbrev VO0_2 : View sig .tc .vmem S1x1x1152 .f32 := (Memref.whole cc0_stg2_0 : Memref sig .tc .vmem S1x1x1152 .f32).view
/-- Each window's current staging memref at point `t`, and its wholeness. -/
abbrev ms0_0 (t : Fin cfg0.N) : Memref sig .tc .vmem S1000x1152 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x1152 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x1152 .f32 := win0_2.stage (cfg0.slots t 2)
abbrev hs0_2 (t : Fin cfg0.N) : (ms0_2 t).IsWhole := hstage0_2 ((cfg0.slots t 2).cast nbuf0_2)
/-- The two accumulators: whole scoped buffers of the kernel's own (the column sums; the column sums of squares). -/
abbrev scM0_0 : Memref sig .tc .vmem S1x1152 .f32 := Memref.whole cc0_scratch0
abbrev scM0_1 : Memref sig .tc .vmem S1x1152 .f32 := Memref.whole cc0_scratch1
abbrev VS0_0 : View sig .tc .vmem S1x1152 .f32 := scM0_0.view
abbrev VS0_1 : View sig .tc .vmem S1x1152 .f32 := scM0_1.view

/-- What the launch hands the region and takes back: both accumulators owned at some contents, and the
    generator register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Frame

end
-- ==== Proof.WordFrame.CaseFirst.lean ====
/-
  The body on a core's FIRST tile.  Both accumulators are overwritten with zeros and then with zeros
  plus this tile's column sums (of the entries; of their squares), whatever they held before; nothing
  is stored into either output window, whose buffers come back as they were handed over.  The stores
  each accumulator ends with are found by running the body.
-/
import proofs.«173802_j78176994722585_2_alg».proof.Proof.WordFrame.Base

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def runFirst (c : Dev nD) (i : grid0.Coords) (arg2 : Memref sig .tc .vmem S1000x1152 .f32) (harg2 : arg2.IsWhole) (arg3 : Memref sig .tc .vmem S1x1x1152 .f32) (harg3 : arg3.IsWhole) (arg4 : Memref sig .tc .vmem S1x1x1152 .f32) (harg4 : arg4.IsWhole) (arg5 : Memref sig .tc .vmem S1x1152 .f32) (harg5 : arg5.IsWhole) (arg6 : Memref sig .tc .vmem S1x1152 .f32) (harg6 : arg6.IsWhole) (hc0 : cond0_0 i) (hc1 : ¬cond0_1 i)
    (x0 : Vec F S1000x1152 .f32) :
    Σ' (LS0 : List (View.Piece (Elt F) S1x1152 .f32)), { LS1 : List (View.Piece (Elt F) S1x1152 .f32) //
      ∀ (xi1 xi2 : Vec F S1x1x1152 .f32) (E : Set ℕ) (K : PUnit → sProp 𝕄),
        iprop(owns (c : Thread nD τ) arg2 fullShare x0 ∗ owns (c : Thread nD τ) arg3 fullShare xi1 ∗ owns (c : Thread nD τ) arg4 fullShare xi2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare xi1 ∗ owns (c : Thread nD τ) arg4 fullShare xi2
                ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc0__moments_kernel i arg2 harg2 arg3 harg3 arg4 harg4 arg5 harg5 arg6 harg6) K } := by
  refine ⟨?_, ?_, fun xi1 xi2 E K => ?run⟩
  case run =>
    simp only [cc0__moments_kernel_eq_skeleton]; unfold cc0__moments_kernel_skel
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]
    · iexists _; iexact HS0
    iexists _; iexact HS1

end Cert.Kernel.Frame

end
-- ==== Proof.WordFrame.CaseMiddle.lean ====
/-
  The body on a tile that is neither a core's first nor its last.  Each accumulator holds what the
  tile before left and ends at that plus this tile's column sums (of the entries; of their squares);
  nothing is stored into either output window.
-/
import proofs.«173802_j78176994722585_2_alg».proof.Proof.WordFrame.CaseFirst

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def runMiddle (c : Dev nD) (i : grid0.Coords) (arg2 : Memref sig .tc .vmem S1000x1152 .f32) (harg2 : arg2.IsWhole) (arg3 : Memref sig .tc .vmem S1x1x1152 .f32) (harg3 : arg3.IsWhole) (arg4 : Memref sig .tc .vmem S1x1x1152 .f32) (harg4 : arg4.IsWhole) (arg5 : Memref sig .tc .vmem S1x1152 .f32) (harg5 : arg5.IsWhole) (arg6 : Memref sig .tc .vmem S1x1152 .f32) (harg6 : arg6.IsWhole) (hc0 : ¬cond0_0 i) (hc1 : ¬cond0_1 i)
    (x0 : Vec F S1000x1152 .f32) (xs0 xs1 : Vec F S1x1152 .f32) :
    Σ' (LS0 : List (View.Piece (Elt F) S1x1152 .f32)), { LS1 : List (View.Piece (Elt F) S1x1152 .f32) //
      ∀ (xi1 xi2 : Vec F S1x1x1152 .f32) (E : Set ℕ) (K : PUnit → sProp 𝕄),
        iprop(owns (c : Thread nD τ) arg2 fullShare x0 ∗ owns (c : Thread nD τ) arg3 fullShare xi1 ∗ owns (c : Thread nD τ) arg4 fullShare xi2
            ∗ owns (c : Thread nD τ) arg5 fullShare xs0 ∗ owns (c : Thread nD τ) arg6 fullShare xs1
            ∗ (iprop(owns (c : Thread nD τ) arg2 fullShare x0 ∗ owns (c : Thread nD τ) arg3 fullShare xi1 ∗ owns (c : Thread nD τ) arg4 fullShare xi2
                ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc0__moments_kernel i arg2 harg2 arg3 harg3 arg4 harg4 arg5 harg5 arg6 harg6) K } := by
  refine ⟨?_, ?_, fun xi1 xi2 E K => ?run⟩
  case run =>
    simp only [cc0__moments_kernel_eq_skeleton]; unfold cc0__moments_kernel_skel
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]
    · iexists _; iexact HS0
    iexists _; iexact HS1

end Cert.Kernel.Frame

end
-- ==== Proof.WordFrame.CaseLast.lean ====
/-
  The body on a core's LAST tile.  Each accumulator holds what the tile before left, ends at that plus
  this tile's column sums, and is then copied into its output window, whose buffer may have held
  anything.
-/
import proofs.«173802_j78176994722585_2_alg».proof.Proof.WordFrame.CaseMiddle

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def runLast (c : Dev nD) (i : grid0.Coords) (arg2 : Memref sig .tc .vmem S1000x1152 .f32) (harg2 : arg2.IsWhole) (arg3 : Memref sig .tc .vmem S1x1x1152 .f32) (harg3 : arg3.IsWhole) (arg4 : Memref sig .tc .vmem S1x1x1152 .f32) (harg4 : arg4.IsWhole) (arg5 : Memref sig .tc .vmem S1x1152 .f32) (harg5 : arg5.IsWhole) (arg6 : Memref sig .tc .vmem S1x1152 .f32) (harg6 : arg6.IsWhole) (hc0 : ¬cond0_0 i) (hc1 : cond0_1 i)
    (x0 : Vec F S1000x1152 .f32) (xs0 xs1 : Vec F S1x1152 .f32) :
    Σ' (L1 : List (View.Piece (Elt F) S1x1x1152 .f32)) (L2 : List (View.Piece (Elt F) S1x1x1152 .f32)) (LS0 : List (View.Piece (Elt F) S1x1152 .f32)), { LS1 : List (View.Piece (Elt F) S1x1152 .f32) //
      ∀ (E : Set ℕ) (K : PUnit → sProp 𝕄),
        iprop(owns (c : Thread nD τ) arg2 fullShare x0 ∗ (∃ d, owns (c : Thread nD τ) arg3 fullShare d) ∗ (∃ d, owns (c : Thread nD τ) arg4 fullShare d)
            ∗ owns (c : Thread nD τ) arg5 fullShare xs0 ∗ owns (c : Thread nD τ) arg6 fullShare xs1
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc0__moments_kernel i arg2 harg2 arg3 harg3 arg4 harg4 arg5 harg5 arg6 harg6) K } := by
  refine ⟨?_, ?_, ?_, ?_, fun E K => ?run⟩
  case run =>
    simp only [cc0__moments_kernel_eq_skeleton]; unfold cc0__moments_kernel_skel
    unfold owns
    iintro ⟨⟨%f0, %hf0, H0⟩, ⟨%d1, %f1, -, H1⟩, ⟨%d2, %f2, -, H2⟩, ⟨%fs0, %hfs0, HS0⟩, ⟨%fs1, %hfs1, HS1⟩, Hk⟩
    obtain rfl := harg2.eq_unread hf0
    obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]; · iexists _; iexact H1
    isplitl [H2]; · iexists _; iexact H2
    isplitl [HS0]
    · iexists _; iexact HS0
    iexists _; iexact HS1

end Cert.Kernel.Frame

end
-- ==== Proof.WordFrame.Frame.lean ====
/-
  The moments kernel's run, point by point.  After the body at grid point t (tile t % 50 of core
  t / 50) the two accumulators hold: on a core's first tile, zeros plus that tile's column sums; on
  any later tile, what the tile before left plus this tile's; and on a core's last tile both output
  windows receive the accumulators' final contents and are written back.  From this: the proof data
  of the pipeline, the body's obligation at every point, the run of the whole program around the
  region, and that the three argument arrays end unchanged.
-/
import proofs.«173802_j78176994722585_2_alg».proof.Proof.WordFrame.CaseLast

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case's stores leave, read back -/

theorem coverFirst0 (c : Dev nD) (i : grid0.Coords) (arg2 : Memref sig .tc .vmem S1000x1152 .f32) (harg2 : arg2.IsWhole) (arg3 : Memref sig .tc .vmem S1x1x1152 .f32) (harg3 : arg3.IsWhole) (arg4 : Memref sig .tc .vmem S1x1x1152 .f32) (harg4 : arg4.IsWhole) (arg5 : Memref sig .tc .vmem S1x1152 .f32) (harg5 : arg5.IsWhole) (arg6 : Memref sig .tc .vmem S1x1152 .f32) (harg6 : arg6.IsWhole) (hc0 : cond0_0 i) (hc1 : ¬cond0_1 i) (x0 : Vec F S1000x1152 .f32) (y : S1x1152.Idx) :
    ∃ pc ∈ (runFirst c i arg2 harg2 arg3 harg3 arg4 harg4 arg5 harg5 arg6 harg6 hc0 hc1 x0).1, y ∈ pc.1.set :=
  View.cover_of_tiledL (runFirst c i arg2 harg2 arg3 harg3 arg4 harg4 arg5 harg5 arg6 harg6 hc0 hc1 x0).1 S1x1152.size (by sl_kernel_rfl) y

def readFirst0 (c : Dev nD) (i : grid0.Coords) (arg2 : Memref sig .tc .vmem S1000x1152 .f32) (harg2 : arg2.IsWhole) (arg3 : Memref sig .tc .vmem S1x1x1152 .f32) (harg3 : arg3.IsWhole) (arg4 : Memref sig .tc .vmem S1x1x1152 .f32) (harg4 : arg4.IsWhole) (arg5 : Memref sig .tc .vmem S1x1152 .f32) (harg5 : arg5.IsWhole) (arg6 : Memref sig .tc .vmem S1x1152 .f32) (harg6 : arg6.IsWhole) (hc0 : cond0_0 i) (hc1 : ¬cond0_1 i) (x0 : Vec F S1000x1152 .f32) : Vec F S1x1152 .f32 :=
  VS0_0.read (Elt F) (VS0_0.writes (Elt F) VS0_0.junk (runFirst c i arg2 harg2 arg3 harg3 arg4 harg4 arg5 harg5 arg6 harg6 hc0 hc1 x0).1)

theorem coverFirst1 (c : Dev nD) (i : grid0.Coords) (arg2 : Memref sig .tc .vmem S1000x1152 .f32) (harg2 : arg2.IsWhole) (arg3 : Memref sig .tc .vmem S1x1x1152 .f32) (harg3 : arg3.IsWhole) (arg4 : Memref sig .tc .vmem S1x1x1152 .f32) (harg4 : arg4.IsWhole) (arg5 : Memref sig .tc .vmem S1x1152 .f32) (harg5 : arg5.IsWhole) (arg6 : Memref sig .tc .vmem S1x1152 .f32) (harg6 : arg6.IsWhole) (hc0 : cond0_0 i) (hc1 : ¬cond0_1 i) (x0 : Vec F S1000x1152 .f32) (y : S1x1152.Idx) :
    ∃ pc ∈ (runFirst c i arg2 harg2 arg3 harg3 arg4 harg4 arg5 harg5 arg6 harg6 hc0 hc1 x0).2.1, y ∈ pc.1.set :=
  View.cover_of_tiledL (runFirst c i arg2 harg2 arg3 harg3 arg4 harg4 arg5 harg5 arg6 harg6 hc0 hc1 x0).2.1 S1x1152.size (by sl_kernel_rfl) y

def readFirst1 (c : Dev nD) (i : grid0.Coords) (arg2 : Memref sig .tc .vmem S1000x1152 .f32) (harg2 : arg2.IsWhole) (arg3 : Memref sig .tc .vmem S1x1x1152 .f32) (harg3 : arg3.IsWhole) (arg4 : Memref sig .tc .vmem S1x1x1152 .f32) (harg4 : arg4.IsWhole) (arg5 : Memref sig .tc .vmem S1x1152 .f32) (harg5 : arg5.IsWhole) (arg6 : Memref sig .tc .vmem S1x1152 .f32) (harg6 : arg6.IsWhole) (hc0 : cond0_0 i) (hc1 : ¬cond0_1 i) (x0 : Vec F S1000x1152 .f32) : Vec F S1x1152 .f32 :=
  VS0_1.read (Elt F) (VS0_1.writes (Elt F) VS0_1.junk (runFirst c i arg2 harg2 arg3 harg3 arg4 harg4 arg5 harg5 arg6 harg6 hc0 hc1 x0).2.1)

theorem coverMiddle0 (c : Dev nD) (i : grid0.Coords) (arg2 : Memref sig .tc .vmem S1000x1152 .f32) (harg2 : arg2.IsWhole) (arg3 : Memref sig .tc .vmem S1x1x1152 .f32) (harg3 : arg3.IsWhole) (arg4 : Memref sig .tc .vmem S1x1x1152 .f32) (harg4 : arg4.IsWhole) (arg5 : Memref sig .tc .vmem S1x1152 .f32) (harg5 : arg5.IsWhole) (arg6 : Memref sig .tc .vmem S1x1152 .f32) (harg6 : arg6.IsWhole) (hc0 : ¬cond0_0 i) (hc1 : ¬cond0_1 i) (x0 : Vec F S1000x1152 .f32) (xs0 xs1 : Vec F S1x1152 .f32) (y : S1x1152.Idx) :
    ∃ pc ∈ (runMiddle c i arg2 harg2 arg3 harg3 arg4 harg4 arg5 harg5 arg6 harg6 hc0 hc1 x0 xs0 xs1).1, y ∈ pc.1.set :=
  View.cover_of_tiledL (runMiddle c i arg2 harg2 arg3 harg3 arg4 harg4 arg5 harg5 arg6 harg6 hc0 hc1 x0 xs0 xs1).1 S1x1152.size (by sl_kernel_rfl) y

def readMiddle0 (c : Dev nD) (i : grid0.Coords) (arg2 : Memref sig .tc .vmem S1000x1152 .f32) (harg2 : arg2.IsWhole) (arg3 : Memref sig .tc .vmem S1x1x1152 .f32) (harg3 : arg3.IsWhole) (arg4 : Memref sig .tc .vmem S1x1x1152 .f32) (harg4 : arg4.IsWhole) (arg5 : Memref sig .tc .vmem S1x1152 .f32) (harg5 : arg5.IsWhole) (arg6 : Memref sig .tc .vmem S1x1152 .f32) (harg6 : arg6.IsWhole) (hc0 : ¬cond0_0 i) (hc1 : ¬cond0_1 i) (x0 : Vec F S1000x1152 .f32) (xs0 xs1 : Vec F S1x1152 .f32) : Vec F S1x1152 .f32 :=
  VS0_0.read (Elt F) (VS0_0.writes (Elt F) VS0_0.junk (runMiddle c i arg2 harg2 arg3 harg3 arg4 harg4 arg5 harg5 arg6 harg6 hc0 hc1 x0 xs0 xs1).1)

theorem coverMiddle1 (c : Dev nD) (i : grid0.Coords) (arg2 : Memref sig .tc .vmem S1000x1152 .f32) (harg2 : arg2.IsWhole) (arg3 : Memref sig .tc .vmem S1x1x1152 .f32) (harg3 : arg3.IsWhole) (arg4 : Memref sig .tc .vmem S1x1x1152 .f32) (harg4 : arg4.IsWhole) (arg5 : Memref sig .tc .vmem S1x1152 .f32) (harg5 : arg5.IsWhole) (arg6 : Memref sig .tc .vmem S1x1152 .f32) (harg6 : arg6.IsWhole) (hc0 : ¬cond0_0 i) (hc1 : ¬cond0_1 i) (x0 : Vec F S1000x1152 .f32) (xs0 xs1 : Vec F S1x1152 .f32) (y : S1x1152.Idx) :
    ∃ pc ∈ (runMiddle c i arg2 harg2 arg3 harg3 arg4 harg4 arg5 harg5 arg6 harg6 hc0 hc1 x0 xs0 xs1).2.1, y ∈ pc.1.set :=
  View.cover_of_tiledL (runMiddle c i arg2 harg2 arg3 harg3 arg4 harg4 arg5 harg5 arg6 harg6 hc0 hc1 x0 xs0 xs1).2.1 S1x1152.size (by sl_kernel_rfl) y

def readMiddle1 (c : Dev nD) (i : grid0.Coords) (arg2 : Memref sig .tc .vmem S1000x1152 .f32) (harg2 : arg2.IsWhole) (arg3 : Memref sig .tc .vmem S1x1x1152 .f32) (harg3 : arg3.IsWhole) (arg4 : Memref sig .tc .vmem S1x1x1152 .f32) (harg4 : arg4.IsWhole) (arg5 : Memref sig .tc .vmem S1x1152 .f32) (harg5 : arg5.IsWhole) (arg6 : Memref sig .tc .vmem S1x1152 .f32) (harg6 : arg6.IsWhole) (hc0 : ¬cond0_0 i) (hc1 : ¬cond0_1 i) (x0 : Vec F S1000x1152 .f32) (xs0 xs1 : Vec F S1x1152 .f32) : Vec F S1x1152 .f32 :=
  VS0_1.read (Elt F) (VS0_1.writes (Elt F) VS0_1.junk (runMiddle c i arg2 harg2 arg3 harg3 arg4 harg4 arg5 harg5 arg6 harg6 hc0 hc1 x0 xs0 xs1).2.1)

theorem coverLastO1 (c : Dev nD) (i : grid0.Coords) (arg2 : Memref sig .tc .vmem S1000x1152 .f32) (harg2 : arg2.IsWhole) (arg3 : Memref sig .tc .vmem S1x1x1152 .f32) (harg3 : arg3.IsWhole) (arg4 : Memref sig .tc .vmem S1x1x1152 .f32) (harg4 : arg4.IsWhole) (arg5 : Memref sig .tc .vmem S1x1152 .f32) (harg5 : arg5.IsWhole) (arg6 : Memref sig .tc .vmem S1x1152 .f32) (harg6 : arg6.IsWhole) (hc0 : ¬cond0_0 i) (hc1 : cond0_1 i) (x0 : Vec F S1000x1152 .f32) (xs0 xs1 : Vec F S1x1152 .f32) (y : S1x1x1152.Idx) :
    ∃ pc ∈ (runLast c i arg2 harg2 arg3 harg3 arg4 harg4 arg5 harg5 arg6 harg6 hc0 hc1 x0 xs0 xs1).1, y ∈ pc.1.set :=
  View.cover_of_tiledL (runLast c i arg2 harg2 arg3 harg3 arg4 harg4 arg5 harg5 arg6 harg6 hc0 hc1 x0 xs0 xs1).1 S1x1x1152.size (by sl_kernel_rfl) y

def readLastO1 (c : Dev nD) (i : grid0.Coords) (arg2 : Memref sig .tc .vmem S1000x1152 .f32) (harg2 : arg2.IsWhole) (arg3 : Memref sig .tc .vmem S1x1x1152 .f32) (harg3 : arg3.IsWhole) (arg4 : Memref sig .tc .vmem S1x1x1152 .f32) (harg4 : arg4.IsWhole) (arg5 : Memref sig .tc .vmem S1x1152 .f32) (harg5 : arg5.IsWhole) (arg6 : Memref sig .tc .vmem S1x1152 .f32) (harg6 : arg6.IsWhole) (hc0 : ¬cond0_0 i) (hc1 : cond0_1 i) (x0 : Vec F S1000x1152 .f32) (xs0 xs1 : Vec F S1x1152 .f32) : Vec F S1x1x1152 .f32 :=
  VO0_1.read (Elt F) (VO0_1.writes (Elt F) VO0_1.junk (runLast c i arg2 harg2 arg3 harg3 arg4 harg4 arg5 harg5 arg6 harg6 hc0 hc1 x0 xs0 xs1).1)

theorem coverLastO2 (c : Dev nD) (i : grid0.Coords) (arg2 : Memref sig .tc .vmem S1000x1152 .f32) (harg2 : arg2.IsWhole) (arg3 : Memref sig .tc .vmem S1x1x1152 .f32) (harg3 : arg3.IsWhole) (arg4 : Memref sig .tc .vmem S1x1x1152 .f32) (harg4 : arg4.IsWhole) (arg5 : Memref sig .tc .vmem S1x1152 .f32) (harg5 : arg5.IsWhole) (arg6 : Memref sig .tc .vmem S1x1152 .f32) (harg6 : arg6.IsWhole) (hc0 : ¬cond0_0 i) (hc1 : cond0_1 i) (x0 : Vec F S1000x1152 .f32) (xs0 xs1 : Vec F S1x1152 .f32) (y : S1x1x1152.Idx) :
    ∃ pc ∈ (runLast c i arg2 harg2 arg3 harg3 arg4 harg4 arg5 harg5 arg6 harg6 hc0 hc1 x0 xs0 xs1).2.1, y ∈ pc.1.set :=
  View.cover_of_tiledL (runLast c i arg2 harg2 arg3 harg3 arg4 harg4 arg5 harg5 arg6 harg6 hc0 hc1 x0 xs0 xs1).2.1 S1x1x1152.size (by sl_kernel_rfl) y

def readLastO2 (c : Dev nD) (i : grid0.Coords) (arg2 : Memref sig .tc .vmem S1000x1152 .f32) (harg2 : arg2.IsWhole) (arg3 : Memref sig .tc .vmem S1x1x1152 .f32) (harg3 : arg3.IsWhole) (arg4 : Memref sig .tc .vmem S1x1x1152 .f32) (harg4 : arg4.IsWhole) (arg5 : Memref sig .tc .vmem S1x1152 .f32) (harg5 : arg5.IsWhole) (arg6 : Memref sig .tc .vmem S1x1152 .f32) (harg6 : arg6.IsWhole) (hc0 : ¬cond0_0 i) (hc1 : cond0_1 i) (x0 : Vec F S1000x1152 .f32) (xs0 xs1 : Vec F S1x1152 .f32) : Vec F S1x1x1152 .f32 :=
  VO0_2.read (Elt F) (VO0_2.writes (Elt F) VO0_2.junk (runLast c i arg2 harg2 arg3 harg3 arg4 harg4 arg5 harg5 arg6 harg6 hc0 hc1 x0 xs0 xs1).2.1)

theorem coverLast0 (c : Dev nD) (i : grid0.Coords) (arg2 : Memref sig .tc .vmem S1000x1152 .f32) (harg2 : arg2.IsWhole) (arg3 : Memref sig .tc .vmem S1x1x1152 .f32) (harg3 : arg3.IsWhole) (arg4 : Memref sig .tc .vmem S1x1x1152 .f32) (harg4 : arg4.IsWhole) (arg5 : Memref sig .tc .vmem S1x1152 .f32) (harg5 : arg5.IsWhole) (arg6 : Memref sig .tc .vmem S1x1152 .f32) (harg6 : arg6.IsWhole) (hc0 : ¬cond0_0 i) (hc1 : cond0_1 i) (x0 : Vec F S1000x1152 .f32) (xs0 xs1 : Vec F S1x1152 .f32) (y : S1x1152.Idx) :
    ∃ pc ∈ (runLast c i arg2 harg2 arg3 harg3 arg4 harg4 arg5 harg5 arg6 harg6 hc0 hc1 x0 xs0 xs1).2.2.1, y ∈ pc.1.set :=
  View.cover_of_tiledL (runLast c i arg2 harg2 arg3 harg3 arg4 harg4 arg5 harg5 arg6 harg6 hc0 hc1 x0 xs0 xs1).2.2.1 S1x1152.size (by sl_kernel_rfl) y

def readLast0 (c : Dev nD) (i : grid0.Coords) (arg2 : Memref sig .tc .vmem S1000x1152 .f32) (harg2 : arg2.IsWhole) (arg3 : Memref sig .tc .vmem S1x1x1152 .f32) (harg3 : arg3.IsWhole) (arg4 : Memref sig .tc .vmem S1x1x1152 .f32) (harg4 : arg4.IsWhole) (arg5 : Memref sig .tc .vmem S1x1152 .f32) (harg5 : arg5.IsWhole) (arg6 : Memref sig .tc .vmem S1x1152 .f32) (harg6 : arg6.IsWhole) (hc0 : ¬cond0_0 i) (hc1 : cond0_1 i) (x0 : Vec F S1000x1152 .f32) (xs0 xs1 : Vec F S1x1152 .f32) : Vec F S1x1152 .f32 :=
  VS0_0.read (Elt F) (VS0_0.writes (Elt F) VS0_0.junk (runLast c i arg2 harg2 arg3 harg3 arg4 harg4 arg5 harg5 arg6 harg6 hc0 hc1 x0 xs0 xs1).2.2.1)

theorem coverLast1 (c : Dev nD) (i : grid0.Coords) (arg2 : Memref sig .tc .vmem S1000x1152 .f32) (harg2 : arg2.IsWhole) (arg3 : Memref sig .tc .vmem S1x1x1152 .f32) (harg3 : arg3.IsWhole) (arg4 : Memref sig .tc .vmem S1x1x1152 .f32) (harg4 : arg4.IsWhole) (arg5 : Memref sig .tc .vmem S1x1152 .f32) (harg5 : arg5.IsWhole) (arg6 : Memref sig .tc .vmem S1x1152 .f32) (harg6 : arg6.IsWhole) (hc0 : ¬cond0_0 i) (hc1 : cond0_1 i) (x0 : Vec F S1000x1152 .f32) (xs0 xs1 : Vec F S1x1152 .f32) (y : S1x1152.Idx) :
    ∃ pc ∈ (runLast c i arg2 harg2 arg3 harg3 arg4 harg4 arg5 harg5 arg6 harg6 hc0 hc1 x0 xs0 xs1).2.2.2.1, y ∈ pc.1.set :=
  View.cover_of_tiledL (runLast c i arg2 harg2 arg3 harg3 arg4 harg4 arg5 harg5 arg6 harg6 hc0 hc1 x0 xs0 xs1).2.2.2.1 S1x1152.size (by sl_kernel_rfl) y

def readLast1 (c : Dev nD) (i : grid0.Coords) (arg2 : Memref sig .tc .vmem S1000x1152 .f32) (harg2 : arg2.IsWhole) (arg3 : Memref sig .tc .vmem S1x1x1152 .f32) (harg3 : arg3.IsWhole) (arg4 : Memref sig .tc .vmem S1x1x1152 .f32) (harg4 : arg4.IsWhole) (arg5 : Memref sig .tc .vmem S1x1152 .f32) (harg5 : arg5.IsWhole) (arg6 : Memref sig .tc .vmem S1x1152 .f32) (harg6 : arg6.IsWhole) (hc0 : ¬cond0_0 i) (hc1 : cond0_1 i) (x0 : Vec F S1000x1152 .f32) (xs0 xs1 : Vec F S1x1152 .f32) : Vec F S1x1152 .f32 :=
  VS0_1.read (Elt F) (VS0_1.writes (Elt F) VS0_1.junk (runLast c i arg2 harg2 arg3 harg3 arg4 harg4 arg5 harg5 arg6 harg6 hc0 hc1 x0 xs0 xs1).2.2.2.1)

/-- A stand-in for the contents of a buffer nothing consults. -/
def junkO1 : Vec F S1x1x1152 .f32 := VO0_1.read (Elt F) VO0_1.junk
def junkO2 : Vec F S1x1x1152 .f32 := VO0_2.read (Elt F) VO0_2.junk
def junkS0 : Vec F S1x1152 .f32 := VS0_0.read (Elt F) VS0_0.junk
def junkS1 : Vec F S1x1152 .f32 := VS0_1.read (Elt F) VS0_1.junk

/-! ## One point's update, and its iteration over the grid -/

/-- What the two output buffers and the two accumulators hold after the body at point `t`, given what
    the accumulators held before it (`p0`, `p1`; ignored on a core's first tile). -/
def stepAt (c : Dev nD) (t : Fin cfg0.N) (p0 p1 : Vec F S1x1152 .f32) : Vec F S1x1x1152 .f32 × Vec F S1x1x1152 .f32 × Vec F S1x1152 .f32 × Vec F S1x1152 .f32 :=
  if h0 : t.val % 50 = 0 then
    if h1 : t.val % 50 = 49 then (junkO1, junkO2, junkS0, junkS1)
    else (junkO1, junkO2, readFirst0 c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk m c 0 t), readFirst1 c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk m c 0 t))
  else
    if h1 : t.val % 50 = 49 then
      (readLastO1 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk m c 0 t) p0 p1, readLastO2 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk m c 0 t) p0 p1,
       readLast0 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk m c 0 t) p0 p1, readLast1 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk m c 0 t) p0 p1)
    else (junkO1, junkO2, readMiddle0 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk m c 0 t) p0 p1, readMiddle1 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk m c 0 t) p0 p1)

/-- The accumulation over the grid's points in order. -/
def outsAt (c : Dev nD) : (n : ℕ) → n < cfg0.N → Vec F S1x1x1152 .f32 × Vec F S1x1x1152 .f32 × Vec F S1x1152 .f32 × Vec F S1x1152 .f32
  | 0, hn => stepAt m c ⟨0, hn⟩ junkS0 junkS1
  | n + 1, hn => stepAt m c ⟨n + 1, hn⟩ (outsAt c n (Nat.lt_of_succ_lt hn)).2.2.1 (outsAt c n (Nat.lt_of_succ_lt hn)).2.2.2

theorem outsAt_zero (c : Dev nD) (t : Fin cfg0.N) (hz : t.val = 0) :
    outsAt m c t.val t.isLt = stepAt m c t junkS0 junkS1 := by
  obtain ⟨n, hn⟩ := t
  cases n with
  | zero => rfl
  | succ n => exact absurd hz (Nat.succ_ne_zero n)

theorem outsAt_pos (c : Dev nD) (t : Fin cfg0.N) (hz : t.val ≠ 0) :
    outsAt m c t.val t.isLt = stepAt m c t (outsAt m c (t.val - 1) (Nat.lt_of_le_of_lt (Nat.sub_le _ _) t.isLt)).2.2.1
      (outsAt m c (t.val - 1) (Nat.lt_of_le_of_lt (Nat.sub_le _ _) t.isLt)).2.2.2 := by
  obtain ⟨n, hn⟩ := t
  cases n with
  | zero => exact absurd rfl hz
  | succ n => rfl

/-- On a core's first tile the update ignores what the accumulators held. -/
theorem stepAt_first (c : Dev nD) (t : Fin cfg0.N) (h0 : t.val % 50 = 0) (p0 p1 q0 q1 : Vec F S1x1152 .f32) :
    stepAt m c t p0 p1 = stepAt m c t q0 q1 := by
  have h1 : ¬t.val % 50 = 49 := by omega
  unfold stepAt; rw [dif_pos h0, dif_neg h1, dif_pos h0, dif_neg h1]

/-! ## The region's invariant -/

/-- Before the first point: what the launch hands over (both accumulators at anything).  Before any
    later point: both accumulators at what the point before left, and the generator register. -/
def PhiS (c : Dev nD) : (n : ℕ) → n ≤ cfg0.N → sProp 𝕄
  | 0, _ => Pipeline.ΦA spec0 c
  | n + 1, hn => iprop(iprop(owns (c : Thread nD τ) scM0_0 fullShare ((outsAt m c n hn).2.2.1) ∗ owns (c : Thread nD τ) scM0_1 fullShare ((outsAt m c n hn).2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt m c n hn).2.2.1) ∗ owns (c : Thread nD τ) scM0_1 fullShare ((outsAt m c n hn).2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt m c (n - 1) (by omega)).2.2.1) ∗ owns (c : Thread nD τ) scM0_1 fullShare ((outsAt m c (n - 1) (by omega)).2.2.2)) ∗ (∃ r, prngReg c r)) := by
  cases n with
  | zero => exact absurd rfl hz
  | succ n => rfl

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => (outsAt m c t.val t.isLt).1
    | ⟨2, _⟩ => (outsAt m c t.val t.isLt).2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = (outsAt m c t.val t.isLt).1 := by dsimp only [dats]
theorem after0_2 (c : Dev nD) (t : Fin cfg0.N) : (dats m 0 c).after 2 t = (outsAt m c t.val t.isLt).2.1 := by dsimp only [dats]

theorem before0_0 (c : Dev nD) (t : Fin cfg0.N) (d) : (dats m 0 c).before 0 t d = iblk m c 0 t :=
  before0_0_of m (dats m 0 c) (A_eq m c 0) (after0_0 m c) t d

/-! ## The body's obligation at a point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).owesAt () t.succ = (dats m 0 c).owesAt () t.castSucc from rfl]
  rw [show (dats m 0 c).Φ t.succ = PhiS m c (t.val + 1) t.isLt from rfl, PhiS_succ]
  have hN : t.val < 100 := lt_of_lt_of_eq t.isLt (show cfg0.N = 100 from N_0)
  rw [show (dats m 0 c).leavesExact 0 t = owns (c : Thread nD τ) (ms0_0 t) fullShare ((dats m 0 c).after 0 t) from by
    unfold Dat.leavesExact; rw [liveAt0_0 t], after0_0]
  by_cases h0 : t.val % 50 = 0
  · have h1 : ¬t.val % 50 = 49 := by omega
    rw [Dat.leavesExact_idle (dats m 0 c) 1 t (idleAt0_1 t (fun h => h1 ((hcond0_1 t).mp h))) (noFlush0_1 t (fun h => h1 ((hcond0_1 t).mp h)))]
    rw [Dat.leavesExact_idle (dats m 0 c) 2 t (idleAt0_2 t (fun h => h1 ((hcond0_1 t).mp h))) (noFlush0_2 t (fun h => h1 ((hcond0_1 t).mp h)))]
    have hstep : (outsAt m c t.val t.isLt) = (junkO1, junkO2, readFirst0 c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk m c 0 t), readFirst1 c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk m c 0 t)) := by
      by_cases hz : t.val = 0
      · rw [outsAt_zero m c t hz]; unfold stepAt; rw [dif_pos h0, dif_neg h1]
      · rw [outsAt_pos m c t hz]; unfold stepAt; rw [dif_pos h0, dif_neg h1]
    rw [hstep]
    unfold readFirst0 readFirst1; (try dsimp only)
    by_cases hz : t.val = 0
    · -- the grid's very first point: the launch hands both accumulators over at anything
      rw [PhiS_castSucc m c t, PhiS_zero m c _ _ hz, PhiA0_eq]
      iintro ⟨⟨⟨HS0, HS1⟩, Hg⟩, Ho, ⟨%d0, H0⟩, ⟨%d1, H1⟩, ⟨%d2, H2⟩⟩
      iapply ((runFirst c (grid0.coords t) _ _ _ _ _ _ _ _ _ _ ((hcond0_0 t).mpr h0) (fun h => h1 ((hcond0_1 t).mp h)) (iblk m c 0 t)).2.2 _ _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [HS0 HS1 Hg]
      · isplitr [Hg]
        · isplitl [HS0]
          · unfold owns; iexists _; isplitr
            swap; · iexact HS0
            ipureintro; exact View.read_writes_of_cover _ _ _ _ _ (coverFirst0 c _ _ _ _ _ _ _ _ _ _ _ _ _ _)
          · unfold owns; iexists _; isplitr
            swap; · iexact HS1
            ipureintro; exact View.read_writes_of_cover _ _ _ _ _ (coverFirst1 c _ _ _ _ _ _ _ _ _ _ _ _ _ _)
        · iexact Hg
      isplitl [Ho]; · iexact Ho
      isplitl [H0]; · iexact H0
      isplitl [H1]; · iexists _; iexact H1
      iexists _; iexact H2
    · -- the second core's first tile: what the first core's last tile left is simply overwritten
      rw [PhiS_castSucc m c t, PhiS_pos m c _ _ hz]
      iintro ⟨⟨⟨HS0, HS1⟩, Hg⟩, Ho, ⟨%d0, H0⟩, ⟨%d1, H1⟩, ⟨%d2, H2⟩⟩
      iapply ((runFirst c (grid0.coords t) _ _ _ _ _ _ _ _ _ _ ((hcond0_0 t).mpr h0) (fun h => h1 ((hcond0_1 t).mp h)) (iblk m c 0 t)).2.2 _ _ Set.univ _)
      isplitl [H0]; · iexact H0
      isplitl [H1]; · iexact H1
      isplitl [H2]; · iexact H2
      isplitl [HS0]; · iexists _; iexact HS0
      isplitl [HS1]; · iexists _; iexact HS1
      iintro ⟨H0, H1, H2, ⟨%es0, HS0⟩, ⟨%es1, HS1⟩⟩
      isplitl [HS0 HS1 Hg]
      · isplitr [Hg]
        · isplitl [HS0]
          · unfold owns; iexists _; isplitr
            swap; · iexact HS0
            ipureintro; exact View.read_writes_of_cover _ _ _ _ _ (coverFirst0 c _ _ _ _ _ _ _ _ _ _ _ _ _ _)
          · unfold owns; iexists _; isplitr
            swap; · iexact HS1
            ipureintro; exact View.read_writes_of_cover _ _ _ _ _ (coverFirst1 c _ _ _ _ _ _ _ _ _ _ _ _ _ _)
        · iexact Hg
      isplitl [Ho]; · iexact Ho
      isplitl [H0]; · iexact H0
      isplitl [H1]; · iexists _; iexact H1
      iexists _; iexact H2
  · have hz : t.val ≠ 0 := fun hz => h0 (by rw [hz])
    by_cases h1 : t.val % 50 = 49
    · rw [show (dats m 0 c).leavesExact 1 t = owns (c : Thread nD τ) (ms0_1 t) fullShare ((dats m 0 c).after 1 t) from by
        unfold Dat.leavesExact; rw [liveAt0_1 t ((hcond0_1 t).mpr h1)], after0_1]
      rw [show (dats m 0 c).leavesExact 2 t = owns (c : Thread nD τ) (ms0_2 t) fullShare ((dats m 0 c).after 2 t) from by
        unfold Dat.leavesExact; rw [liveAt0_2 t ((hcond0_1 t).mpr h1)], after0_2]
      rw [outsAt_pos m c t hz]
      unfold stepAt; rw [dif_neg h0, dif_pos h1]
      unfold readLastO1 readLastO2 readLast0 readLast1; (try dsimp only)
      rw [PhiS_castSucc m c t, PhiS_pos m c _ _ hz]
      iintro ⟨⟨⟨HS0, HS1⟩, Hg⟩, Ho, ⟨%d0, H0⟩, ⟨%d1, H1⟩, ⟨%d2, H2⟩⟩
      iapply ((runLast c (grid0.coords t) _ _ _ _ _ _ _ _ _ _ (fun h => h0 ((hcond0_0 t).mp h)) ((hcond0_1 t).mpr h1) (iblk m c 0 t) _ _).2.2.2.2 Set.univ _)
      isplitl [H0]; · iexact H0
      isplitl [H1]; · iexists _; iexact H1
      isplitl [H2]; · iexists _; iexact H2
      isplitl [HS0]; · iexact HS0
      isplitl [HS1]; · iexact HS1
      iintro ⟨H0, ⟨%e1, H1⟩, ⟨%e2, H2⟩, ⟨%es0, HS0⟩, ⟨%es1, HS1⟩⟩
      isplitl [HS0 HS1 Hg]
      · isplitr [Hg]
        · isplitl [HS0]
          · unfold owns; iexists _; isplitr
            swap; · iexact HS0
            ipureintro; exact View.read_writes_of_cover _ _ _ _ _ (coverLast0 c _ _ _ _ _ _ _ _ _ _ _ _ _ _ _ _)
          · unfold owns; iexists _; isplitr
            swap; · iexact HS1
            ipureintro; exact View.read_writes_of_cover _ _ _ _ _ (coverLast1 c _ _ _ _ _ _ _ _ _ _ _ _ _ _ _ _)
        · iexact Hg
      isplitl [Ho]; · iexact Ho
      isplitl [H0]; · iexact H0
      isplitl [H1]
      · unfold owns; iexists _; isplitr
        swap; · iexact H1
        ipureintro; exact View.read_writes_of_cover _ _ _ _ _ (coverLastO1 c _ _ _ _ _ _ _ _ _ _ _ _ _ _ _ _)
      · unfold owns; iexists _; isplitr
        swap; · iexact H2
        ipureintro; exact View.read_writes_of_cover _ _ _ _ _ (coverLastO2 c _ _ _ _ _ _ _ _ _ _ _ _ _ _ _ _)
    · rw [Dat.leavesExact_idle (dats m 0 c) 1 t (idleAt0_1 t (fun h => h1 ((hcond0_1 t).mp h))) (noFlush0_1 t (fun h => h1 ((hcond0_1 t).mp h)))]
      rw [Dat.leavesExact_idle (dats m 0 c) 2 t (idleAt0_2 t (fun h => h1 ((hcond0_1 t).mp h))) (noFlush0_2 t (fun h => h1 ((hcond0_1 t).mp h)))]
      rw [outsAt_pos m c t hz]
      unfold stepAt; rw [dif_neg h0, dif_neg h1]
      unfold readMiddle0 readMiddle1; (try dsimp only)
      rw [PhiS_castSucc m c t, PhiS_pos m c _ _ hz]
      iintro ⟨⟨⟨HS0, HS1⟩, Hg⟩, Ho, ⟨%d0, H0⟩, ⟨%d1, H1⟩, ⟨%d2, H2⟩⟩
      iapply ((runMiddle c (grid0.coords t) _ _ _ _ _ _ _ _ _ _ (fun h => h0 ((hcond0_0 t).mp h)) (fun h => h1 ((hcond0_1 t).mp h)) (iblk m c 0 t) _ _).2.2 _ _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [HS0 HS1 Hg]
      · isplitr [Hg]
        · isplitl [HS0]
          · unfold owns; iexists _; isplitr
            swap; · iexact HS0
            ipureintro; exact View.read_writes_of_cover _ _ _ _ _ (coverMiddle0 c _ _ _ _ _ _ _ _ _ _ _ _ _ _ _ _)
          · unfold owns; iexists _; isplitr
            swap; · iexact HS1
            ipureintro; exact View.read_writes_of_cover _ _ _ _ _ (coverMiddle1 c _ _ _ _ _ _ _ _ _ _ _ _ _ _ _ _)
        · iexact Hg
      isplitl [Ho]; · iexact Ho
      isplitl [H0]; · iexact H0
      isplitl [H1]; · iexists _; iexact H1
      iexists _; iexact H2

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitr [Hg]
  · isplitl [HS0]
    · iexists _; iexact HS0
    · iexists _; iexact HS1
  · iexact Hg

theorem hout (c : Dev nD) : (dats m 0 c).Φ (Fin.last cfg0.N) ⊢ Pipeline.ΦA spec0 c :=
  Phi_out m c _ (by rw [Fin.val_last]; have : cfg0.N = 100 := N_0; omega)

/-! ## The run, and the arguments unchanged -/

set_option backward.isDefEq.respectTransparency.types false in
/-- Every weakly fair execution of the program terminates; each of the region's arrays ends at what the
    proof data compute for it, and every other unscoped buffer as the later operations leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_fresh) (hkeep := tail_keeps)
    (hmain := hmain m Variants.none) (hA := A_eq m) (hin := hin m) (hout := hout m)

end Cert.Kernel.Frame

end
-- ==== Proof.WordFrame.Post.lean ====
/-
  The three argument arrays end unchanged.  None of them is an array of the region (the region reads
  the reshaped copy of the first), and no host operation before or after the region writes one: each
  writes only its own fresh result buffer.
-/
import proofs.«173802_j78176994722585_2_alg».proof.Proof.WordFrame.Frame

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hostOps1_keeps_args : (hostOps1 : List (HloOp τ sig (Elt F))).Forall fun op =>
    Proc.devRef .tc main_arg0 ∉ op.writes ∧ Proc.devRef .tc main_arg1 ∉ op.writes ∧ Proc.devRef .tc main_arg2 ∉ op.writes := by
  simp only [List.Forall]
  repeat' constructor
  all_goals simp only [StableHlo.nullary_writes, StableHlo.unary_writes, StableHlo.binary_writes, StableHlo.nary_writes, StableHlo.reshape_writes, Finset.mem_singleton] <;> exact StableHlo.devRef_ne_of_ne (by decide)

theorem hostOps0_keeps_args : (hostOps0 : List (HloOp τ sig (Elt F))).Forall fun op =>
    Proc.devRef .tc main_arg0 ∉ op.writes ∧ Proc.devRef .tc main_arg1 ∉ op.writes ∧ Proc.devRef .tc main_arg2 ∉ op.writes := by
  simp only [List.Forall]
  repeat' constructor
  all_goals simp only [StableHlo.nullary_writes, StableHlo.unary_writes, StableHlo.binary_writes, StableHlo.nary_writes, StableHlo.reshape_writes, Finset.mem_singleton] <;> exact StableHlo.devRef_ne_of_ne (by decide)

/-- A buffer that is no array of the region and that no host operation writes holds, after the whole
    program, what it held at the launch. -/
theorem kept (c : Dev nD) (b : Ref sig .tc) (harr : ∀ w, Pipeline.arrRef spec0 w ≠ b)
    (h1 : ∀ op ∈ (hostOps1 : List (HloOp τ sig (Elt F))), Proc.devRef .tc b ∉ op.writes)
    (h0 : ∀ op ∈ (hostOps0 : List (HloOp τ sig (Elt F))), Proc.devRef .tc b ∉ op.writes) :
    Pipeline.afterTail₀ cfgs (dats m) 0 (V0 m) [hostOps1] c b = m ((c.tc : Thread nD τ).loc b) := by
  unfold Pipeline.afterTail₀
  simp only [List.flatten_cons, List.flatten_nil, List.append_nil]
  rw [StableHlo.after_of_forall_not_mem _ _ h1, Pipeline.withArrays_of_ne _ c _ _ b harr]
  show StableHlo.after (List.flatten [hostOps0]) (fun b => m (c, b)) (Proc.devRef .tc b) = _
  simp only [List.flatten_cons, List.flatten_nil, List.append_nil]
  rw [StableHlo.after_of_forall_not_mem _ _ h0]

theorem kept_arg0 (c : Dev nD) : Pipeline.afterTail₀ cfgs (dats m) 0 (V0 m) [hostOps1] c main_arg0 = m ((c.tc : Thread nD τ).loc main_arg0) :=
  kept m c main_arg0 (by decide) (fun op hop => ((List.forall_iff_forall_mem.mp hostOps1_keeps_args) op hop).1)
    (fun op hop => ((List.forall_iff_forall_mem.mp hostOps0_keeps_args) op hop).1)
theorem kept_arg1 (c : Dev nD) : Pipeline.afterTail₀ cfgs (dats m) 0 (V0 m) [hostOps1] c main_arg1 = m ((c.tc : Thread nD τ).loc main_arg1) :=
  kept m c main_arg1 (by decide) (fun op hop => ((List.forall_iff_forall_mem.mp hostOps1_keeps_args) op hop).2.1)
    (fun op hop => ((List.forall_iff_forall_mem.mp hostOps0_keeps_args) op hop).2.1)
theorem kept_arg2 (c : Dev nD) : Pipeline.afterTail₀ cfgs (dats m) 0 (V0 m) [hostOps1] c main_arg2 = m ((c.tc : Thread nD τ).loc main_arg2) :=
  kept m c main_arg2 (by decide) (fun op hop => ((List.forall_iff_forall_mem.mp hostOps1_keeps_args) op hop).2.2)
    (fun op hop => ((List.forall_iff_forall_mem.mp hostOps0_keeps_args) op hop).2.2)

theorem arg0_rest : main_arg0 ∈ Pipeline.restRefs sig spec0 := by decide
theorem arg1_rest : main_arg1 ∈ Pipeline.restRefs sig spec0 := by decide
theorem arg2_rest : main_arg2 ∈ Pipeline.restRefs sig spec0 := by decide

/-- The program runs to the end, faults nowhere, and leaves its three arguments as it found them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 arg0_rest).trans (kept_arg0 m c), ((h c).2 main_arg1 arg1_rest).trans (kept_arg1 m c),
      ((h c).2 main_arg2 arg2_rest).trans (kept_arg2 m c)⟩) (run_main m ρ)

end Cert.Kernel.Frame

end
-- ==== Proof.IdealFrame.Base.lean ====
/-
  The moments kernel's run, shared groundwork.  The program is: one reshape of the input into its
  pair-merged form, the region on a grid of 100 points (point t is tile t % 50 of core t / 50), and
  36 host operations on the region's two outputs.  Stated here: the memory as the region finds it
  (after the reshape), how the program reduces to the region continued by the later operations, that
  those operations touch only buffers they may and write none of the region's arrays, the two branch
  conditions of the body in closed form over the grid (a core's first tile, t % 50 = 0; its last,
  t % 50 = 49), at which points each output window is idle, and the two accumulators as memrefs.
-/
import proofs.«173802_j78176994722585_2_alg».proof.Proof.Gen.KernelIdeal.Launch
import proofs.«173802_j78176994722585_2_alg».proof.Proof.Gen.KernelIdeal.Skeleton
import proofs.«173802_j78176994722585_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- A core's buffer contents when the region is entered: the launch memory after the reshape. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

theorem hostOps1_fresh : (hostOps1 : List (HloOp τ sig (Elt F))).Forall fun op => op.fresh = ∅ := by
  simp only [List.Forall]; repeat' constructor

/-- The program is the reshape, the region, then the later operations: it reduces to the region continued by them. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The later operations touch only the region's arrays and the buffers that bypass it. -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)

/-- They allocate nothing. -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

/-- Each writes only its own result buffer, which is none of the region's three arrays. -/
theorem hostOps1_keeps : (hostOps1 : List (HloOp τ sig (Elt F))).Forall fun op =>
    ∀ w, Proc.devRef .tc (Pipeline.arrRef spec0 w) ∉ op.writes := by
  simp only [List.Forall]
  repeat' constructor
  all_goals intro w; fin_cases w <;> simp only [StableHlo.nullary_writes, StableHlo.unary_writes, StableHlo.binary_writes, StableHlo.nary_writes, StableHlo.reshape_writes, Finset.mem_singleton] <;> exact StableHlo.devRef_ne_of_ne (by decide)

theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  exact (List.forall_iff_forall_mem.mp hostOps1_keeps) op hop

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The input window's current staging buffer holds its block at every point, for any proof data whose
    array is the region-entry one and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The body's two branch conditions -/

/-- "This is the core's first tile": the accumulators are reset. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 50 = 0 :=
  (by decide +kernel : ∀ t : Fin grid0.N, cond0_0 (grid0.coords t) ↔ t.val % 50 = 0)

/-- "This is the core's last tile": the accumulators are copied to the outputs. -/
abbrev cond0_1 (i : grid0.Coords) : Prop := k0_cond2 i = 1#1
theorem hcond0_1 : ∀ t : Fin cfg0.N, cond0_1 (grid0.coords t) ↔ t.val % 50 = 49 :=
  (by decide +kernel : ∀ t : Fin grid0.N, cond0_1 (grid0.coords t) ↔ t.val % 50 = 49)

/-! ## Where the windows are idle -/

theorem liveAt0_0 : ∀ t : Fin cfg0.N, cfg0.idle 0 (grid0.coords t) = false := by decide +kernel
/-- Off a core's last tile nothing is stored into either output window, and neither is written back. -/
theorem idleAt0_1 : ∀ t : Fin cfg0.N, ¬cond0_1 (grid0.coords t) → cfg0.idle 1 (grid0.coords t) = true := by decide +kernel
theorem noFlush0_1 : ∀ t : Fin cfg0.N, ¬cond0_1 (grid0.coords t) → (cfg0.win 1).flush t = false := by decide +kernel
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
/-- On it both are stored into. -/
theorem liveAt0_1 : ∀ t : Fin cfg0.N, cond0_1 (grid0.coords t) → cfg0.idle 1 (grid0.coords t) = false := by decide +kernel
theorem liveAt0_2 : ∀ t : Fin cfg0.N, cond0_1 (grid0.coords t) → cfg0.idle 2 (grid0.coords t) = false := by decide +kernel

/-! ## The memrefs the body is called with -/

/-- One staging buffer of each output window, through which its contents are stated. -/
abbrev VO0_1 : View sig .tc .vmem S1x1x1152 .f32 := (Memref.whole cc0_stg1_0 : Memref sig .tc .vmem S1x1x1152 .f32).view
abbrev VO0_2 : View sig .tc .vmem S1x1x1152 .f32 := (Memref.whole cc0_stg2_0 : Memref sig .tc .vmem S1x1x1152 .f32).view
/-- Each window's current staging memref at point `t`, and its wholeness. -/
abbrev ms0_0 (t : Fin cfg0.N) : Memref sig .tc .vmem S1000x1152 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x1152 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x1152 .f32 := win0_2.stage (cfg0.slots t 2)
abbrev hs0_2 (t : Fin cfg0.N) : (ms0_2 t).IsWhole := hstage0_2 ((cfg0.slots t 2).cast nbuf0_2)
/-- The two accumulators: whole scoped buffers of the kernel's own (the column sums; the column sums of squares). -/
abbrev scM0_0 : Memref sig .tc .vmem S1x1152 .f32 := Memref.whole cc0_scratch0
abbrev scM0_1 : Memref sig .tc .vmem S1x1152 .f32 := Memref.whole cc0_scratch1
abbrev VS0_0 : View sig .tc .vmem S1x1152 .f32 := scM0_0.view
abbrev VS0_1 : View sig .tc .vmem S1x1152 .f32 := scM0_1.view

/-- What the launch hands the region and takes back: both accumulators owned at some contents, and the
    generator register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Frame

end
-- ==== Proof.IdealFrame.CaseFirst.lean ====
/-
  The body on a core's FIRST tile.  Both accumulators are overwritten with zeros and then with zeros
  plus this tile's column sums (of the entries; of their squares), whatever they held before; nothing
  is stored into either output window, whose buffers come back as they were handed over.  The stores
  each accumulator ends with are found by running the body.
-/
import proofs.«173802_j78176994722585_2_alg».proof.Proof.IdealFrame.Base

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def runFirst (c : Dev nD) (i : grid0.Coords) (arg2 : Memref sig .tc .vmem S1000x1152 .f32) (harg2 : arg2.IsWhole) (arg3 : Memref sig .tc .vmem S1x1x1152 .f32) (harg3 : arg3.IsWhole) (arg4 : Memref sig .tc .vmem S1x1x1152 .f32) (harg4 : arg4.IsWhole) (arg5 : Memref sig .tc .vmem S1x1152 .f32) (harg5 : arg5.IsWhole) (arg6 : Memref sig .tc .vmem S1x1152 .f32) (harg6 : arg6.IsWhole) (hc0 : cond0_0 i) (hc1 : ¬cond0_1 i)
    (x0 : Vec F S1000x1152 .f32) :
    Σ' (LS0 : List (View.Piece (Elt F) S1x1152 .f32)), { LS1 : List (View.Piece (Elt F) S1x1152 .f32) //
      ∀ (xi1 xi2 : Vec F S1x1x1152 .f32) (E : Set ℕ) (K : PUnit → sProp 𝕄),
        iprop(owns (c : Thread nD τ) arg2 fullShare x0 ∗ owns (c : Thread nD τ) arg3 fullShare xi1 ∗ owns (c : Thread nD τ) arg4 fullShare xi2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare xi1 ∗ owns (c : Thread nD τ) arg4 fullShare xi2
                ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc0__moments_kernel i arg2 harg2 arg3 harg3 arg4 harg4 arg5 harg5 arg6 harg6) K } := by
  refine ⟨?_, ?_, fun xi1 xi2 E K => ?run⟩
  case run =>
    simp only [cc0__moments_kernel_eq_skeleton]; unfold cc0__moments_kernel_skel
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]
    · iexists _; iexact HS0
    iexists _; iexact HS1

end Cert.KernelIdeal.Frame

end
-- ==== Proof.IdealFrame.CaseMiddle.lean ====
/-
  The body on a tile that is neither a core's first nor its last.  Each accumulator holds what the
  tile before left and ends at that plus this tile's column sums (of the entries; of their squares);
  nothing is stored into either output window.
-/
import proofs.«173802_j78176994722585_2_alg».proof.Proof.IdealFrame.CaseFirst

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def runMiddle (c : Dev nD) (i : grid0.Coords) (arg2 : Memref sig .tc .vmem S1000x1152 .f32) (harg2 : arg2.IsWhole) (arg3 : Memref sig .tc .vmem S1x1x1152 .f32) (harg3 : arg3.IsWhole) (arg4 : Memref sig .tc .vmem S1x1x1152 .f32) (harg4 : arg4.IsWhole) (arg5 : Memref sig .tc .vmem S1x1152 .f32) (harg5 : arg5.IsWhole) (arg6 : Memref sig .tc .vmem S1x1152 .f32) (harg6 : arg6.IsWhole) (hc0 : ¬cond0_0 i) (hc1 : ¬cond0_1 i)
    (x0 : Vec F S1000x1152 .f32) (xs0 xs1 : Vec F S1x1152 .f32) :
    Σ' (LS0 : List (View.Piece (Elt F) S1x1152 .f32)), { LS1 : List (View.Piece (Elt F) S1x1152 .f32) //
      ∀ (xi1 xi2 : Vec F S1x1x1152 .f32) (E : Set ℕ) (K : PUnit → sProp 𝕄),
        iprop(owns (c : Thread nD τ) arg2 fullShare x0 ∗ owns (c : Thread nD τ) arg3 fullShare xi1 ∗ owns (c : Thread nD τ) arg4 fullShare xi2
            ∗ owns (c : Thread nD τ) arg5 fullShare xs0 ∗ owns (c : Thread nD τ) arg6 fullShare xs1
            ∗ (iprop(owns (c : Thread nD τ) arg2 fullShare x0 ∗ owns (c : Thread nD τ) arg3 fullShare xi1 ∗ owns (c : Thread nD τ) arg4 fullShare xi2
                ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc0__moments_kernel i arg2 harg2 arg3 harg3 arg4 harg4 arg5 harg5 arg6 harg6) K } := by
  refine ⟨?_, ?_, fun xi1 xi2 E K => ?run⟩
  case run =>
    simp only [cc0__moments_kernel_eq_skeleton]; unfold cc0__moments_kernel_skel
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]
    · iexists _; iexact HS0
    iexists _; iexact HS1

end Cert.KernelIdeal.Frame

end
-- ==== Proof.IdealFrame.CaseLast.lean ====
/-
  The body on a core's LAST tile.  Each accumulator holds what the tile before left, ends at that plus
  this tile's column sums, and is then copied into its output window, whose buffer may have held
  anything.
-/
import proofs.«173802_j78176994722585_2_alg».proof.Proof.IdealFrame.CaseMiddle

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def runLast (c : Dev nD) (i : grid0.Coords) (arg2 : Memref sig .tc .vmem S1000x1152 .f32) (harg2 : arg2.IsWhole) (arg3 : Memref sig .tc .vmem S1x1x1152 .f32) (harg3 : arg3.IsWhole) (arg4 : Memref sig .tc .vmem S1x1x1152 .f32) (harg4 : arg4.IsWhole) (arg5 : Memref sig .tc .vmem S1x1152 .f32) (harg5 : arg5.IsWhole) (arg6 : Memref sig .tc .vmem S1x1152 .f32) (harg6 : arg6.IsWhole) (hc0 : ¬cond0_0 i) (hc1 : cond0_1 i)
    (x0 : Vec F S1000x1152 .f32) (xs0 xs1 : Vec F S1x1152 .f32) :
    Σ' (L1 : List (View.Piece (Elt F) S1x1x1152 .f32)) (L2 : List (View.Piece (Elt F) S1x1x1152 .f32)) (LS0 : List (View.Piece (Elt F) S1x1152 .f32)), { LS1 : List (View.Piece (Elt F) S1x1152 .f32) //
      ∀ (E : Set ℕ) (K : PUnit → sProp 𝕄),
        iprop(owns (c : Thread nD τ) arg2 fullShare x0 ∗ (∃ d, owns (c : Thread nD τ) arg3 fullShare d) ∗ (∃ d, owns (c : Thread nD τ) arg4 fullShare d)
            ∗ owns (c : Thread nD τ) arg5 fullShare xs0 ∗ owns (c : Thread nD τ) arg6 fullShare xs1
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc0__moments_kernel i arg2 harg2 arg3 harg3 arg4 harg4 arg5 harg5 arg6 harg6) K } := by
  refine ⟨?_, ?_, ?_, ?_, fun E K => ?run⟩
  case run =>
    simp only [cc0__moments_kernel_eq_skeleton]; unfold cc0__moments_kernel_skel
    unfold owns
    iintro ⟨⟨%f0, %hf0, H0⟩, ⟨%d1, %f1, -, H1⟩, ⟨%d2, %f2, -, H2⟩, ⟨%fs0, %hfs0, HS0⟩, ⟨%fs1, %hfs1, HS1⟩, Hk⟩
    obtain rfl := harg2.eq_unread hf0
    obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]; · iexists _; iexact H1
    isplitl [H2]; · iexists _; iexact H2
    isplitl [HS0]
    · iexists _; iexact HS0
    iexists _; iexact HS1

end Cert.KernelIdeal.Frame

end
-- ==== Proof.IdealFrame.Frame.lean ====
/-
  The moments kernel's run, point by point.  After the body at grid point t (tile t % 50 of core
  t / 50) the two accumulators hold: on a core's first tile, zeros plus that tile's column sums; on
  any later tile, what the tile before left plus this tile's; and on a core's last tile both output
  windows receive the accumulators' final contents and are written back.  From this: the proof data
  of the pipeline, the body's obligation at every point, the run of the whole program around the
  region, and that the three argument arrays end unchanged.
-/
import proofs.«173802_j78176994722585_2_alg».proof.Proof.IdealFrame.CaseLast

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case's stores leave, read back -/

theorem coverFirst0 (c : Dev nD) (i : grid0.Coords) (arg2 : Memref sig .tc .vmem S1000x1152 .f32) (harg2 : arg2.IsWhole) (arg3 : Memref sig .tc .vmem S1x1x1152 .f32) (harg3 : arg3.IsWhole) (arg4 : Memref sig .tc .vmem S1x1x1152 .f32) (harg4 : arg4.IsWhole) (arg5 : Memref sig .tc .vmem S1x1152 .f32) (harg5 : arg5.IsWhole) (arg6 : Memref sig .tc .vmem S1x1152 .f32) (harg6 : arg6.IsWhole) (hc0 : cond0_0 i) (hc1 : ¬cond0_1 i) (x0 : Vec F S1000x1152 .f32) (y : S1x1152.Idx) :
    ∃ pc ∈ (runFirst c i arg2 harg2 arg3 harg3 arg4 harg4 arg5 harg5 arg6 harg6 hc0 hc1 x0).1, y ∈ pc.1.set :=
  View.cover_of_tiledL (runFirst c i arg2 harg2 arg3 harg3 arg4 harg4 arg5 harg5 arg6 harg6 hc0 hc1 x0).1 S1x1152.size (by sl_kernel_rfl) y

def readFirst0 (c : Dev nD) (i : grid0.Coords) (arg2 : Memref sig .tc .vmem S1000x1152 .f32) (harg2 : arg2.IsWhole) (arg3 : Memref sig .tc .vmem S1x1x1152 .f32) (harg3 : arg3.IsWhole) (arg4 : Memref sig .tc .vmem S1x1x1152 .f32) (harg4 : arg4.IsWhole) (arg5 : Memref sig .tc .vmem S1x1152 .f32) (harg5 : arg5.IsWhole) (arg6 : Memref sig .tc .vmem S1x1152 .f32) (harg6 : arg6.IsWhole) (hc0 : cond0_0 i) (hc1 : ¬cond0_1 i) (x0 : Vec F S1000x1152 .f32) : Vec F S1x1152 .f32 :=
  VS0_0.read (Elt F) (VS0_0.writes (Elt F) VS0_0.junk (runFirst c i arg2 harg2 arg3 harg3 arg4 harg4 arg5 harg5 arg6 harg6 hc0 hc1 x0).1)

theorem coverFirst1 (c : Dev nD) (i : grid0.Coords) (arg2 : Memref sig .tc .vmem S1000x1152 .f32) (harg2 : arg2.IsWhole) (arg3 : Memref sig .tc .vmem S1x1x1152 .f32) (harg3 : arg3.IsWhole) (arg4 : Memref sig .tc .vmem S1x1x1152 .f32) (harg4 : arg4.IsWhole) (arg5 : Memref sig .tc .vmem S1x1152 .f32) (harg5 : arg5.IsWhole) (arg6 : Memref sig .tc .vmem S1x1152 .f32) (harg6 : arg6.IsWhole) (hc0 : cond0_0 i) (hc1 : ¬cond0_1 i) (x0 : Vec F S1000x1152 .f32) (y : S1x1152.Idx) :
    ∃ pc ∈ (runFirst c i arg2 harg2 arg3 harg3 arg4 harg4 arg5 harg5 arg6 harg6 hc0 hc1 x0).2.1, y ∈ pc.1.set :=
  View.cover_of_tiledL (runFirst c i arg2 harg2 arg3 harg3 arg4 harg4 arg5 harg5 arg6 harg6 hc0 hc1 x0).2.1 S1x1152.size (by sl_kernel_rfl) y

def readFirst1 (c : Dev nD) (i : grid0.Coords) (arg2 : Memref sig .tc .vmem S1000x1152 .f32) (harg2 : arg2.IsWhole) (arg3 : Memref sig .tc .vmem S1x1x1152 .f32) (harg3 : arg3.IsWhole) (arg4 : Memref sig .tc .vmem S1x1x1152 .f32) (harg4 : arg4.IsWhole) (arg5 : Memref sig .tc .vmem S1x1152 .f32) (harg5 : arg5.IsWhole) (arg6 : Memref sig .tc .vmem S1x1152 .f32) (harg6 : arg6.IsWhole) (hc0 : cond0_0 i) (hc1 : ¬cond0_1 i) (x0 : Vec F S1000x1152 .f32) : Vec F S1x1152 .f32 :=
  VS0_1.read (Elt F) (VS0_1.writes (Elt F) VS0_1.junk (runFirst c i arg2 harg2 arg3 harg3 arg4 harg4 arg5 harg5 arg6 harg6 hc0 hc1 x0).2.1)

theorem coverMiddle0 (c : Dev nD) (i : grid0.Coords) (arg2 : Memref sig .tc .vmem S1000x1152 .f32) (harg2 : arg2.IsWhole) (arg3 : Memref sig .tc .vmem S1x1x1152 .f32) (harg3 : arg3.IsWhole) (arg4 : Memref sig .tc .vmem S1x1x1152 .f32) (harg4 : arg4.IsWhole) (arg5 : Memref sig .tc .vmem S1x1152 .f32) (harg5 : arg5.IsWhole) (arg6 : Memref sig .tc .vmem S1x1152 .f32) (harg6 : arg6.IsWhole) (hc0 : ¬cond0_0 i) (hc1 : ¬cond0_1 i) (x0 : Vec F S1000x1152 .f32) (xs0 xs1 : Vec F S1x1152 .f32) (y : S1x1152.Idx) :
    ∃ pc ∈ (runMiddle c i arg2 harg2 arg3 harg3 arg4 harg4 arg5 harg5 arg6 harg6 hc0 hc1 x0 xs0 xs1).1, y ∈ pc.1.set :=
  View.cover_of_tiledL (runMiddle c i arg2 harg2 arg3 harg3 arg4 harg4 arg5 harg5 arg6 harg6 hc0 hc1 x0 xs0 xs1).1 S1x1152.size (by sl_kernel_rfl) y

def readMiddle0 (c : Dev nD) (i : grid0.Coords) (arg2 : Memref sig .tc .vmem S1000x1152 .f32) (harg2 : arg2.IsWhole) (arg3 : Memref sig .tc .vmem S1x1x1152 .f32) (harg3 : arg3.IsWhole) (arg4 : Memref sig .tc .vmem S1x1x1152 .f32) (harg4 : arg4.IsWhole) (arg5 : Memref sig .tc .vmem S1x1152 .f32) (harg5 : arg5.IsWhole) (arg6 : Memref sig .tc .vmem S1x1152 .f32) (harg6 : arg6.IsWhole) (hc0 : ¬cond0_0 i) (hc1 : ¬cond0_1 i) (x0 : Vec F S1000x1152 .f32) (xs0 xs1 : Vec F S1x1152 .f32) : Vec F S1x1152 .f32 :=
  VS0_0.read (Elt F) (VS0_0.writes (Elt F) VS0_0.junk (runMiddle c i arg2 harg2 arg3 harg3 arg4 harg4 arg5 harg5 arg6 harg6 hc0 hc1 x0 xs0 xs1).1)

theorem coverMiddle1 (c : Dev nD) (i : grid0.Coords) (arg2 : Memref sig .tc .vmem S1000x1152 .f32) (harg2 : arg2.IsWhole) (arg3 : Memref sig .tc .vmem S1x1x1152 .f32) (harg3 : arg3.IsWhole) (arg4 : Memref sig .tc .vmem S1x1x1152 .f32) (harg4 : arg4.IsWhole) (arg5 : Memref sig .tc .vmem S1x1152 .f32) (harg5 : arg5.IsWhole) (arg6 : Memref sig .tc .vmem S1x1152 .f32) (harg6 : arg6.IsWhole) (hc0 : ¬cond0_0 i) (hc1 : ¬cond0_1 i) (x0 : Vec F S1000x1152 .f32) (xs0 xs1 : Vec F S1x1152 .f32) (y : S1x1152.Idx) :
    ∃ pc ∈ (runMiddle c i arg2 harg2 arg3 harg3 arg4 harg4 arg5 harg5 arg6 harg6 hc0 hc1 x0 xs0 xs1).2.1, y ∈ pc.1.set :=
  View.cover_of_tiledL (runMiddle c i arg2 harg2 arg3 harg3 arg4 harg4 arg5 harg5 arg6 harg6 hc0 hc1 x0 xs0 xs1).2.1 S1x1152.size (by sl_kernel_rfl) y

def readMiddle1 (c : Dev nD) (i : grid0.Coords) (arg2 : Memref sig .tc .vmem S1000x1152 .f32) (harg2 : arg2.IsWhole) (arg3 : Memref sig .tc .vmem S1x1x1152 .f32) (harg3 : arg3.IsWhole) (arg4 : Memref sig .tc .vmem S1x1x1152 .f32) (harg4 : arg4.IsWhole) (arg5 : Memref sig .tc .vmem S1x1152 .f32) (harg5 : arg5.IsWhole) (arg6 : Memref sig .tc .vmem S1x1152 .f32) (harg6 : arg6.IsWhole) (hc0 : ¬cond0_0 i) (hc1 : ¬cond0_1 i) (x0 : Vec F S1000x1152 .f32) (xs0 xs1 : Vec F S1x1152 .f32) : Vec F S1x1152 .f32 :=
  VS0_1.read (Elt F) (VS0_1.writes (Elt F) VS0_1.junk (runMiddle c i arg2 harg2 arg3 harg3 arg4 harg4 arg5 harg5 arg6 harg6 hc0 hc1 x0 xs0 xs1).2.1)

theorem coverLastO1 (c : Dev nD) (i : grid0.Coords) (arg2 : Memref sig .tc .vmem S1000x1152 .f32) (harg2 : arg2.IsWhole) (arg3 : Memref sig .tc .vmem S1x1x1152 .f32) (harg3 : arg3.IsWhole) (arg4 : Memref sig .tc .vmem S1x1x1152 .f32) (harg4 : arg4.IsWhole) (arg5 : Memref sig .tc .vmem S1x1152 .f32) (harg5 : arg5.IsWhole) (arg6 : Memref sig .tc .vmem S1x1152 .f32) (harg6 : arg6.IsWhole) (hc0 : ¬cond0_0 i) (hc1 : cond0_1 i) (x0 : Vec F S1000x1152 .f32) (xs0 xs1 : Vec F S1x1152 .f32) (y : S1x1x1152.Idx) :
    ∃ pc ∈ (runLast c i arg2 harg2 arg3 harg3 arg4 harg4 arg5 harg5 arg6 harg6 hc0 hc1 x0 xs0 xs1).1, y ∈ pc.1.set :=
  View.cover_of_tiledL (runLast c i arg2 harg2 arg3 harg3 arg4 harg4 arg5 harg5 arg6 harg6 hc0 hc1 x0 xs0 xs1).1 S1x1x1152.size (by sl_kernel_rfl) y

def readLastO1 (c : Dev nD) (i : grid0.Coords) (arg2 : Memref sig .tc .vmem S1000x1152 .f32) (harg2 : arg2.IsWhole) (arg3 : Memref sig .tc .vmem S1x1x1152 .f32) (harg3 : arg3.IsWhole) (arg4 : Memref sig .tc .vmem S1x1x1152 .f32) (harg4 : arg4.IsWhole) (arg5 : Memref sig .tc .vmem S1x1152 .f32) (harg5 : arg5.IsWhole) (arg6 : Memref sig .tc .vmem S1x1152 .f32) (harg6 : arg6.IsWhole) (hc0 : ¬cond0_0 i) (hc1 : cond0_1 i) (x0 : Vec F S1000x1152 .f32) (xs0 xs1 : Vec F S1x1152 .f32) : Vec F S1x1x1152 .f32 :=
  VO0_1.read (Elt F) (VO0_1.writes (Elt F) VO0_1.junk (runLast c i arg2 harg2 arg3 harg3 arg4 harg4 arg5 harg5 arg6 harg6 hc0 hc1 x0 xs0 xs1).1)

theorem coverLastO2 (c : Dev nD) (i : grid0.Coords) (arg2 : Memref sig .tc .vmem S1000x1152 .f32) (harg2 : arg2.IsWhole) (arg3 : Memref sig .tc .vmem S1x1x1152 .f32) (harg3 : arg3.IsWhole) (arg4 : Memref sig .tc .vmem S1x1x1152 .f32) (harg4 : arg4.IsWhole) (arg5 : Memref sig .tc .vmem S1x1152 .f32) (harg5 : arg5.IsWhole) (arg6 : Memref sig .tc .vmem S1x1152 .f32) (harg6 : arg6.IsWhole) (hc0 : ¬cond0_0 i) (hc1 : cond0_1 i) (x0 : Vec F S1000x1152 .f32) (xs0 xs1 : Vec F S1x1152 .f32) (y : S1x1x1152.Idx) :
    ∃ pc ∈ (runLast c i arg2 harg2 arg3 harg3 arg4 harg4 arg5 harg5 arg6 harg6 hc0 hc1 x0 xs0 xs1).2.1, y ∈ pc.1.set :=
  View.cover_of_tiledL (runLast c i arg2 harg2 arg3 harg3 arg4 harg4 arg5 harg5 arg6 harg6 hc0 hc1 x0 xs0 xs1).2.1 S1x1x1152.size (by sl_kernel_rfl) y

def readLastO2 (c : Dev nD) (i : grid0.Coords) (arg2 : Memref sig .tc .vmem S1000x1152 .f32) (harg2 : arg2.IsWhole) (arg3 : Memref sig .tc .vmem S1x1x1152 .f32) (harg3 : arg3.IsWhole) (arg4 : Memref sig .tc .vmem S1x1x1152 .f32) (harg4 : arg4.IsWhole) (arg5 : Memref sig .tc .vmem S1x1152 .f32) (harg5 : arg5.IsWhole) (arg6 : Memref sig .tc .vmem S1x1152 .f32) (harg6 : arg6.IsWhole) (hc0 : ¬cond0_0 i) (hc1 : cond0_1 i) (x0 : Vec F S1000x1152 .f32) (xs0 xs1 : Vec F S1x1152 .f32) : Vec F S1x1x1152 .f32 :=
  VO0_2.read (Elt F) (VO0_2.writes (Elt F) VO0_2.junk (runLast c i arg2 harg2 arg3 harg3 arg4 harg4 arg5 harg5 arg6 harg6 hc0 hc1 x0 xs0 xs1).2.1)

theorem coverLast0 (c : Dev nD) (i : grid0.Coords) (arg2 : Memref sig .tc .vmem S1000x1152 .f32) (harg2 : arg2.IsWhole) (arg3 : Memref sig .tc .vmem S1x1x1152 .f32) (harg3 : arg3.IsWhole) (arg4 : Memref sig .tc .vmem S1x1x1152 .f32) (harg4 : arg4.IsWhole) (arg5 : Memref sig .tc .vmem S1x1152 .f32) (harg5 : arg5.IsWhole) (arg6 : Memref sig .tc .vmem S1x1152 .f32) (harg6 : arg6.IsWhole) (hc0 : ¬cond0_0 i) (hc1 : cond0_1 i) (x0 : Vec F S1000x1152 .f32) (xs0 xs1 : Vec F S1x1152 .f32) (y : S1x1152.Idx) :
    ∃ pc ∈ (runLast c i arg2 harg2 arg3 harg3 arg4 harg4 arg5 harg5 arg6 harg6 hc0 hc1 x0 xs0 xs1).2.2.1, y ∈ pc.1.set :=
  View.cover_of_tiledL (runLast c i arg2 harg2 arg3 harg3 arg4 harg4 arg5 harg5 arg6 harg6 hc0 hc1 x0 xs0 xs1).2.2.1 S1x1152.size (by sl_kernel_rfl) y

def readLast0 (c : Dev nD) (i : grid0.Coords) (arg2 : Memref sig .tc .vmem S1000x1152 .f32) (harg2 : arg2.IsWhole) (arg3 : Memref sig .tc .vmem S1x1x1152 .f32) (harg3 : arg3.IsWhole) (arg4 : Memref sig .tc .vmem S1x1x1152 .f32) (harg4 : arg4.IsWhole) (arg5 : Memref sig .tc .vmem S1x1152 .f32) (harg5 : arg5.IsWhole) (arg6 : Memref sig .tc .vmem S1x1152 .f32) (harg6 : arg6.IsWhole) (hc0 : ¬cond0_0 i) (hc1 : cond0_1 i) (x0 : Vec F S1000x1152 .f32) (xs0 xs1 : Vec F S1x1152 .f32) : Vec F S1x1152 .f32 :=
  VS0_0.read (Elt F) (VS0_0.writes (Elt F) VS0_0.junk (runLast c i arg2 harg2 arg3 harg3 arg4 harg4 arg5 harg5 arg6 harg6 hc0 hc1 x0 xs0 xs1).2.2.1)

theorem coverLast1 (c : Dev nD) (i : grid0.Coords) (arg2 : Memref sig .tc .vmem S1000x1152 .f32) (harg2 : arg2.IsWhole) (arg3 : Memref sig .tc .vmem S1x1x1152 .f32) (harg3 : arg3.IsWhole) (arg4 : Memref sig .tc .vmem S1x1x1152 .f32) (harg4 : arg4.IsWhole) (arg5 : Memref sig .tc .vmem S1x1152 .f32) (harg5 : arg5.IsWhole) (arg6 : Memref sig .tc .vmem S1x1152 .f32) (harg6 : arg6.IsWhole) (hc0 : ¬cond0_0 i) (hc1 : cond0_1 i) (x0 : Vec F S1000x1152 .f32) (xs0 xs1 : Vec F S1x1152 .f32) (y : S1x1152.Idx) :
    ∃ pc ∈ (runLast c i arg2 harg2 arg3 harg3 arg4 harg4 arg5 harg5 arg6 harg6 hc0 hc1 x0 xs0 xs1).2.2.2.1, y ∈ pc.1.set :=
  View.cover_of_tiledL (runLast c i arg2 harg2 arg3 harg3 arg4 harg4 arg5 harg5 arg6 harg6 hc0 hc1 x0 xs0 xs1).2.2.2.1 S1x1152.size (by sl_kernel_rfl) y

def readLast1 (c : Dev nD) (i : grid0.Coords) (arg2 : Memref sig .tc .vmem S1000x1152 .f32) (harg2 : arg2.IsWhole) (arg3 : Memref sig .tc .vmem S1x1x1152 .f32) (harg3 : arg3.IsWhole) (arg4 : Memref sig .tc .vmem S1x1x1152 .f32) (harg4 : arg4.IsWhole) (arg5 : Memref sig .tc .vmem S1x1152 .f32) (harg5 : arg5.IsWhole) (arg6 : Memref sig .tc .vmem S1x1152 .f32) (harg6 : arg6.IsWhole) (hc0 : ¬cond0_0 i) (hc1 : cond0_1 i) (x0 : Vec F S1000x1152 .f32) (xs0 xs1 : Vec F S1x1152 .f32) : Vec F S1x1152 .f32 :=
  VS0_1.read (Elt F) (VS0_1.writes (Elt F) VS0_1.junk (runLast c i arg2 harg2 arg3 harg3 arg4 harg4 arg5 harg5 arg6 harg6 hc0 hc1 x0 xs0 xs1).2.2.2.1)

/-- A stand-in for the contents of a buffer nothing consults. -/
def junkO1 : Vec F S1x1x1152 .f32 := VO0_1.read (Elt F) VO0_1.junk
def junkO2 : Vec F S1x1x1152 .f32 := VO0_2.read (Elt F) VO0_2.junk
def junkS0 : Vec F S1x1152 .f32 := VS0_0.read (Elt F) VS0_0.junk
def junkS1 : Vec F S1x1152 .f32 := VS0_1.read (Elt F) VS0_1.junk

/-! ## One point's update, and its iteration over the grid -/

/-- What the two output buffers and the two accumulators hold after the body at point `t`, given what
    the accumulators held before it (`p0`, `p1`; ignored on a core's first tile). -/
def stepAt (c : Dev nD) (t : Fin cfg0.N) (p0 p1 : Vec F S1x1152 .f32) : Vec F S1x1x1152 .f32 × Vec F S1x1x1152 .f32 × Vec F S1x1152 .f32 × Vec F S1x1152 .f32 :=
  if h0 : t.val % 50 = 0 then
    if h1 : t.val % 50 = 49 then (junkO1, junkO2, junkS0, junkS1)
    else (junkO1, junkO2, readFirst0 c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk m c 0 t), readFirst1 c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk m c 0 t))
  else
    if h1 : t.val % 50 = 49 then
      (readLastO1 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk m c 0 t) p0 p1, readLastO2 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk m c 0 t) p0 p1,
       readLast0 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk m c 0 t) p0 p1, readLast1 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk m c 0 t) p0 p1)
    else (junkO1, junkO2, readMiddle0 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk m c 0 t) p0 p1, readMiddle1 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk m c 0 t) p0 p1)

/-- The accumulation over the grid's points in order. -/
def outsAt (c : Dev nD) : (n : ℕ) → n < cfg0.N → Vec F S1x1x1152 .f32 × Vec F S1x1x1152 .f32 × Vec F S1x1152 .f32 × Vec F S1x1152 .f32
  | 0, hn => stepAt m c ⟨0, hn⟩ junkS0 junkS1
  | n + 1, hn => stepAt m c ⟨n + 1, hn⟩ (outsAt c n (Nat.lt_of_succ_lt hn)).2.2.1 (outsAt c n (Nat.lt_of_succ_lt hn)).2.2.2

theorem outsAt_zero (c : Dev nD) (t : Fin cfg0.N) (hz : t.val = 0) :
    outsAt m c t.val t.isLt = stepAt m c t junkS0 junkS1 := by
  obtain ⟨n, hn⟩ := t
  cases n with
  | zero => rfl
  | succ n => exact absurd hz (Nat.succ_ne_zero n)

theorem outsAt_pos (c : Dev nD) (t : Fin cfg0.N) (hz : t.val ≠ 0) :
    outsAt m c t.val t.isLt = stepAt m c t (outsAt m c (t.val - 1) (Nat.lt_of_le_of_lt (Nat.sub_le _ _) t.isLt)).2.2.1
      (outsAt m c (t.val - 1) (Nat.lt_of_le_of_lt (Nat.sub_le _ _) t.isLt)).2.2.2 := by
  obtain ⟨n, hn⟩ := t
  cases n with
  | zero => exact absurd rfl hz
  | succ n => rfl

/-- On a core's first tile the update ignores what the accumulators held. -/
theorem stepAt_first (c : Dev nD) (t : Fin cfg0.N) (h0 : t.val % 50 = 0) (p0 p1 q0 q1 : Vec F S1x1152 .f32) :
    stepAt m c t p0 p1 = stepAt m c t q0 q1 := by
  have h1 : ¬t.val % 50 = 49 := by omega
  unfold stepAt; rw [dif_pos h0, dif_neg h1, dif_pos h0, dif_neg h1]

/-! ## The region's invariant -/

/-- Before the first point: what the launch hands over (both accumulators at anything).  Before any
    later point: both accumulators at what the point before left, and the generator register. -/
def PhiS (c : Dev nD) : (n : ℕ) → n ≤ cfg0.N → sProp 𝕄
  | 0, _ => Pipeline.ΦA spec0 c
  | n + 1, hn => iprop(iprop(owns (c : Thread nD τ) scM0_0 fullShare ((outsAt m c n hn).2.2.1) ∗ owns (c : Thread nD τ) scM0_1 fullShare ((outsAt m c n hn).2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt m c n hn).2.2.1) ∗ owns (c : Thread nD τ) scM0_1 fullShare ((outsAt m c n hn).2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt m c (n - 1) (by omega)).2.2.1) ∗ owns (c : Thread nD τ) scM0_1 fullShare ((outsAt m c (n - 1) (by omega)).2.2.2)) ∗ (∃ r, prngReg c r)) := by
  cases n with
  | zero => exact absurd rfl hz
  | succ n => rfl

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => (outsAt m c t.val t.isLt).1
    | ⟨2, _⟩ => (outsAt m c t.val t.isLt).2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = (outsAt m c t.val t.isLt).1 := by dsimp only [dats]
theorem after0_2 (c : Dev nD) (t : Fin cfg0.N) : (dats m 0 c).after 2 t = (outsAt m c t.val t.isLt).2.1 := by dsimp only [dats]

theorem before0_0 (c : Dev nD) (t : Fin cfg0.N) (d) : (dats m 0 c).before 0 t d = iblk m c 0 t :=
  before0_0_of m (dats m 0 c) (A_eq m c 0) (after0_0 m c) t d

/-! ## The body's obligation at a point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).owesAt () t.succ = (dats m 0 c).owesAt () t.castSucc from rfl]
  rw [show (dats m 0 c).Φ t.succ = PhiS m c (t.val + 1) t.isLt from rfl, PhiS_succ]
  have hN : t.val < 100 := lt_of_lt_of_eq t.isLt (show cfg0.N = 100 from N_0)
  rw [show (dats m 0 c).leavesExact 0 t = owns (c : Thread nD τ) (ms0_0 t) fullShare ((dats m 0 c).after 0 t) from by
    unfold Dat.leavesExact; rw [liveAt0_0 t], after0_0]
  by_cases h0 : t.val % 50 = 0
  · have h1 : ¬t.val % 50 = 49 := by omega
    rw [Dat.leavesExact_idle (dats m 0 c) 1 t (idleAt0_1 t (fun h => h1 ((hcond0_1 t).mp h))) (noFlush0_1 t (fun h => h1 ((hcond0_1 t).mp h)))]
    rw [Dat.leavesExact_idle (dats m 0 c) 2 t (idleAt0_2 t (fun h => h1 ((hcond0_1 t).mp h))) (noFlush0_2 t (fun h => h1 ((hcond0_1 t).mp h)))]
    have hstep : (outsAt m c t.val t.isLt) = (junkO1, junkO2, readFirst0 c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk m c 0 t), readFirst1 c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk m c 0 t)) := by
      by_cases hz : t.val = 0
      · rw [outsAt_zero m c t hz]; unfold stepAt; rw [dif_pos h0, dif_neg h1]
      · rw [outsAt_pos m c t hz]; unfold stepAt; rw [dif_pos h0, dif_neg h1]
    rw [hstep]
    unfold readFirst0 readFirst1; (try dsimp only)
    by_cases hz : t.val = 0
    · -- the grid's very first point: the launch hands both accumulators over at anything
      rw [PhiS_castSucc m c t, PhiS_zero m c _ _ hz, PhiA0_eq]
      iintro ⟨⟨⟨HS0, HS1⟩, Hg⟩, Ho, ⟨%d0, H0⟩, ⟨%d1, H1⟩, ⟨%d2, H2⟩⟩
      iapply ((runFirst c (grid0.coords t) _ _ _ _ _ _ _ _ _ _ ((hcond0_0 t).mpr h0) (fun h => h1 ((hcond0_1 t).mp h)) (iblk m c 0 t)).2.2 _ _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [HS0 HS1 Hg]
      · isplitr [Hg]
        · isplitl [HS0]
          · unfold owns; iexists _; isplitr
            swap; · iexact HS0
            ipureintro; exact View.read_writes_of_cover _ _ _ _ _ (coverFirst0 c _ _ _ _ _ _ _ _ _ _ _ _ _ _)
          · unfold owns; iexists _; isplitr
            swap; · iexact HS1
            ipureintro; exact View.read_writes_of_cover _ _ _ _ _ (coverFirst1 c _ _ _ _ _ _ _ _ _ _ _ _ _ _)
        · iexact Hg
      isplitl [Ho]; · iexact Ho
      isplitl [H0]; · iexact H0
      isplitl [H1]; · iexists _; iexact H1
      iexists _; iexact H2
    · -- the second core's first tile: what the first core's last tile left is simply overwritten
      rw [PhiS_castSucc m c t, PhiS_pos m c _ _ hz]
      iintro ⟨⟨⟨HS0, HS1⟩, Hg⟩, Ho, ⟨%d0, H0⟩, ⟨%d1, H1⟩, ⟨%d2, H2⟩⟩
      iapply ((runFirst c (grid0.coords t) _ _ _ _ _ _ _ _ _ _ ((hcond0_0 t).mpr h0) (fun h => h1 ((hcond0_1 t).mp h)) (iblk m c 0 t)).2.2 _ _ Set.univ _)
      isplitl [H0]; · iexact H0
      isplitl [H1]; · iexact H1
      isplitl [H2]; · iexact H2
      isplitl [HS0]; · iexists _; iexact HS0
      isplitl [HS1]; · iexists _; iexact HS1
      iintro ⟨H0, H1, H2, ⟨%es0, HS0⟩, ⟨%es1, HS1⟩⟩
      isplitl [HS0 HS1 Hg]
      · isplitr [Hg]
        · isplitl [HS0]
          · unfold owns; iexists _; isplitr
            swap; · iexact HS0
            ipureintro; exact View.read_writes_of_cover _ _ _ _ _ (coverFirst0 c _ _ _ _ _ _ _ _ _ _ _ _ _ _)
          · unfold owns; iexists _; isplitr
            swap; · iexact HS1
            ipureintro; exact View.read_writes_of_cover _ _ _ _ _ (coverFirst1 c _ _ _ _ _ _ _ _ _ _ _ _ _ _)
        · iexact Hg
      isplitl [Ho]; · iexact Ho
      isplitl [H0]; · iexact H0
      isplitl [H1]; · iexists _; iexact H1
      iexists _; iexact H2
  · have hz : t.val ≠ 0 := fun hz => h0 (by rw [hz])
    by_cases h1 : t.val % 50 = 49
    · rw [show (dats m 0 c).leavesExact 1 t = owns (c : Thread nD τ) (ms0_1 t) fullShare ((dats m 0 c).after 1 t) from by
        unfold Dat.leavesExact; rw [liveAt0_1 t ((hcond0_1 t).mpr h1)], after0_1]
      rw [show (dats m 0 c).leavesExact 2 t = owns (c : Thread nD τ) (ms0_2 t) fullShare ((dats m 0 c).after 2 t) from by
        unfold Dat.leavesExact; rw [liveAt0_2 t ((hcond0_1 t).mpr h1)], after0_2]
      rw [outsAt_pos m c t hz]
      unfold stepAt; rw [dif_neg h0, dif_pos h1]
      unfold readLastO1 readLastO2 readLast0 readLast1; (try dsimp only)
      rw [PhiS_castSucc m c t, PhiS_pos m c _ _ hz]
      iintro ⟨⟨⟨HS0, HS1⟩, Hg⟩, Ho, ⟨%d0, H0⟩, ⟨%d1, H1⟩, ⟨%d2, H2⟩⟩
      iapply ((runLast c (grid0.coords t) _ _ _ _ _ _ _ _ _ _ (fun h => h0 ((hcond0_0 t).mp h)) ((hcond0_1 t).mpr h1) (iblk m c 0 t) _ _).2.2.2.2 Set.univ _)
      isplitl [H0]; · iexact H0
      isplitl [H1]; · iexists _; iexact H1
      isplitl [H2]; · iexists _; iexact H2
      isplitl [HS0]; · iexact HS0
      isplitl [HS1]; · iexact HS1
      iintro ⟨H0, ⟨%e1, H1⟩, ⟨%e2, H2⟩, ⟨%es0, HS0⟩, ⟨%es1, HS1⟩⟩
      isplitl [HS0 HS1 Hg]
      · isplitr [Hg]
        · isplitl [HS0]
          · unfold owns; iexists _; isplitr
            swap; · iexact HS0
            ipureintro; exact View.read_writes_of_cover _ _ _ _ _ (coverLast0 c _ _ _ _ _ _ _ _ _ _ _ _ _ _ _ _)
          · unfold owns; iexists _; isplitr
            swap; · iexact HS1
            ipureintro; exact View.read_writes_of_cover _ _ _ _ _ (coverLast1 c _ _ _ _ _ _ _ _ _ _ _ _ _ _ _ _)
        · iexact Hg
      isplitl [Ho]; · iexact Ho
      isplitl [H0]; · iexact H0
      isplitl [H1]
      · unfold owns; iexists _; isplitr
        swap; · iexact H1
        ipureintro; exact View.read_writes_of_cover _ _ _ _ _ (coverLastO1 c _ _ _ _ _ _ _ _ _ _ _ _ _ _ _ _)
      · unfold owns; iexists _; isplitr
        swap; · iexact H2
        ipureintro; exact View.read_writes_of_cover _ _ _ _ _ (coverLastO2 c _ _ _ _ _ _ _ _ _ _ _ _ _ _ _ _)
    · rw [Dat.leavesExact_idle (dats m 0 c) 1 t (idleAt0_1 t (fun h => h1 ((hcond0_1 t).mp h))) (noFlush0_1 t (fun h => h1 ((hcond0_1 t).mp h)))]
      rw [Dat.leavesExact_idle (dats m 0 c) 2 t (idleAt0_2 t (fun h => h1 ((hcond0_1 t).mp h))) (noFlush0_2 t (fun h => h1 ((hcond0_1 t).mp h)))]
      rw [outsAt_pos m c t hz]
      unfold stepAt; rw [dif_neg h0, dif_neg h1]
      unfold readMiddle0 readMiddle1; (try dsimp only)
      rw [PhiS_castSucc m c t, PhiS_pos m c _ _ hz]
      iintro ⟨⟨⟨HS0, HS1⟩, Hg⟩, Ho, ⟨%d0, H0⟩, ⟨%d1, H1⟩, ⟨%d2, H2⟩⟩
      iapply ((runMiddle c (grid0.coords t) _ _ _ _ _ _ _ _ _ _ (fun h => h0 ((hcond0_0 t).mp h)) (fun h => h1 ((hcond0_1 t).mp h)) (iblk m c 0 t) _ _).2.2 _ _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [HS0 HS1 Hg]
      · isplitr [Hg]
        · isplitl [HS0]
          · unfold owns; iexists _; isplitr
            swap; · iexact HS0
            ipureintro; exact View.read_writes_of_cover _ _ _ _ _ (coverMiddle0 c _ _ _ _ _ _ _ _ _ _ _ _ _ _ _ _)
          · unfold owns; iexists _; isplitr
            swap; · iexact HS1
            ipureintro; exact View.read_writes_of_cover _ _ _ _ _ (coverMiddle1 c _ _ _ _ _ _ _ _ _ _ _ _ _ _ _ _)
        · iexact Hg
      isplitl [Ho]; · iexact Ho
      isplitl [H0]; · iexact H0
      isplitl [H1]; · iexists _; iexact H1
      iexists _; iexact H2

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitr [Hg]
  · isplitl [HS0]
    · iexists _; iexact HS0
    · iexists _; iexact HS1
  · iexact Hg

theorem hout (c : Dev nD) : (dats m 0 c).Φ (Fin.last cfg0.N) ⊢ Pipeline.ΦA spec0 c :=
  Phi_out m c _ (by rw [Fin.val_last]; have : cfg0.N = 100 := N_0; omega)

/-! ## The run, and the arguments unchanged -/

set_option backward.isDefEq.respectTransparency.types false in
/-- Every weakly fair execution of the program terminates; each of the region's arrays ends at what the
    proof data compute for it, and every other unscoped buffer as the later operations leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_fresh) (hkeep := tail_keeps)
    (hmain := hmain m Variants.none) (hA := A_eq m) (hin := hin m) (hout := hout m)

end Cert.KernelIdeal.Frame

end
-- ==== Proof.IdealFrame.Post.lean ====
/-
  The three argument arrays end unchanged.  None of them is an array of the region (the region reads
  the reshaped copy of the first), and no host operation before or after the region writes one: each
  writes only its own fresh result buffer.
-/
import proofs.«173802_j78176994722585_2_alg».proof.Proof.IdealFrame.Frame

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hostOps1_keeps_args : (hostOps1 : List (HloOp τ sig (Elt F))).Forall fun op =>
    Proc.devRef .tc main_arg0 ∉ op.writes ∧ Proc.devRef .tc main_arg1 ∉ op.writes ∧ Proc.devRef .tc main_arg2 ∉ op.writes := by
  simp only [List.Forall]
  repeat' constructor
  all_goals simp only [StableHlo.nullary_writes, StableHlo.unary_writes, StableHlo.binary_writes, StableHlo.nary_writes, StableHlo.reshape_writes, Finset.mem_singleton] <;> exact StableHlo.devRef_ne_of_ne (by decide)

theorem hostOps0_keeps_args : (hostOps0 : List (HloOp τ sig (Elt F))).Forall fun op =>
    Proc.devRef .tc main_arg0 ∉ op.writes ∧ Proc.devRef .tc main_arg1 ∉ op.writes ∧ Proc.devRef .tc main_arg2 ∉ op.writes := by
  simp only [List.Forall]
  repeat' constructor
  all_goals simp only [StableHlo.nullary_writes, StableHlo.unary_writes, StableHlo.binary_writes, StableHlo.nary_writes, StableHlo.reshape_writes, Finset.mem_singleton] <;> exact StableHlo.devRef_ne_of_ne (by decide)

/-- A buffer that is no array of the region and that no host operation writes holds, after the whole
    program, what it held at the launch. -/
theorem kept (c : Dev nD) (b : Ref sig .tc) (harr : ∀ w, Pipeline.arrRef spec0 w ≠ b)
    (h1 : ∀ op ∈ (hostOps1 : List (HloOp τ sig (Elt F))), Proc.devRef .tc b ∉ op.writes)
    (h0 : ∀ op ∈ (hostOps0 : List (HloOp τ sig (Elt F))), Proc.devRef .tc b ∉ op.writes) :
    Pipeline.afterTail₀ cfgs (dats m) 0 (V0 m) [hostOps1] c b = m ((c.tc : Thread nD τ).loc b) := by
  unfold Pipeline.afterTail₀
  simp only [List.flatten_cons, List.flatten_nil, List.append_nil]
  rw [StableHlo.after_of_forall_not_mem _ _ h1, Pipeline.withArrays_of_ne _ c _ _ b harr]
  show StableHlo.after (List.flatten [hostOps0]) (fun b => m (c, b)) (Proc.devRef .tc b) = _
  simp only [List.flatten_cons, List.flatten_nil, List.append_nil]
  rw [StableHlo.after_of_forall_not_mem _ _ h0]

theorem kept_arg0 (c : Dev nD) : Pipeline.afterTail₀ cfgs (dats m) 0 (V0 m) [hostOps1] c main_arg0 = m ((c.tc : Thread nD τ).loc main_arg0) :=
  kept m c main_arg0 (by decide) (fun op hop => ((List.forall_iff_forall_mem.mp hostOps1_keeps_args) op hop).1)
    (fun op hop => ((List.forall_iff_forall_mem.mp hostOps0_keeps_args) op hop).1)
theorem kept_arg1 (c : Dev nD) : Pipeline.afterTail₀ cfgs (dats m) 0 (V0 m) [hostOps1] c main_arg1 = m ((c.tc : Thread nD τ).loc main_arg1) :=
  kept m c main_arg1 (by decide) (fun op hop => ((List.forall_iff_forall_mem.mp hostOps1_keeps_args) op hop).2.1)
    (fun op hop => ((List.forall_iff_forall_mem.mp hostOps0_keeps_args) op hop).2.1)
theorem kept_arg2 (c : Dev nD) : Pipeline.afterTail₀ cfgs (dats m) 0 (V0 m) [hostOps1] c main_arg2 = m ((c.tc : Thread nD τ).loc main_arg2) :=
  kept m c main_arg2 (by decide) (fun op hop => ((List.forall_iff_forall_mem.mp hostOps1_keeps_args) op hop).2.2)
    (fun op hop => ((List.forall_iff_forall_mem.mp hostOps0_keeps_args) op hop).2.2)

theorem arg0_rest : main_arg0 ∈ Pipeline.restRefs sig spec0 := by decide
theorem arg1_rest : main_arg1 ∈ Pipeline.restRefs sig spec0 := by decide
theorem arg2_rest : main_arg2 ∈ Pipeline.restRefs sig spec0 := by decide

/-- The program runs to the end, faults nowhere, and leaves its three arguments as it found them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 arg0_rest).trans (kept_arg0 m c), ((h c).2 main_arg1 arg1_rest).trans (kept_arg1 m c),
      ((h c).2 main_arg2 arg2_rest).trans (kept_arg2 m c)⟩) (run_main m ρ)

end Cert.KernelIdeal.Frame

end
-- ==== Proof.StackTail.lean ====
/-
  The common last stage of the two programs.

  Both programs end the same way.  Three vectors a, b, c of length 576 (per input column: the mean, the first
  central moment, the second central moment) are stood up as columns, joined side by side into a 576 x 3 matrix,
  read off row by row as one row of 1728 numbers (a(0), b(0), c(0), a(1), b(1), c(1), ...), shifted by the vector
  mu, and multiplied into the 1728 x 4 matrix W.  The result depends on the two programs only through the three
  vectors, so it is enough to show that the two programs compute the same three vectors.
-/
import Idealize.ShloMosaic.PureOps.Ideal

noncomputable section

namespace Cert.Bridge

open Idealize.ShloMosaic

/-- A vector stands up as one column: the side condition of the broadcast [576] -> [576, 1]. -/
theorem column_ok : (⟨1, ![576]⟩ : Shape).BroadcastsInDim ⟨2, ![576, 1]⟩ (![0] : Fin 1 → Fin 2) := by decide
/-- Three columns side by side make a 576 x 3 matrix. -/
theorem join_ok : Shape.Concatenates [(⟨2, ![576, 1]⟩ : Shape), ⟨2, ![576, 1]⟩, ⟨2, ![576, 1]⟩] ⟨2, ![576, 3]⟩ 1 := by decide
/-- A 576 x 3 matrix has as many entries as a 1 x 1728 row. -/
theorem flatten_ok : (⟨2, ![576, 3]⟩ : Shape).ShapeCasts ⟨2, ![1, 1728]⟩ := by decide
/-- The shift vector lies along the row: the side condition of the broadcast [1728] -> [1, 1728]. -/
theorem shift_ok : (⟨1, ![1728]⟩ : Shape).BroadcastsInDim ⟨2, ![1, 1728]⟩ (![1] : Fin 1 → Fin 2) := by decide
/-- The product [1, 1728] x [1728, 4] -> [1, 4] contracts the row's axis with the matrix's first axis. -/
theorem product_ok : DotDims.WF (⟨2, ![1, 1728]⟩ : Shape) ⟨2, ![1728, 4]⟩ ⟨2, ![1, 4]⟩ [1] [0] [0] [1] [] [] := by decide

/-- The dimension numbers of the final product. -/
def productDims : DotDims (⟨2, ![1, 1728]⟩ : Shape) ⟨2, ![1728, 4]⟩ ⟨2, ![1, 4]⟩ where
  lhsContracting := [1]
  rhsContracting := [0]
  lhsNonContracting := [0]
  rhsNonContracting := [1]
  lhsBatch := []
  rhsBatch := []
  wf := product_ok

/-- The common last stage: the three vectors as columns, joined, flattened row by row, shifted by `mu`, times `W`. -/
def momentsTail (a b c : FVec Ideal ⟨1, ![576]⟩ .f32) (mu : FVec Ideal ⟨1, ![1728]⟩ .f32)
    (W : FVec Ideal ⟨2, ![1728, 4]⟩ .f32) : FVec Ideal ⟨2, ![1, 4]⟩ .f32 :=
  Host.dotGeneral (F := Ideal) (φ₁ := .f32) (φ₂ := .f32) productDims none
    (subf (F := Ideal) (φ := .f32)
      (shapeCast (⟨2, ![1, 1728]⟩ : Shape)
        (concatenate (⟨2, ![576, 3]⟩ : Shape) 1
          [⟨(⟨2, ![576, 1]⟩ : Shape), broadcastInDim (⟨2, ![576, 1]⟩ : Shape) ![0] column_ok a⟩,
           ⟨(⟨2, ![576, 1]⟩ : Shape), broadcastInDim (⟨2, ![576, 1]⟩ : Shape) ![0] column_ok b⟩,
           ⟨(⟨2, ![576, 1]⟩ : Shape), broadcastInDim (⟨2, ![576, 1]⟩ : Shape) ![0] column_ok c⟩] join_ok)
        flatten_ok)
      (broadcastInDim (⟨2, ![1, 1728]⟩ : Shape) ![1] shift_ok mu))
    W

end Cert.Bridge

end
-- ==== Proof.KerTail.lean ====
/-
  What the kernel's host code does with the two arrays the cores hand back.

  Each of the two cores leaves one row of 1152 partial column sums of the merged array (first array: sums of
  the entries; second array: sums of their squares).  The host adds the two cores' rows, then adds the right half
  [576, 1152) of the resulting row to its left half [0, 576): a merged row holds an even input row on the left
  and the following odd input row on the right, so this adds the even-row and odd-row contributions of each of
  the 576 input columns.  Dividing by 200000 gives the column means m and the mean squares q.  The three vectors
  that enter the common last stage are m, the constant 0, and q - m * m.
-/
import proofs.«173802_j78176994722585_2_alg».proof.Proof.Gen.KernelIdeal
import proofs.«173802_j78176994722585_2_alg».proof.Proof.StackTail

noncomputable section

namespace Cert.Bridge

open Cert.KernelIdeal Cert.KernelIdeal.Gen Idealize.ShloMosaic

/-- The two cores' rows added: entry `col` is core 0's partial sum plus core 1's. -/
def kerCores (o : (⟨S2x1x1152, .f32⟩ : BufTy).Contents (Elt Ideal)) : (⟨S1152, .f32⟩ : BufTy).Contents (Elt Ideal) :=
  addf (F := Ideal) (φ := .f32)
    (shapeCast S1152
      (extractStridedSlice S1x1152 ![0, 0] (shapeCast S2x1152 o shapeCasts_S2x1x1152_S2x1152) slices_S2x1152_S1x1152_0_0)
      shapeCasts_S1x1152_S1152)
    (shapeCast S1152
      (extractStridedSlice S1x1152 ![1, 0] (shapeCast S2x1152 o shapeCasts_S2x1x1152_S2x1152) slices_S2x1152_S1x1152_1_0)
      shapeCasts_S1x1152_S1152)

/-- The right half of a row of 1152 added to its left half. -/
def kerHalves (v : (⟨S1152, .f32⟩ : BufTy).Contents (Elt Ideal)) : (⟨S576, .f32⟩ : BufTy).Contents (Elt Ideal) :=
  addf (F := Ideal) (φ := .f32) (extractStridedSlice S576 ![0] v slices_S1152_S576_0) (extractStridedSlice S576 ![576] v slices_S1152_S576_576)

/-- A total per input column divided by the number of rows, 200000 (the word 0x48435000). -/
def kerPerRow (o : (⟨S2x1x1152, .f32⟩ : BufTy).Contents (Elt Ideal)) : (⟨S576, .f32⟩ : BufTy).Contents (Elt Ideal) :=
  Host.divf (F := Ideal) (φ := .f32) (kerHalves (kerCores o)) (broadcastInDim S576 ![] bcast_S_S576 (constant (F := Ideal) S_ .f32 0x48435000#32))

/-- The kernel's first vector: the column means. -/
def kerMean (o1 : (⟨S2x1x1152, .f32⟩ : BufTy).Contents (Elt Ideal)) : (⟨S576, .f32⟩ : BufTy).Contents (Elt Ideal) :=
  kerPerRow o1

/-- The kernel's second vector: the literal zero. -/
def kerZero : (⟨S576, .f32⟩ : BufTy).Contents (Elt Ideal) :=
  broadcastInDim S576 ![] bcast_S_S576 (constant (F := Ideal) S_ .f32 0x00000000#32)

/-- The kernel's third vector: the mean square minus the squared mean. -/
def kerVar (o1 o2 : (⟨S2x1x1152, .f32⟩ : BufTy).Contents (Elt Ideal)) : (⟨S576, .f32⟩ : BufTy).Contents (Elt Ideal) :=
  subf (F := Ideal) (φ := .f32) (kerPerRow o2) (mulf (F := Ideal) (φ := .f32) (kerPerRow o1) (kerPerRow o1))

/-- The kernel's host code after the region, as one function of the region's two outputs and of `mu` and `W`:
    the 36 host operations in their data flow. -/
def kerTail (o1 o2 : (⟨S2x1x1152, .f32⟩ : BufTy).Contents (Elt Ideal)) (mu : (⟨S1728, .f32⟩ : BufTy).Contents (Elt Ideal))
    (W : (⟨S1728x4, .f32⟩ : BufTy).Contents (Elt Ideal)) : (⟨S1x4, .f32⟩ : BufTy).Contents (Elt Ideal) :=
  Host.dotGeneral (F := Ideal) (φ₁ := .f32) (φ₂ := .f32) dot_S1x1728_S1728x4_S1x4_1_0_0_1_n_n none
    (subf (F := Ideal) (φ := .f32)
      (shapeCast S1x1728
        (concatenate S576x3 1
          [⟨S576x1, broadcastInDim S576x1 ![0] bcast_S576_S576x1_0 (kerMean o1)⟩,
           ⟨S576x1, broadcastInDim S576x1 ![0] bcast_S576_S576x1_0 kerZero⟩,
           ⟨S576x1, broadcastInDim S576x1 ![0] bcast_S576_S576x1_0 (kerVar o1 o2)⟩]
          concatenates_S576x1_S576x1_S576x1_S576x3_d1)
        shapeCasts_S576x3_S1x1728)
      (broadcastInDim S1x1728 ![1] bcast_S1728_S1x1728_1 mu))
    W

/-- The kernel's host code ends in the common last stage, applied to its three vectors. -/
theorem kerTail_eq_tail (o1 o2 : (⟨S2x1x1152, .f32⟩ : BufTy).Contents (Elt Ideal)) (mu : (⟨S1728, .f32⟩ : BufTy).Contents (Elt Ideal))
    (W : (⟨S1728x4, .f32⟩ : BufTy).Contents (Elt Ideal)) :
    kerTail o1 o2 mu W = momentsTail (kerMean o1) kerZero (kerVar o1 o2) mu W := rfl

end Cert.Bridge

end
-- ==== Proof.IdealValue.Tail.lean ====
/-
  The program's result buffer.  The 36 host operations after the region fold the two cores' partial
  sums, fold the two halves of a merged row, divide by the row count, form mean, zero and variance,
  interleave them, subtract mu and multiply by W.  Applied to the memory at the region's exit they give
  one function of the two output arrays, mu and W; at the region's exit the output arrays hold what
  the pipeline computed for them, and mu and W what they held at the launch.
-/
import proofs.«173802_j78176994722585_2_alg».proof.Proof.IdealFrame.Post
import proofs.«173802_j78176994722585_2_alg».proof.Proof.KerTail
import Idealize.ShloMosaic.Lib.StableHlo.Run

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

set_option maxHeartbeats 4000000 in
/-- The later operations' result as one function of the four buffers they start from. -/
theorem after_tail (W : Valuation τ sig (Elt Ideal)) :
    StableHlo.after (hostOps1 (F := Ideal)) W (Proc.devRef .tc main_v34)
      = Cert.Bridge.kerTail (W (Proc.devRef .tc main_v1_0)) (W (Proc.devRef .tc main_v1_1))
          (W (Proc.devRef .tc main_arg1)) (W (Proc.devRef .tc main_arg2)) := by
  after_results; rfl

/-- An argument the reshape does not write is, when the region is entered, what the launch memory held. -/
theorem V0_kept (c : Dev nD) (b : Ref sig .tc)
    (h0 : ∀ op ∈ (hostOps0 : List (HloOp τ sig (Elt Ideal))), Proc.devRef .tc b ∉ op.writes) :
    V0 m c (Proc.devRef .tc b) = m ((c.tc : Thread nD τ).loc b) := by
  show StableHlo.after (List.flatten [hostOps0]) (fun b => m (c, b)) (Proc.devRef .tc b) = _
  simp only [List.flatten_cons, List.flatten_nil, List.append_nil]
  rw [StableHlo.after_of_forall_not_mem _ _ h0]

theorem v34_rest : main_v34 ∈ Pipeline.restRefs sig spec0 := by decide

/-- After the whole program the result buffer holds the later operations' function of the two output
    arrays as the pipeline leaves them, and of mu and W. -/
theorem tail_result (c : Dev nD) :
    Pipeline.afterTail₀ cfgs (dats m) 0 (V0 m) [hostOps1] c main_v34
      = Cert.Bridge.kerTail ((dats m 0 c).arrAt 1 cfg0.N) ((dats m 0 c).arrAt 2 cfg0.N)
          (m ((c.tc : Thread nD τ).loc main_arg1)) (m ((c.tc : Thread nD τ).loc main_arg2)) := by
  unfold Pipeline.afterTail₀
  simp only [List.flatten_cons, List.flatten_nil, List.append_nil]
  rw [after_tail]
  have e1 : Pipeline.withArrays spec0 c (V0 m c) (fun w => (dats m 0 c).arrAt w cfg0.N) (Proc.devRef .tc main_v1_0)
      = (dats m 0 c).arrAt 1 cfg0.N := Pipeline.withArrays_arr spec0 launch0.win.arr_inj c _ _ 1
  have e2 : Pipeline.withArrays spec0 c (V0 m c) (fun w => (dats m 0 c).arrAt w cfg0.N) (Proc.devRef .tc main_v1_1)
      = (dats m 0 c).arrAt 2 cfg0.N := Pipeline.withArrays_arr spec0 launch0.win.arr_inj c _ _ 2
  have e3 : Pipeline.withArrays spec0 c (V0 m c) (fun w => (dats m 0 c).arrAt w cfg0.N) (Proc.devRef .tc main_arg1)
      = m ((c.tc : Thread nD τ).loc main_arg1) :=
    (Pipeline.withArrays_of_ne spec0 c _ _ main_arg1 (by decide)).trans
      (V0_kept m c main_arg1 fun op hop => ((List.forall_iff_forall_mem.mp hostOps0_keeps_args) op hop).2.1)
  have e4 : Pipeline.withArrays spec0 c (V0 m c) (fun w => (dats m 0 c).arrAt w cfg0.N) (Proc.devRef .tc main_arg2)
      = m ((c.tc : Thread nD τ).loc main_arg2) :=
    (Pipeline.withArrays_of_ne spec0 c _ _ main_arg2 (by decide)).trans
      (V0_kept m c main_arg2 fun op hop => ((List.forall_iff_forall_mem.mp hostOps0_keeps_args) op hop).2.2)
  rw [e1, e2, e3, e4]

end Cert.KernelIdeal.Frame

end
-- ==== Proof.IdealValue.Pieces.lean ====
/-
  What the body's stores leave, as plain terms of the body's arithmetic.  On a core's first tile an
  accumulator ends at (zeros, updated by this tile); on a later tile at (what it held, updated by this
  tile); on a core's last tile each output buffer receives the updated accumulator.  "Updated by this
  tile" is the body's one arithmetic step: the accumulator plus the tile's column sums (for the second
  accumulator, of the squared entries).  Then: one grid point's update of the four buffers in these
  terms, and the accumulation over the grid unfolded one point.
-/
import proofs.«173802_j78176994722585_2_alg».proof.Proof.IdealFrame.Frame
import Idealize.ShloMosaic.Lib.Pipeline.Value

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-! ## Each case's stores, read back -/

theorem readMiddle0_eq (c : Dev nD) (i : grid0.Coords) (arg2 : Memref sig .tc .vmem S1000x1152 .f32) (harg2 : arg2.IsWhole) (arg3 : Memref sig .tc .vmem S1x1x1152 .f32) (harg3 : arg3.IsWhole) (arg4 : Memref sig .tc .vmem S1x1x1152 .f32) (harg4 : arg4.IsWhole) (arg5 : Memref sig .tc .vmem S1x1152 .f32) (harg5 : arg5.IsWhole) (arg6 : Memref sig .tc .vmem S1x1152 .f32) (harg6 : arg6.IsWhole) (hc0 : ¬cond0_0 i) (hc1 : ¬cond0_1 i) (x0 : Vec F S1000x1152 .f32) (xs0 xs1 : Vec F S1x1152 .f32) :
    readMiddle0 c i arg2 harg2 arg3 harg3 arg4 harg4 arg5 harg5 arg6 harg6 hc0 hc1 x0 xs0 xs1 = k0_pay4 x0 xs0 := by
  unfold readMiddle0
  rw [View.read_writes_eq_canon _ _ _ (coverMiddle0 c i arg2 harg2 arg3 harg3 arg4 harg4 arg5 harg5 arg6 harg6 hc0 hc1 x0 xs0 xs1)]
  unfold runMiddle
  dsimp only
  sl_unfold_words
  rw [View.canon_unit_zero hz2]
  simp only [View.readAt_eq_ld, harg2.read_unread, harg5.read_unread, harg6.read_unread, View.ld_unit_zero (S := S1000x1152) hz2, View.ld_unit_zero (S := S1x1152) hz2]

theorem readMiddle1_eq (c : Dev nD) (i : grid0.Coords) (arg2 : Memref sig .tc .vmem S1000x1152 .f32) (harg2 : arg2.IsWhole) (arg3 : Memref sig .tc .vmem S1x1x1152 .f32) (harg3 : arg3.IsWhole) (arg4 : Memref sig .tc .vmem S1x1x1152 .f32) (harg4 : arg4.IsWhole) (arg5 : Memref sig .tc .vmem S1x1152 .f32) (harg5 : arg5.IsWhole) (arg6 : Memref sig .tc .vmem S1x1152 .f32) (harg6 : arg6.IsWhole) (hc0 : ¬cond0_0 i) (hc1 : ¬cond0_1 i) (x0 : Vec F S1000x1152 .f32) (xs0 xs1 : Vec F S1x1152 .f32) :
    readMiddle1 c i arg2 harg2 arg3 harg3 arg4 harg4 arg5 harg5 arg6 harg6 hc0 hc1 x0 xs0 xs1 = k0_pay5 x0 xs1 := by
  unfold readMiddle1
  rw [View.read_writes_eq_canon _ _ _ (coverMiddle1 c i arg2 harg2 arg3 harg3 arg4 harg4 arg5 harg5 arg6 harg6 hc0 hc1 x0 xs0 xs1)]
  unfold runMiddle
  dsimp only
  sl_unfold_words
  rw [View.canon_unit_zero hz2]
  simp only [View.readAt_eq_ld, harg2.read_unread, harg5.read_unread, harg6.read_unread, View.ld_unit_zero (S := S1000x1152) hz2, View.ld_unit_zero (S := S1x1152) hz2]

theorem readLast0_eq (c : Dev nD) (i : grid0.Coords) (arg2 : Memref sig .tc .vmem S1000x1152 .f32) (harg2 : arg2.IsWhole) (arg3 : Memref sig .tc .vmem S1x1x1152 .f32) (harg3 : arg3.IsWhole) (arg4 : Memref sig .tc .vmem S1x1x1152 .f32) (harg4 : arg4.IsWhole) (arg5 : Memref sig .tc .vmem S1x1152 .f32) (harg5 : arg5.IsWhole) (arg6 : Memref sig .tc .vmem S1x1152 .f32) (harg6 : arg6.IsWhole) (hc0 : ¬cond0_0 i) (hc1 : cond0_1 i) (x0 : Vec F S1000x1152 .f32) (xs0 xs1 : Vec F S1x1152 .f32) :
    readLast0 c i arg2 harg2 arg3 harg3 arg4 harg4 arg5 harg5 arg6 harg6 hc0 hc1 x0 xs0 xs1 = k0_pay4 x0 xs0 := by
  unfold readLast0
  rw [View.read_writes_eq_canon _ _ _ (coverLast0 c i arg2 harg2 arg3 harg3 arg4 harg4 arg5 harg5 arg6 harg6 hc0 hc1 x0 xs0 xs1)]
  unfold runLast
  dsimp only
  sl_unfold_words
  rw [View.canon_unit_zero hz2]
  simp only [View.readAt_eq_ld, harg2.read_unread, harg5.read_unread, harg6.read_unread, View.ld_unit_zero (S := S1000x1152) hz2, View.ld_unit_zero (S := S1x1152) hz2]

theorem readLast1_eq (c : Dev nD) (i : grid0.Coords) (arg2 : Memref sig .tc .vmem S1000x1152 .f32) (harg2 : arg2.IsWhole) (arg3 : Memref sig .tc .vmem S1x1x1152 .f32) (harg3 : arg3.IsWhole) (arg4 : Memref sig .tc .vmem S1x1x1152 .f32) (harg4 : arg4.IsWhole) (arg5 : Memref sig .tc .vmem S1x1152 .f32) (harg5 : arg5.IsWhole) (arg6 : Memref sig .tc .vmem S1x1152 .f32) (harg6 : arg6.IsWhole) (hc0 : ¬cond0_0 i) (hc1 : cond0_1 i) (x0 : Vec F S1000x1152 .f32) (xs0 xs1 : Vec F S1x1152 .f32) :
    readLast1 c i arg2 harg2 arg3 harg3 arg4 harg4 arg5 harg5 arg6 harg6 hc0 hc1 x0 xs0 xs1 = k0_pay5 x0 xs1 := by
  unfold readLast1
  rw [View.read_writes_eq_canon _ _ _ (coverLast1 c i arg2 harg2 arg3 harg3 arg4 harg4 arg5 harg5 arg6 harg6 hc0 hc1 x0 xs0 xs1)]
  unfold runLast
  dsimp only
  sl_unfold_words
  rw [View.canon_unit_zero hz2]
  simp only [View.readAt_eq_ld, harg2.read_unread, harg5.read_unread, harg6.read_unread, View.ld_unit_zero (S := S1000x1152) hz2, View.ld_unit_zero (S := S1x1152) hz2]

theorem readLastO1_eq (c : Dev nD) (i : grid0.Coords) (arg2 : Memref sig .tc .vmem S1000x1152 .f32) (harg2 : arg2.IsWhole) (arg3 : Memref sig .tc .vmem S1x1x1152 .f32) (harg3 : arg3.IsWhole) (arg4 : Memref sig .tc .vmem S1x1x1152 .f32) (harg4 : arg4.IsWhole) (arg5 : Memref sig .tc .vmem S1x1152 .f32) (harg5 : arg5.IsWhole) (arg6 : Memref sig .tc .vmem S1x1152 .f32) (harg6 : arg6.IsWhole) (hc0 : ¬cond0_0 i) (hc1 : cond0_1 i) (x0 : Vec F S1000x1152 .f32) (xs0 xs1 : Vec F S1x1152 .f32) :
    readLastO1 c i arg2 harg2 arg3 harg3 arg4 harg4 arg5 harg5 arg6 harg6 hc0 hc1 x0 xs0 xs1 = k0_pay6 (k0_pay4 x0 xs0) := by
  unfold readLastO1
  rw [View.read_writes_eq_canon _ _ _ (coverLastO1 c i arg2 harg2 arg3 harg3 arg4 harg4 arg5 harg5 arg6 harg6 hc0 hc1 x0 xs0 xs1)]
  unfold runLast
  dsimp only
  sl_unfold_words
  rw [View.canon_unit_zero hz3, View.readCov_unit_zero (S := S1x1152) _ hz2]
  simp only [View.readAt_eq_ld, harg2.read_unread, harg5.read_unread, harg6.read_unread, View.ld_unit_zero (S := S1000x1152) hz2, View.ld_unit_zero (S := S1x1152) hz2]

theorem readLastO2_eq (c : Dev nD) (i : grid0.Coords) (arg2 : Memref sig .tc .vmem S1000x1152 .f32) (harg2 : arg2.IsWhole) (arg3 : Memref sig .tc .vmem S1x1x1152 .f32) (harg3 : arg3.IsWhole) (arg4 : Memref sig .tc .vmem S1x1x1152 .f32) (harg4 : arg4.IsWhole) (arg5 : Memref sig .tc .vmem S1x1152 .f32) (harg5 : arg5.IsWhole) (arg6 : Memref sig .tc .vmem S1x1152 .f32) (harg6 : arg6.IsWhole) (hc0 : ¬cond0_0 i) (hc1 : cond0_1 i) (x0 : Vec F S1000x1152 .f32) (xs0 xs1 : Vec F S1x1152 .f32) :
    readLastO2 c i arg2 harg2 arg3 harg3 arg4 harg4 arg5 harg5 arg6 harg6 hc0 hc1 x0 xs0 xs1 = k0_pay7 (k0_pay5 x0 xs1) := by
  unfold readLastO2
  rw [View.read_writes_eq_canon _ _ _ (coverLastO2 c i arg2 harg2 arg3 harg3 arg4 harg4 arg5 harg5 arg6 harg6 hc0 hc1 x0 xs0 xs1)]
  unfold runLast
  dsimp only
  sl_unfold_words
  rw [View.canon_unit_zero hz3, View.readCov_unit_zero (S := S1x1152) _ hz2]
  simp only [View.readAt_eq_ld, harg2.read_unread, harg5.read_unread, harg6.read_unread, View.ld_unit_zero (S := S1000x1152) hz2, View.ld_unit_zero (S := S1x1152) hz2]

theorem readFirst0_eq (c : Dev nD) (i : grid0.Coords) (arg2 : Memref sig .tc .vmem S1000x1152 .f32) (harg2 : arg2.IsWhole) (arg3 : Memref sig .tc .vmem S1x1x1152 .f32) (harg3 : arg3.IsWhole) (arg4 : Memref sig .tc .vmem S1x1x1152 .f32) (harg4 : arg4.IsWhole) (arg5 : Memref sig .tc .vmem S1x1152 .f32) (harg5 : arg5.IsWhole) (arg6 : Memref sig .tc .vmem S1x1152 .f32) (harg6 : arg6.IsWhole) (hc0 : cond0_0 i) (hc1 : ¬cond0_1 i) (x0 : Vec F S1000x1152 .f32) :
    readFirst0 c i arg2 harg2 arg3 harg3 arg4 harg4 arg5 harg5 arg6 harg6 hc0 hc1 x0 = k0_pay4 x0 k0_pay1 := by
  unfold readFirst0
  rw [View.read_writes_eq_canon _ _ _ (coverFirst0 c i arg2 harg2 arg3 harg3 arg4 harg4 arg5 harg5 arg6 harg6 hc0 hc1 x0)]
  unfold runFirst
  dsimp only
  sl_unfold_words
  rw [View.canon_cons_unit_zero (S := S1x1152) hz2, View.readCov_unit_zero (S := S1x1152) _ hz2]
  simp only [View.readAt_eq_ld, harg2.read_unread, harg5.read_unread, harg6.read_unread, View.ld_unit_zero (S := S1000x1152) hz2, View.ld_unit_zero (S := S1x1152) hz2]

theorem readFirst1_eq (c : Dev nD) (i : grid0.Coords) (arg2 : Memref sig .tc .vmem S1000x1152 .f32) (harg2 : arg2.IsWhole) (arg3 : Memref sig .tc .vmem S1x1x1152 .f32) (harg3 : arg3.IsWhole) (arg4 : Memref sig .tc .vmem S1x1x1152 .f32) (harg4 : arg4.IsWhole) (arg5 : Memref sig .tc .vmem S1x1152 .f32) (harg5 : arg5.IsWhole) (arg6 : Memref sig .tc .vmem S1x1152 .f32) (harg6 : arg6.IsWhole) (hc0 : cond0_0 i) (hc1 : ¬cond0_1 i) (x0 : Vec F S1000x1152 .f32) :
    readFirst1 c i arg2 harg2 arg3 harg3 arg4 harg4 arg5 harg5 arg6 harg6 hc0 hc1 x0 = k0_pay5 x0 k0_pay2 := by
  unfold readFirst1
  rw [View.read_writes_eq_canon _ _ _ (coverFirst1 c i arg2 harg2 arg3 harg3 arg4 harg4 arg5 harg5 arg6 harg6 hc0 hc1 x0)]
  unfold runFirst
  dsimp only
  sl_unfold_words
  rw [View.canon_cons_unit_zero (S := S1x1152) hz2, View.readCov_unit_zero (S := S1x1152) _ hz2]
  simp only [View.readAt_eq_ld, harg2.read_unread, harg5.read_unread, harg6.read_unread, View.ld_unit_zero (S := S1000x1152) hz2, View.ld_unit_zero (S := S1x1152) hz2]

/-! ## One point's update in these terms -/

set_option maxHeartbeats 1000000 in
theorem stepAt_acc0_first (c : Dev nD) (t : Fin cfg0.N) (h0 : t.val % 50 = 0) (p0 p1 : Vec F S1x1152 .f32) :
    (stepAt m c t p0 p1).2.2.1 = k0_pay4 (iblk m c 0 t) k0_pay1 := by
  have h1 : ¬t.val % 50 = 49 := by omega
  unfold stepAt; rw [dif_pos h0, dif_neg h1]; dsimp only
  exact readFirst0_eq (F := F) c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk m c 0 t)

set_option maxHeartbeats 1000000 in
theorem stepAt_acc1_first (c : Dev nD) (t : Fin cfg0.N) (h0 : t.val % 50 = 0) (p0 p1 : Vec F S1x1152 .f32) :
    (stepAt m c t p0 p1).2.2.2 = k0_pay5 (iblk m c 0 t) k0_pay2 := by
  have h1 : ¬t.val % 50 = 49 := by omega
  unfold stepAt; rw [dif_pos h0, dif_neg h1]; dsimp only
  exact readFirst1_eq (F := F) c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk m c 0 t)

set_option maxHeartbeats 1000000 in
theorem stepAt_acc0_later (c : Dev nD) (t : Fin cfg0.N) (h0 : ¬t.val % 50 = 0) (p0 p1 : Vec F S1x1152 .f32) :
    (stepAt m c t p0 p1).2.2.1 = k0_pay4 (iblk m c 0 t) p0 := by
  unfold stepAt; rw [dif_neg h0]
  by_cases h1 : t.val % 50 = 49
  · rw [dif_pos h1]; dsimp only
    exact readLast0_eq (F := F) c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk m c 0 t) p0 p1
  · rw [dif_neg h1]; dsimp only
    exact readMiddle0_eq (F := F) c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk m c 0 t) p0 p1

set_option maxHeartbeats 1000000 in
theorem stepAt_acc1_later (c : Dev nD) (t : Fin cfg0.N) (h0 : ¬t.val % 50 = 0) (p0 p1 : Vec F S1x1152 .f32) :
    (stepAt m c t p0 p1).2.2.2 = k0_pay5 (iblk m c 0 t) p1 := by
  unfold stepAt; rw [dif_neg h0]
  by_cases h1 : t.val % 50 = 49
  · rw [dif_pos h1]; dsimp only
    exact readLast1_eq (F := F) c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk m c 0 t) p0 p1
  · rw [dif_neg h1]; dsimp only
    exact readMiddle1_eq (F := F) c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk m c 0 t) p0 p1

set_option maxHeartbeats 1000000 in
/-- On a core's last tile each output buffer ends at its accumulator's updated contents. -/
theorem stepAt_out1_last (c : Dev nD) (t : Fin cfg0.N) (h1 : t.val % 50 = 49) (p0 p1 : Vec F S1x1152 .f32) :
    (stepAt m c t p0 p1).1 = k0_pay6 (k0_pay4 (iblk m c 0 t) p0) := by
  have h0 : ¬t.val % 50 = 0 := by omega
  unfold stepAt; rw [dif_neg h0, dif_pos h1]; dsimp only
  exact readLastO1_eq (F := F) c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk m c 0 t) p0 p1

set_option maxHeartbeats 1000000 in
theorem stepAt_out2_last (c : Dev nD) (t : Fin cfg0.N) (h1 : t.val % 50 = 49) (p0 p1 : Vec F S1x1152 .f32) :
    (stepAt m c t p0 p1).2.1 = k0_pay7 (k0_pay5 (iblk m c 0 t) p1) := by
  have h0 : ¬t.val % 50 = 0 := by omega
  unfold stepAt; rw [dif_neg h0, dif_pos h1]; dsimp only
  exact readLastO2_eq (F := F) c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk m c 0 t) p0 p1

/-! ## The accumulation, one point unfolded -/

/-- At every point the four buffers are one update of SOME pair of previous accumulators, and past the
    grid's first point that pair is what the point before left. -/
theorem outsAt_step (c : Dev nD) (t : Fin cfg0.N) :
    ∃ p0 p1 : Vec F S1x1152 .f32, outsAt m c t.val t.isLt = stepAt m c t p0 p1
      ∧ ∀ hz : t.val ≠ 0, p0 = (outsAt m c (t.val - 1) (Nat.lt_of_le_of_lt (Nat.sub_le _ _) t.isLt)).2.2.1
          ∧ p1 = (outsAt m c (t.val - 1) (Nat.lt_of_le_of_lt (Nat.sub_le _ _) t.isLt)).2.2.2 := by
  by_cases hz : t.val = 0
  · exact ⟨junkS0, junkS1, outsAt_zero m c t hz, fun h => absurd hz h⟩
  · exact ⟨_, _, outsAt_pos m c t hz, fun _ => ⟨rfl, rfl⟩⟩

end Cert.KernelIdeal.Frame

end
-- ==== Proof.LibColSum.lean ====
/-
  A sum down the columns of a matrix, read at an index on the extended reals: a reduction of an [n, k] matrix over
  its rows (axis 0), into the zero accumulator, is at column c the sum over the n rows of the column's entries.
  (The counterpart, along axis 0, of the lane sum over the columns of a row.)
-/
import Idealize.ShloMosaic.PureOps.Ideal.Laws
import Idealize.ShloMosaic.Lib.ValueIdx

namespace Idealize.ShloMosaic.ColSum

open Idealize.ShloMosaic Idealize.ShloMosaic.ValueIdx
open scoped BigOperators

/-- The reduced index `c` with the row `d` put back is the matrix index `(d, c)`. -/
theorem lift_cols {n k : ℕ} (h : (⟨2, ![n, k]⟩ : Shape).Reduces [0] ⟨1, ![k]⟩) (c : Fin k) (d : Fin n) :
    h.lift (ix1 c) d = ix2 d c :=
  funext fun a => Fin.ext (by match a with | ⟨0, _⟩ => rfl | ⟨1, _⟩ => rfl)

/-- A float sum over the rows of an `[n, k]` matrix, at column `c`, is the sum of the column's `n` entries. -/
theorem multiReduction_add_cols_apply {n k : ℕ} (src : FVec Ideal ⟨2, ![n, k]⟩ .f32)
    (h : (⟨2, ![n, k]⟩ : Shape).Reduces [0] ⟨1, ![k]⟩) (hφ : FKind.Formats .f32)
    (hacc : (0x00000000#32 : BitVec 32) = FKind.add.neutral .f32 hφ) (c : Fin k) :
    multiReduction .add [0] ⟨1, ![k]⟩ src 0x00000000#32 h hφ hacc (ix1 c) = ∑ d : Fin n, src (ix2 d c) :=
  (Ideal.multiReduction_add_single src 0x00000000#32 h hφ hacc (ix1 c)).trans
    (Finset.sum_congr rfl fun d _ => congrArg src (lift_cols h c d))

end Idealize.ShloMosaic.ColSum
-- ==== Proof.IdealValue.Payloads.lean ====
/-
  The values the kernel body stores, read at one entry, on the extended reals.

  The body keeps two running rows of width 1152: the column sums and the column sums of squares of the tiles seen so
  far.  At the first tile of a core both rows are reset to zero; at every tile the row is replaced by itself plus the
  sum, down the 1000 rows of the tile, of the tile's entries (respectively of their squares); at the last tile the two
  rows are copied out with a unit axis put in front.  Each stored value is a chain of pointwise operations, casts
  between shapes with the same entries in the same order, and one sum over the row axis; read at column `col` the
  chain collapses to the formulas below.  Casts to the same shape are the identity; a vector of length 1152 viewed as
  one row, and a one-row matrix viewed with a further unit axis in front, keep entry `col` at `col`.
-/
import proofs.«173802_j78176994722585_2_alg».proof.Proof.Gen.KernelIdeal.Skeleton
import proofs.«173802_j78176994722585_2_alg».proof.Proof.LibColSum
import Idealize.ShloMosaic.Lib.ValueLayout
import Idealize.ShloMosaic.Lib.Pipeline.Value
import Idealize.ShloMosaic.Lib.ValueIdx
import Idealize.ShloMosaic.PureOps.Ideal.Laws

noncomputable section

namespace Cert.KernelIdeal.PayloadAt

open Idealize.ShloMosaic Idealize.ShloMosaic.ValueIdx Cert.KernelIdeal
open scoped BigOperators

/-- The reset value of the running column sums: the zero word, which denotes the real number 0, at every column. -/
theorem pay1_apply (col : Fin 1152) : Gen.k0_pay1 (F := Ideal) (ix2 (0 : Fin 1) col) = 0 := by
  unfold Gen.k0_pay1
  refine (congrFun (shapeCast_self _ _) _).trans ?_
  exact Ideal.ofBits_zero_f32

/-- The reset value of the running column sums of squares: 0 at every column. -/
theorem pay2_apply (col : Fin 1152) : Gen.k0_pay2 (F := Ideal) (ix2 (0 : Fin 1) col) = 0 := by
  unfold Gen.k0_pay2
  refine (congrFun (shapeCast_self _ _) _).trans ?_
  exact Ideal.ofBits_zero_f32

/-- The tile as the body uses it is the tile as loaded (a cast to its own shape). -/
theorem pay3_eq (x0 : Vec Ideal S1000x1152 .f32) : Gen.k0_pay3 (F := Ideal) x0 = x0 := by
  unfold Gen.k0_pay3
  exact shapeCast_self _ _

/-- The new running column sum at `col`: the old one plus the sum of the tile's column `col` over its 1000 rows. -/
theorem pay4_apply (x0 : Vec Ideal S1000x1152 .f32) (s : Vec Ideal S1x1152 .f32) (col : Fin 1152) :
    Gen.k0_pay4 (F := Ideal) x0 s (ix2 (0 : Fin 1) col) = s (ix2 (0 : Fin 1) col) + ∑ r : Fin 1000, x0 (ix2 r col) := by
  unfold Gen.k0_pay4
  -- the outer cast keeps the shape; the sum is pointwise; the vector of column sums is viewed as one row
  refine (congrFun (shapeCast_self _ _) _).trans ?_
  refine congrArg (s (ix2 (0 : Fin 1) col) + ·) ?_
  refine (shapeCast_a_1a_apply _ _ (0 : Fin 1) col).trans ?_
  -- the reduction over the row axis into the zero accumulator is the plain sum down the column
  refine (ColSum.multiReduction_add_cols_apply _ _ _ _ col).trans ?_
  rw [pay3_eq]

/-- The new running column sum of squares at `col`: the old one plus the sum over the tile's 1000 rows of the
    squares of column `col`. -/
theorem pay5_apply (x0 : Vec Ideal S1000x1152 .f32) (s : Vec Ideal S1x1152 .f32) (col : Fin 1152) :
    Gen.k0_pay5 (F := Ideal) x0 s (ix2 (0 : Fin 1) col)
      = s (ix2 (0 : Fin 1) col) + ∑ r : Fin 1000, x0 (ix2 r col) * x0 (ix2 r col) := by
  unfold Gen.k0_pay5
  refine (congrFun (shapeCast_self _ _) _).trans ?_
  refine congrArg (s (ix2 (0 : Fin 1) col) + ·) ?_
  refine (shapeCast_a_1a_apply _ _ (0 : Fin 1) col).trans ?_
  refine (ColSum.multiReduction_add_cols_apply _ _ _ _ col).trans ?_
  rw [pay3_eq]
  -- the product of the tile with itself, entry by entry
  rfl

/-- The column sums as written out: the running row with a unit axis in front, entry `col` unchanged. -/
theorem pay6_apply (s : Vec Ideal S1x1152 .f32) (col : Fin 1152) :
    Gen.k0_pay6 (F := Ideal) s (ix3 (0 : Fin 1) (0 : Fin 1) col) = s (ix2 (0 : Fin 1) col) := by
  unfold Gen.k0_pay6
  exact shapeCast_ab_1ab_apply _ _ (0 : Fin 1) (0 : Fin 1) col

/-- The column sums of squares as written out: the running row with a unit axis in front, entry `col` unchanged. -/
theorem pay7_apply (s : Vec Ideal S1x1152 .f32) (col : Fin 1152) :
    Gen.k0_pay7 (F := Ideal) s (ix3 (0 : Fin 1) (0 : Fin 1) col) = s (ix2 (0 : Fin 1) col) := by
  unfold Gen.k0_pay7
  exact shapeCast_ab_1ab_apply _ _ (0 : Fin 1) (0 : Fin 1) col

end Cert.KernelIdeal.PayloadAt

end
-- ==== Proof.Tiles.lean ====
/-
  How the kernel walks the 200000 x 576 input.  Consecutive row pairs are merged into one row of
  width 1152 = 2 * 576, giving 100000 merged rows; core c (of 2) takes merged rows
  [c * 50000, (c + 1) * 50000) in 50 tiles of 1000 rows.  Entry (R, col) of the merged array is the
  input entry at row 2 * R + col / 576 and column col % 576: the left half of a merged row is an even
  input row, the right half the odd row after it.
-/
import Idealize.ShloMosaic.PureOps.Ideal
import Idealize.ShloMosaic.Lib.ValueIdx

namespace Cert.Tiles

open Idealize.ShloMosaic Idealize.ShloMosaic.ValueIdx

/-- The merged row that tile `t` of core `c` holds at its local row `r`. -/
def row (c : Fin 2) (t : Fin 50) (r : Fin 1000) : Fin 100000 :=
  ⟨(c.val * 50 + t.val) * 1000 + r.val, by omega⟩

theorem row_val (c : Fin 2) (t : Fin 50) (r : Fin 1000) :
    (row c t r).val = (c.val * 50 + t.val) * 1000 + r.val := rfl

/-- The input entry that sits at merged row `R`, merged column `col`. -/
def cell (R : Fin 100000) (col : Fin 1152) : (⟨2, ![200000, 576]⟩ : Shape).Idx :=
  ix2 ⟨2 * R.val + col.val / 576, by omega⟩ ⟨col.val % 576, Nat.mod_lt _ (by norm_num)⟩

theorem cell_row (R : Fin 100000) (col : Fin 1152) :
    ((cell R col) 0).val = 2 * R.val + col.val / 576 := rfl

theorem cell_col (R : Fin 100000) (col : Fin 1152) :
    ((cell R col) 1).val = col.val % 576 := rfl

end Cert.Tiles
-- ==== Proof.IdealValue.Blocks.lean ====
/-
  The input tile that the body sees at a grid point, as entries of the original input.

  Before the region the input, 200000 rows of 576, is viewed as 100000 rows of 1152: the same entries in the same
  row-major order, so merged entry (R, col), at position R * 1152 + col, is the input entry at row
  2 * R + col / 576 and column col % 576, whose position is (2 * R + col / 576) * 576 + col % 576 — the same number.
  The region's first window cuts the merged array into 100 blocks of 1000 whole rows; the block fetched at grid
  point t has block index (t, 0), so its entry (r, col) is the merged entry (t * 1000 + r, col).  With t = cc * 50 + tt
  (tile tt of core cc) that is merged row (cc * 50 + tt) * 1000 + r.
-/
import proofs.«173802_j78176994722585_2_alg».proof.Proof.IdealFrame.Base
import proofs.«173802_j78176994722585_2_alg».proof.Proof.Tiles
import Idealize.ShloMosaic.Lib.Pipeline.Value
import Idealize.ShloMosaic.Lib.ValueIdx
import Idealize.ShloMosaic.Lib.Tactic

set_option maxRecDepth 16384

noncomputable section

namespace Cert.KernelIdeal.BlockAt

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ)

/-- The merged array as the region finds it: the one operation before the region is the reshape of the input. -/
theorem v0_eq (c : Dev nD) :
    (Frame.V m c main_v0 : S100000x1152.Idx → EReal)
      = shapeCast S100000x1152 (m ((c.tc : Thread nD τ).loc main_arg0) : S200000x576.Idx → EReal)
          shapeCasts_S200000x576_S100000x1152 := by
  show StableHlo.after hostOps0 (fun b => m (c, b)) (Proc.devRef .tc main_v0) = _
  after_results
  rfl

/-- Merged entry `(R, col)` is the input entry at row `2 * R + col / 576`, column `col % 576`: the two have the same
    row-major position, `R * 1152 + col = (2 * R + col / 576) * 576 + col % 576`. -/
theorem v0_apply (c : Dev nD) (R : Fin 100000) (col : Fin 1152) :
    (Frame.V m c main_v0 : S100000x1152.Idx → EReal) (ix2 R col)
      = m ((c.tc : Thread nD τ).loc main_arg0) (Cert.Tiles.cell R col) := by
  rw [v0_eq]
  refine shapeCast_apply _ _ _ _ ?_
  show ((⟨2, ![200000, 576]⟩ : Shape).rowMajor (Cert.Tiles.cell R col)).val
    = ((⟨2, ![100000, 1152]⟩ : Shape).rowMajor (ix2 R col)).val
  rw [Shape.rowMajor_val_two, Shape.rowMajor_val_two]
  show (2 * R.val + col.val / 576) * 576 + col.val % 576 = R.val * 1152 + col.val
  omega

/-- The first window's block index at grid point `t` (core `t / 50`, tile `t % 50`) is `(t, 0)`: the index map
    sends (core, tile) to core * 50 + tile along the rows and to 0 along the columns.  Decided over the 100 points. -/
theorem idx_facts : ∀ t : Fin cfg0.N, win0_0.index t 0 = t.val ∧ win0_0.index t 1 = 0 :=
  (by decide +kernel : ∀ t : Fin grid0.N, win0_0.index t 0 = t.val ∧ win0_0.index t 1 = 0)

/-- The input block at the grid point of tile `tt` of core `cc`, at its local row `r` and column `col`, is the input
    entry under merged row `(cc * 50 + tt) * 1000 + r`, merged column `col`.  A block's coordinate along an axis is
    block index times block size plus the coordinate inside the block. -/
theorem iblk_apply (c : Dev nD) (cc : Fin 2) (tt : Fin 50) (r : Fin 1000) (col : Fin 1152) (t : Fin cfg0.N)
    (ht : t.val = cc.val * 50 + tt.val) :
    (Frame.iblk m c 0 t : S1000x1152.Idx → EReal) (ix2 r col)
      = m ((c.tc : Thread nD τ).loc main_arg0) (Cert.Tiles.cell (Cert.Tiles.row cc tt r) col) := by
  rw [← v0_apply m c (Cert.Tiles.row cc tt r) col]
  unfold Frame.iblk
  rw [View.read_apply]
  show Frame.V m c main_v0 _ = Frame.V m c main_v0 _
  congr 1
  funext a
  apply Fin.ext
  match a with
  | ⟨0, _⟩ =>
    show win0_0.index t 0 * 1000 + 1 * r.val = (cc.val * 50 + tt.val) * 1000 + r.val
    rw [(idx_facts t).1, ht]; omega
  | ⟨1, _⟩ =>
    show win0_0.index t 1 * 1152 + 1 * col.val = col.val
    rw [(idx_facts t).2]; omega

end Cert.KernelIdeal.BlockAt

end
-- ==== Proof.IdealValue.Sums.lean ====
/-
  The accumulators in closed form.  Fix a core cc and a merged column col.  After tile k of that core the
  first accumulator holds, at (0, col), the sum over tiles 0..k of the tile's column sum — the sum over
  the tile's 1000 merged rows of the input entry sitting at (that row, col) — and the second the same
  with every entry squared: by induction on k, the first tile starting from the zero the body stores,
  each later tile adding its own column sum to what the tile before left.  At the core's last tile the
  output buffers receive these, so each holds the sum over all 50 tiles.
-/
import proofs.«173802_j78176994722585_2_alg».proof.Proof.IdealValue.Pieces
import proofs.«173802_j78176994722585_2_alg».proof.Proof.IdealValue.Payloads
import proofs.«173802_j78176994722585_2_alg».proof.Proof.IdealValue.Blocks
import proofs.«173802_j78176994722585_2_alg».proof.Proof.Tiles

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ)

open Idealize.ShloMosaic.ValueIdx Cert.Tiles Cert.KernelIdeal.PayloadAt Cert.KernelIdeal.BlockAt

/-- The input array on core `c`. -/
abbrev Xin (c : Dev nD) : S200000x576.Idx → EReal := m ((c.tc : Thread nD τ).loc main_arg0)

/-- Tile `k` of core `cc`: the sum over its 1000 merged rows of the input entry at (row, col). -/
def tileSum (c : Dev nD) (cc : Fin 2) (col : Fin 1152) (k : ℕ) : EReal :=
  if h : k < 50 then ∑ r : Fin 1000, Xin m c (cell (row cc ⟨k, h⟩ r) col) else 0

/-- The same with every entry squared. -/
def tileSqSum (c : Dev nD) (cc : Fin 2) (col : Fin 1152) (k : ℕ) : EReal :=
  if h : k < 50 then ∑ r : Fin 1000, Xin m c (cell (row cc ⟨k, h⟩ r) col) * Xin m c (cell (row cc ⟨k, h⟩ r) col) else 0

theorem pt_lt (cc : Fin 2) (k : ℕ) (hk : k < 50) : cc.val * 50 + k < cfg0.N := by
  have : cfg0.N = 100 := N_0
  have := cc.isLt; omega

theorem outsAt_congr (c : Dev nD) {n n' : ℕ} (e : n = n') (h : n < cfg0.N) (h' : n' < cfg0.N) :
    outsAt m c n h = outsAt m c n' h' := by subst e; rfl

theorem acc_apply (c : Dev nD) (cc : Fin 2) (col : Fin 1152) : ∀ (k : ℕ) (hk : k < 50),
    ((outsAt m c (cc.val * 50 + k) (pt_lt cc k hk)).2.2.1 : S1x1152.Idx → EReal) (ix2 (0 : Fin 1) col)
        = ∑ j ∈ Finset.range (k + 1), tileSum m c cc col j
    ∧ ((outsAt m c (cc.val * 50 + k) (pt_lt cc k hk)).2.2.2 : S1x1152.Idx → EReal) (ix2 (0 : Fin 1) col)
        = ∑ j ∈ Finset.range (k + 1), tileSqSum m c cc col j := by
  intro k
  induction k with
  | zero =>
    intro hk
    obtain ⟨p0, p1, hstep, -⟩ := outsAt_step m c ⟨cc.val * 50 + 0, pt_lt cc 0 hk⟩
    have h0 : (⟨cc.val * 50 + 0, pt_lt cc 0 hk⟩ : Fin cfg0.N).val % 50 = 0 := by show (cc.val * 50 + 0) % 50 = 0; omega
    have e0 := stepAt_acc0_first m c ⟨cc.val * 50 + 0, pt_lt cc 0 hk⟩ h0 p0 p1
    have e1 := stepAt_acc1_first m c ⟨cc.val * 50 + 0, pt_lt cc 0 hk⟩ h0 p0 p1
    rw [← hstep] at e0 e1
    constructor
    · rw [show (outsAt m c (cc.val * 50 + 0) (pt_lt cc 0 hk)).2.2.1 = _ from e0]
      refine (pay4_apply (iblk m c 0 ⟨cc.val * 50 + 0, pt_lt cc 0 hk⟩) (k0_pay1 (F := Ideal)) col).trans ?_
      rw [pay1_apply, zero_add, Finset.sum_range_one]
      unfold tileSum; rw [dif_pos hk]
      exact Finset.sum_congr rfl fun r _ => iblk_apply m c cc ⟨0, hk⟩ r col ⟨cc.val * 50 + 0, pt_lt cc 0 hk⟩ rfl
    · rw [show (outsAt m c (cc.val * 50 + 0) (pt_lt cc 0 hk)).2.2.2 = _ from e1]
      refine (pay5_apply (iblk m c 0 ⟨cc.val * 50 + 0, pt_lt cc 0 hk⟩) (k0_pay2 (F := Ideal)) col).trans ?_
      rw [pay2_apply, zero_add, Finset.sum_range_one]
      unfold tileSqSum; rw [dif_pos hk]
      exact Finset.sum_congr rfl fun r _ => by
        rw [iblk_apply m c cc ⟨0, hk⟩ r col ⟨cc.val * 50 + 0, pt_lt cc 0 hk⟩ rfl]
  | succ k ih =>
    intro hk
    have ihk := ih (by omega)
    obtain ⟨p0, p1, hstep, hprev⟩ := outsAt_step m c ⟨cc.val * 50 + (k + 1), pt_lt cc (k + 1) hk⟩
    have hz : (⟨cc.val * 50 + (k + 1), pt_lt cc (k + 1) hk⟩ : Fin cfg0.N).val ≠ 0 := by show cc.val * 50 + (k + 1) ≠ 0; omega
    obtain ⟨ep0, ep1⟩ := hprev hz
    have h0 : ¬(⟨cc.val * 50 + (k + 1), pt_lt cc (k + 1) hk⟩ : Fin cfg0.N).val % 50 = 0 := by
      show ¬(cc.val * 50 + (k + 1)) % 50 = 0; omega
    have e0 := stepAt_acc0_later m c ⟨cc.val * 50 + (k + 1), pt_lt cc (k + 1) hk⟩ h0 p0 p1
    have e1 := stepAt_acc1_later m c ⟨cc.val * 50 + (k + 1), pt_lt cc (k + 1) hk⟩ h0 p0 p1
    rw [← hstep] at e0 e1
    have hpred : (⟨cc.val * 50 + (k + 1), pt_lt cc (k + 1) hk⟩ : Fin cfg0.N).val - 1 = cc.val * 50 + k := by
      show cc.val * 50 + (k + 1) - 1 = cc.val * 50 + k; omega
    constructor
    · rw [show (outsAt m c (cc.val * 50 + (k + 1)) (pt_lt cc (k + 1) hk)).2.2.1 = _ from e0]
      refine (pay4_apply (iblk m c 0 ⟨cc.val * 50 + (k + 1), pt_lt cc (k + 1) hk⟩) p0 col).trans ?_
      rw [Finset.sum_range_succ, ep0, outsAt_congr m c hpred _ (pt_lt cc k (by omega)), ihk.1]
      congr 1
      unfold tileSum; rw [dif_pos hk]
      exact Finset.sum_congr rfl fun r _ => iblk_apply m c cc ⟨k + 1, hk⟩ r col ⟨cc.val * 50 + (k + 1), pt_lt cc (k + 1) hk⟩ rfl
    · rw [show (outsAt m c (cc.val * 50 + (k + 1)) (pt_lt cc (k + 1) hk)).2.2.2 = _ from e1]
      refine (pay5_apply (iblk m c 0 ⟨cc.val * 50 + (k + 1), pt_lt cc (k + 1) hk⟩) p1 col).trans ?_
      rw [Finset.sum_range_succ, ep1, outsAt_congr m c hpred _ (pt_lt cc k (by omega)), ihk.2]
      congr 1
      unfold tileSqSum; rw [dif_pos hk]
      exact Finset.sum_congr rfl fun r _ => by
        rw [iblk_apply m c cc ⟨k + 1, hk⟩ r col ⟨cc.val * 50 + (k + 1), pt_lt cc (k + 1) hk⟩ rfl]

/-- All 50 tiles of a core, as a sum over tiles. -/
theorem tiles_all (c : Dev nD) (cc : Fin 2) (col : Fin 1152) :
    ∑ j ∈ Finset.range (49 + 1), tileSum m c cc col j = ∑ t : Fin 50, ∑ r : Fin 1000, Xin m c (cell (row cc t r) col) := by
  rw [Finset.sum_range]
  exact Finset.sum_congr rfl fun t _ => by unfold tileSum; rw [dif_pos t.isLt]

theorem tilesSq_all (c : Dev nD) (cc : Fin 2) (col : Fin 1152) :
    ∑ j ∈ Finset.range (49 + 1), tileSqSum m c cc col j
      = ∑ t : Fin 50, ∑ r : Fin 1000, Xin m c (cell (row cc t r) col) * Xin m c (cell (row cc t r) col) := by
  rw [Finset.sum_range]
  exact Finset.sum_congr rfl fun t _ => by unfold tileSqSum; rw [dif_pos t.isLt]

/-- What output window 1's buffer holds after a core's last tile: the column's sum over that core's rows. -/
theorem out1_apply (c : Dev nD) (cc : Fin 2) (col : Fin 1152) :
    ((outsAt m c (cc.val * 50 + 49) (pt_lt cc 49 (by norm_num))).1 : S1x1x1152.Idx → EReal) (ix3 (0 : Fin 1) (0 : Fin 1) col)
      = ∑ t : Fin 50, ∑ r : Fin 1000, Xin m c (cell (row cc t r) col) := by
  obtain ⟨p0, p1, hstep, -⟩ := outsAt_step m c ⟨cc.val * 50 + 49, pt_lt cc 49 (by norm_num)⟩
  have h1 : (⟨cc.val * 50 + 49, pt_lt cc 49 (by norm_num)⟩ : Fin cfg0.N).val % 50 = 49 := by show (cc.val * 50 + 49) % 50 = 49; omega
  have h0 : ¬(⟨cc.val * 50 + 49, pt_lt cc 49 (by norm_num)⟩ : Fin cfg0.N).val % 50 = 0 := by show ¬(cc.val * 50 + 49) % 50 = 0; omega
  have e := stepAt_out1_last m c ⟨cc.val * 50 + 49, pt_lt cc 49 (by norm_num)⟩ h1 p0 p1
  have ea := stepAt_acc0_later m c ⟨cc.val * 50 + 49, pt_lt cc 49 (by norm_num)⟩ h0 p0 p1
  rw [← ea, ← hstep] at e
  rw [show (outsAt m c (cc.val * 50 + 49) (pt_lt cc 49 (by norm_num))).1 = _ from e]
  refine (pay6_apply _ col).trans ?_
  exact ((acc_apply m c cc col 49 (by norm_num)).1).trans (tiles_all m c cc col)

/-- And output window 2's: the column's sum of squares over that core's rows. -/
theorem out2_apply (c : Dev nD) (cc : Fin 2) (col : Fin 1152) :
    ((outsAt m c (cc.val * 50 + 49) (pt_lt cc 49 (by norm_num))).2.1 : S1x1x1152.Idx → EReal) (ix3 (0 : Fin 1) (0 : Fin 1) col)
      = ∑ t : Fin 50, ∑ r : Fin 1000, Xin m c (cell (row cc t r) col) * Xin m c (cell (row cc t r) col) := by
  obtain ⟨p0, p1, hstep, -⟩ := outsAt_step m c ⟨cc.val * 50 + 49, pt_lt cc 49 (by norm_num)⟩
  have h1 : (⟨cc.val * 50 + 49, pt_lt cc 49 (by norm_num)⟩ : Fin cfg0.N).val % 50 = 49 := by show (cc.val * 50 + 49) % 50 = 49; omega
  have h0 : ¬(⟨cc.val * 50 + 49, pt_lt cc 49 (by norm_num)⟩ : Fin cfg0.N).val % 50 = 0 := by show ¬(cc.val * 50 + 49) % 50 = 0; omega
  have e := stepAt_out2_last m c ⟨cc.val * 50 + 49, pt_lt cc 49 (by norm_num)⟩ h1 p0 p1
  have ea := stepAt_acc1_later m c ⟨cc.val * 50 + 49, pt_lt cc 49 (by norm_num)⟩ h0 p0 p1
  rw [← ea, ← hstep] at e
  rw [show (outsAt m c (cc.val * 50 + 49) (pt_lt cc 49 (by norm_num))).2.1 = _ from e]
  refine (pay7_apply _ col).trans ?_
  exact ((acc_apply m c cc col 49 (by norm_num)).2).trans (tilesSq_all m c cc col)

end Cert.KernelIdeal.Frame

end
-- ==== Proof.IdealValue.ArrAt.lean ====
/-
  From the written-back blocks to the two output arrays.

  Each output array has shape [2, 1, 1152]: one slab of 1152 entries per core.  Its window's block is one slab, and
  the block index at grid point t (tile t % 50 of core t / 50) is (t / 50, 0, 0).  The window is written back exactly
  at a core's last tile, t % 50 = 49, that is at the points 49 and 99; the two blocks written back are the two slabs,
  so they tile the array, and the array ends holding, in slab cc, what the window's buffer held after point
  cc * 50 + 49.  Read at an entry: (cc, 0, col) of the array is (0, 0, col) of that buffer.
-/
import proofs.«173802_j78176994722585_2_alg».proof.Proof.IdealFrame.Frame
import Idealize.ShloMosaic.Lib.Pipeline.Value
import Idealize.ShloMosaic.Lib.ValueIdx
import Idealize.ShloMosaic.Lib.Tactic

set_option maxRecDepth 16384

noncomputable section

namespace Cert.KernelIdeal.ArrAtLast

open Cert.KernelIdeal Cert.KernelIdeal.Gen
open Idealize.ShloMosaic Idealize.ShloMosaic.TcCoe Idealize.ShloMosaic.ValueIdx Idealize.SL.Sem
open Idealize.ShloMosaic.Pipeline (Dat)

variable {F : FTy → Type} [FloatOps F]
variable (m : (ℓ : Loc nD τ sig) → Buf (Elt F) ℓ)

/-- The last tile of core `cc` is a point of the grid: `cc * 50 + 49 < 100`. -/
theorem lastPoint_lt (cc : Fin 2) : cc.val * 50 + 49 < cfg0.N := by
  have h : cfg0.N = 100 := N_0
  have := cc.isLt
  omega

/-- The state after a point depends on the point's number only, not on how it is written. -/
theorem outsAt_congr (c : Dev nD) {n n' : ℕ} (h : n = n') (hn : n < cfg0.N) (hn' : n' < cfg0.N) :
    Frame.outsAt m c n hn = Frame.outsAt m c n' hn' := by
  subst h; rfl

/-! ## Output window 1: the column sums -/

/-- Output window 1's block index at grid point `t` is `(t / 50, 0, 0)`: the core's slab.  Decided over the 100 points. -/
theorem idx_facts1 : ∀ t : Fin cfg0.N, win0_1.index t 0 = t.val / 50 ∧ win0_1.index t 1 = 0 ∧ win0_1.index t 2 = 0 :=
  (by decide +kernel : ∀ t : Fin grid0.N, win0_1.index t 0 = t.val / 50 ∧ win0_1.index t 1 = 0 ∧ win0_1.index t 2 = 0)

/-- What the array ends holding: slab `cc` is what the window's buffer held after the last tile of core `cc`. -/
def G1 (c : Dev nD) : S2x1x1152.Idx → Elt F .f32 := fun i =>
  (Frame.outsAt m c ((⟨(i 0).val, (i 0).isLt⟩ : Fin 2).val * 50 + 49) (lastPoint_lt _)).1
    (ix3 (0 : Fin 1) (0 : Fin 1) (⟨(i 2).val, (i 2).isLt⟩ : Fin 1152))

/-- What a point that writes back writes is its block of `G1`: such a point is a core's last tile, `t = (t / 50) * 50 + 49`,
    and entry `(0, 0, col)` of its block sits at `(t / 50, 0, col)` of the array. -/
theorem flushed1_eq (c : Dev nD) (t : Fin cfg0.N) (hf : (cfg0.win 1).flush t = true) :
    (Frame.dats m 0 c).flushed 1 t = ((cfg0.win 1).blk t).view.read (Elt F) (G1 m c) := by
  show (cfg0.win 1).cut (grid0.coords t) ((Frame.dats m 0 c).after 1 t) = _
  rw [Frame.after0_1]
  have h49 : t.val % 50 = 49 := (flush0_1 t).mp hf
  obtain ⟨e0, e1, e2⟩ := idx_facts1 t
  funext j
  show (Frame.outsAt m c t.val t.isLt).1 j = G1 m c (((cfg0.win 1).blk t).view.emb j)
  -- the block has one slab and one row: its first two coordinates are 0
  have hj0 : (j 0).val = 0 := Nat.lt_one_iff.mp (j 0).isLt
  have hj1 : (j 1).val = 0 := Nat.lt_one_iff.mp (j 1).isLt
  -- a block's coordinate along an axis is block index times block size plus the coordinate inside the block
  have hn : (((cfg0.win 1).blk t).view.emb j 0).val * 50 + 49 = t.val := by
    show (win0_1.index t 0 * 1 + 1 * (j 0).val) * 50 + 49 = t.val
    rw [e0, hj0]; omega
  have h2 : (((cfg0.win 1).blk t).view.emb j 2).val = (j 2).val := by
    show win0_1.index t 2 * 1152 + 1 * (j 2).val = (j 2).val
    rw [e2, Nat.zero_mul, Nat.zero_add, Nat.one_mul]
  have hj : (ix3 (0 : Fin 1) (0 : Fin 1)
      (⟨(((cfg0.win 1).blk t).view.emb j 2).val, (((cfg0.win 1).blk t).view.emb j 2).isLt⟩ : Fin 1152) : S1x1x1152.Idx) = j := by
    funext a
    apply Fin.ext
    match a with
    | ⟨0, _⟩ => exact hj0.symm
    | ⟨1, _⟩ => exact hj1.symm
    | ⟨2, _⟩ => exact h2
  unfold G1
  exact (congrFun (congrArg (fun p => p.1) (outsAt_congr m c hn.symm t.isLt (lastPoint_lt _))) j).trans (congrArg _ hj.symm)

/-- An index of the array is in point `t`'s block iff each coordinate is in the block's range on its axis. -/
theorem mem_blk1 (t : Fin cfg0.N) (i : S2x1x1152.Idx) :
    i ∈ ((cfg0.win 1).blk t).view.set ↔ ∀ a : Fin 3, win0_1.index t a * S1x1x1152.size a ≤ (i a).val
      ∧ (i a).val < win0_1.index t a * S1x1x1152.size a + S1x1x1152.size a := by
  show i ∈ ((View.whole main_v1_0).slice (win0_1.rect t)).set ↔ _
  rw [View.set_slice_whole, Rect.mem_set_unit]
  exact Iff.rfl

/-- Every entry `(cc, 0, col)` of the array lies in the block written back at point `cc * 50 + 49`. -/
theorem cover1 (i : S2x1x1152.Idx) :
    ∃ t : Fin cfg0.N, (cfg0.win 1).flush t = true ∧ i ∈ ((cfg0.win 1).blk t).view.set := by
  have hi0 : (i 0).val < 2 := (i 0).isLt
  have hi1 : (i 1).val < 1 := (i 1).isLt
  have hi2 : (i 2).val < 1152 := (i 2).isLt
  have hN : cfg0.N = 100 := N_0
  refine ⟨⟨(i 0).val * 50 + 49, by omega⟩, (flush0_1 _).mpr (by show ((i 0).val * 50 + 49) % 50 = 49; omega), ?_⟩
  rw [mem_blk1]
  obtain ⟨e0, e1, e2⟩ := idx_facts1 ⟨(i 0).val * 50 + 49, by omega⟩
  intro a
  match a with
  | ⟨0, _⟩ =>
    show win0_1.index _ 0 * 1 ≤ (i 0).val ∧ (i 0).val < win0_1.index _ 0 * 1 + 1
    rw [e0]
    show ((i 0).val * 50 + 49) / 50 * 1 ≤ (i 0).val ∧ (i 0).val < ((i 0).val * 50 + 49) / 50 * 1 + 1
    omega
  | ⟨1, _⟩ =>
    show win0_1.index _ 1 * 1 ≤ (i 1).val ∧ (i 1).val < win0_1.index _ 1 * 1 + 1
    rw [e1]; omega
  | ⟨2, _⟩ =>
    show win0_1.index _ 2 * 1152 ≤ (i 2).val ∧ (i 2).val < win0_1.index _ 2 * 1152 + 1152
    rw [e2]; omega

/-- So the array ends holding `G1`: the two written-back blocks tile it. -/
theorem final1 (c : Dev nD) : (Frame.dats m 0 c).arrAt 1 cfg0.N = G1 m c :=
  (Frame.dats m 0 c).arrAt_eq_of_cover 1 (G1 m c) (flushed1_eq m c) cover1

/-- Entry `(cc, 0, col)` of the array after the run is entry `(0, 0, col)` of what the window's buffer held after the
    last tile of core `cc`. -/
theorem arrAt1_apply (c : Dev nD) (cc : Fin 2) (col : Fin 1152) :
    ((Frame.dats m 0 c).arrAt 1 cfg0.N : S2x1x1152.Idx → Elt F .f32) (ix3 cc (0 : Fin 1) col)
      = (Frame.outsAt m c (cc.val * 50 + 49) (lastPoint_lt cc)).1 (ix3 (0 : Fin 1) (0 : Fin 1) col) :=
  congrFun (final1 m c) (ix3 cc (0 : Fin 1) col)

/-! ## Output window 2: the column sums of squares -/

/-- Output window 2's block index at grid point `t` is `(t / 50, 0, 0)`: the core's slab.  Decided over the 100 points. -/
theorem idx_facts2 : ∀ t : Fin cfg0.N, win0_2.index t 0 = t.val / 50 ∧ win0_2.index t 1 = 0 ∧ win0_2.index t 2 = 0 :=
  (by decide +kernel : ∀ t : Fin grid0.N, win0_2.index t 0 = t.val / 50 ∧ win0_2.index t 1 = 0 ∧ win0_2.index t 2 = 0)

/-- What the array ends holding: slab `cc` is what the window's buffer held after the last tile of core `cc`. -/
def G2 (c : Dev nD) : S2x1x1152.Idx → Elt F .f32 := fun i =>
  (Frame.outsAt m c ((⟨(i 0).val, (i 0).isLt⟩ : Fin 2).val * 50 + 49) (lastPoint_lt _)).2.1
    (ix3 (0 : Fin 1) (0 : Fin 1) (⟨(i 2).val, (i 2).isLt⟩ : Fin 1152))

/-- What a point that writes back writes is its block of `G2`: such a point is a core's last tile, `t = (t / 50) * 50 + 49`,
    and entry `(0, 0, col)` of its block sits at `(t / 50, 0, col)` of the array. -/
theorem flushed2_eq (c : Dev nD) (t : Fin cfg0.N) (hf : (cfg0.win 2).flush t = true) :
    (Frame.dats m 0 c).flushed 2 t = ((cfg0.win 2).blk t).view.read (Elt F) (G2 m c) := by
  show (cfg0.win 2).cut (grid0.coords t) ((Frame.dats m 0 c).after 2 t) = _
  rw [Frame.after0_2]
  have h49 : t.val % 50 = 49 := (flush0_2 t).mp hf
  obtain ⟨e0, e1, e2⟩ := idx_facts2 t
  funext j
  show (Frame.outsAt m c t.val t.isLt).2.1 j = G2 m c (((cfg0.win 2).blk t).view.emb j)
  -- the block has one slab and one row: its first two coordinates are 0
  have hj0 : (j 0).val = 0 := Nat.lt_one_iff.mp (j 0).isLt
  have hj1 : (j 1).val = 0 := Nat.lt_one_iff.mp (j 1).isLt
  -- a block's coordinate along an axis is block index times block size plus the coordinate inside the block
  have hn : (((cfg0.win 2).blk t).view.emb j 0).val * 50 + 49 = t.val := by
    show (win0_2.index t 0 * 1 + 1 * (j 0).val) * 50 + 49 = t.val
    rw [e0, hj0]; omega
  have h2 : (((cfg0.win 2).blk t).view.emb j 2).val = (j 2).val := by
    show win0_2.index t 2 * 1152 + 1 * (j 2).val = (j 2).val
    rw [e2, Nat.zero_mul, Nat.zero_add, Nat.one_mul]
  have hj : (ix3 (0 : Fin 1) (0 : Fin 1)
      (⟨(((cfg0.win 2).blk t).view.emb j 2).val, (((cfg0.win 2).blk t).view.emb j 2).isLt⟩ : Fin 1152) : S1x1x1152.Idx) = j := by
    funext a
    apply Fin.ext
    match a with
    | ⟨0, _⟩ => exact hj0.symm
    | ⟨1, _⟩ => exact hj1.symm
    | ⟨2, _⟩ => exact h2
  unfold G2
  exact (congrFun (congrArg (fun p => p.2.1) (outsAt_congr m c hn.symm t.isLt (lastPoint_lt _))) j).trans (congrArg _ hj.symm)

/-- An index of the array is in point `t`'s block iff each coordinate is in the block's range on its axis. -/
theorem mem_blk2 (t : Fin cfg0.N) (i : S2x1x1152.Idx) :
    i ∈ ((cfg0.win 2).blk t).view.set ↔ ∀ a : Fin 3, win0_2.index t a * S1x1x1152.size a ≤ (i a).val
      ∧ (i a).val < win0_2.index t a * S1x1x1152.size a + S1x1x1152.size a := by
  show i ∈ ((View.whole main_v1_1).slice (win0_2.rect t)).set ↔ _
  rw [View.set_slice_whole, Rect.mem_set_unit]
  exact Iff.rfl

/-- Every entry `(cc, 0, col)` of the array lies in the block written back at point `cc * 50 + 49`. -/
theorem cover2 (i : S2x1x1152.Idx) :
    ∃ t : Fin cfg0.N, (cfg0.win 2).flush t = true ∧ i ∈ ((cfg0.win 2).blk t).view.set := by
  have hi0 : (i 0).val < 2 := (i 0).isLt
  have hi1 : (i 1).val < 1 := (i 1).isLt
  have hi2 : (i 2).val < 1152 := (i 2).isLt
  have hN : cfg0.N = 100 := N_0
  refine ⟨⟨(i 0).val * 50 + 49, by omega⟩, (flush0_2 _).mpr (by show ((i 0).val * 50 + 49) % 50 = 49; omega), ?_⟩
  rw [mem_blk2]
  obtain ⟨e0, e1, e2⟩ := idx_facts2 ⟨(i 0).val * 50 + 49, by omega⟩
  intro a
  match a with
  | ⟨0, _⟩ =>
    show win0_2.index _ 0 * 1 ≤ (i 0).val ∧ (i 0).val < win0_2.index _ 0 * 1 + 1
    rw [e0]
    show ((i 0).val * 50 + 49) / 50 * 1 ≤ (i 0).val ∧ (i 0).val < ((i 0).val * 50 + 49) / 50 * 1 + 1
    omega
  | ⟨1, _⟩ =>
    show win0_2.index _ 1 * 1 ≤ (i 1).val ∧ (i 1).val < win0_2.index _ 1 * 1 + 1
    rw [e1]; omega
  | ⟨2, _⟩ =>
    show win0_2.index _ 2 * 1152 ≤ (i 2).val ∧ (i 2).val < win0_2.index _ 2 * 1152 + 1152
    rw [e2]; omega

/-- So the array ends holding `G2`: the two written-back blocks tile it. -/
theorem final2 (c : Dev nD) : (Frame.dats m 0 c).arrAt 2 cfg0.N = G2 m c :=
  (Frame.dats m 0 c).arrAt_eq_of_cover 2 (G2 m c) (flushed2_eq m c) cover2

/-- Entry `(cc, 0, col)` of the array after the run is entry `(0, 0, col)` of what the window's buffer held after the
    last tile of core `cc`. -/
theorem arrAt2_apply (c : Dev nD) (cc : Fin 2) (col : Fin 1152) :
    ((Frame.dats m 0 c).arrAt 2 cfg0.N : S2x1x1152.Idx → Elt F .f32) (ix3 cc (0 : Fin 1) col)
      = (Frame.outsAt m c (cc.val * 50 + 49) (lastPoint_lt cc)).2.1 (ix3 (0 : Fin 1) (0 : Fin 1) col) :=
  congrFun (final2 m c) (ix3 cc (0 : Fin 1) col)

end Cert.KernelIdeal.ArrAtLast

end
-- ==== Proof.KerRead.lean ====
/-
  The kernel's host code read at one input column.

  A core's array has shape [2, 1, 1152]: entry (c, 0, col) is core c's partial sum for merged column col.  Read at
  input column j < 576, the host's "add the two cores, add the right half to the left half, divide by 200000" is
      ((o(0,0,j) + o(1,0,j)) + (o(0,0,j+576) + o(1,0,j+576))) / 200000,
  the reshapes and slices only renaming the entries.
-/
import proofs.«173802_j78176994722585_2_alg».proof.Proof.KerTail
import Idealize.ShloMosaic.Lib.ValueIdx
import Idealize.ShloMosaic.Lib.Pipeline.Value
import Idealize.ShloMosaic.PureOps.Ideal.Laws

noncomputable section

namespace Cert.Bridge

open Cert.KernelIdeal Cert.KernelIdeal.Gen Idealize.ShloMosaic Idealize.ShloMosaic.ValueIdx

/-- Merged column `j` of the left half, for an input column `j`. -/
def leftCol (j : Fin 576) : Fin 1152 := ⟨j.val, by omega⟩
/-- Merged column `j + 576` of the right half, for an input column `j`. -/
def rightCol (j : Fin 576) : Fin 1152 := ⟨j.val + 576, by omega⟩

theorem leftCol_val (j : Fin 576) : (leftCol j).val = j.val := rfl
theorem rightCol_val (j : Fin 576) : (rightCol j).val = j.val + 576 := rfl

/-- Row `c` of the [2, 1152] view of a core array, flattened: entry `col` is the array's entry (c, 0, col). -/
theorem coreRow_apply (o : (⟨S2x1x1152, .f32⟩ : BufTy).Contents (Elt Ideal)) (c : Fin 2) (off : Fin 2 → Nat)
    (h : S2x1152.Slices off S1x1152) (h0 : off 0 = c.val) (h1 : off 1 = 0) (col : Fin 1152) :
    shapeCast S1152 (extractStridedSlice S1x1152 off (shapeCast S2x1152 o shapeCasts_S2x1x1152_S2x1152) h)
        shapeCasts_S1x1152_S1152 (ix1 col)
      = o (ix3 c (0 : Fin 1) col) := by
  refine (shapeCast_apply _ shapeCasts_S1x1152_S1152 (ix1 col) (ix2 (0 : Fin 1) col) ?_).trans ?_
  · rw [Shape.rowMajor_val_two, Shape.rowMajor_val_one]
    show 0 * 1152 + col.val = col.val
    omega
  refine (extractStridedSlice_apply off _ h (ix2 (0 : Fin 1) col) (ix2 c col) (fun a => ?_)).trans ?_
  · match a with
    | ⟨0, _⟩ => show c.val = off 0 + 0; omega
    | ⟨1, _⟩ => show col.val = off 1 + col.val; omega
  refine shapeCast_apply o shapeCasts_S2x1x1152_S2x1152 (ix2 c col) (ix3 c (0 : Fin 1) col) ?_
  rw [Shape.rowMajor_val_three, Shape.rowMajor_val_two]
  show (c.val * 1 + 0) * 1152 + col.val = c.val * 1152 + col.val
  omega

/-- The two cores' rows added, at merged column `col`. -/
theorem kerCores_apply (o : (⟨S2x1x1152, .f32⟩ : BufTy).Contents (Elt Ideal)) (col : Fin 1152) :
    kerCores o (ix1 col) = o (ix3 (0 : Fin 2) (0 : Fin 1) col) + o (ix3 (1 : Fin 2) (0 : Fin 1) col) := by
  unfold kerCores
  exact (addf_apply _ _ _).trans (congrArg₂ (· + ·)
    (coreRow_apply o 0 ![0, 0] slices_S2x1152_S1x1152_0_0 rfl rfl col)
    (coreRow_apply o 1 ![1, 0] slices_S2x1152_S1x1152_1_0 rfl rfl col))

/-- The right half added to the left half, at input column `j`. -/
theorem kerHalves_apply (v : (⟨S1152, .f32⟩ : BufTy).Contents (Elt Ideal)) (j : Fin 576) :
    kerHalves v (ix1 j) = v (ix1 (leftCol j)) + v (ix1 (rightCol j)) := by
  unfold kerHalves
  refine (addf_apply _ _ _).trans (congrArg₂ (· + ·) ?_ ?_)
  · exact extractStridedSlice_apply ![0] v slices_S1152_S576_0 (ix1 j) (ix1 (leftCol j)) (fun a => by
      match a with
      | ⟨0, _⟩ => show j.val = 0 + j.val; omega)
  · exact extractStridedSlice_apply ![576] v slices_S1152_S576_576 (ix1 j) (ix1 (rightCol j)) (fun a => by
      match a with
      | ⟨0, _⟩ => show j.val + 576 = 576 + j.val; omega)

/-- The host's total for input column `j`, over the number of rows. -/
theorem kerPerRow_apply (o : (⟨S2x1x1152, .f32⟩ : BufTy).Contents (Elt Ideal)) (j : Fin 576) :
    kerPerRow o (ix1 j)
      = Ideal.div ((o (ix3 (0 : Fin 2) (0 : Fin 1) (leftCol j)) + o (ix3 (1 : Fin 2) (0 : Fin 1) (leftCol j)))
            + (o (ix3 (0 : Fin 2) (0 : Fin 1) (rightCol j)) + o (ix3 (1 : Fin 2) (0 : Fin 1) (rightCol j))))
          (Ideal.ofBits .f32 0x48435000#32) := by
  unfold kerPerRow
  show Ideal.div (kerHalves (kerCores o) (ix1 j)) (Ideal.ofBits .f32 0x48435000#32) = _
  rw [kerHalves_apply, kerCores_apply, kerCores_apply]

/-- The kernel's literal zero vector reads zero everywhere. -/
theorem kerZero_apply (j : Fin 576) : kerZero (ix1 j) = 0 := by
  unfold kerZero
  show Ideal.ofBits .f32 0x00000000#32 = 0
  exact Ideal.ofBits_zero_f32

/-- The kernel's third vector at input column `j`: the mean square minus the squared mean. -/
theorem kerVar_apply (o1 o2 : (⟨S2x1x1152, .f32⟩ : BufTy).Contents (Elt Ideal)) (j : Fin 576) :
    kerVar o1 o2 (ix1 j) = kerPerRow o2 (ix1 j) - kerPerRow o1 (ix1 j) * kerPerRow o1 (ix1 j) := rfl

end Cert.Bridge

end
-- ==== Proof.LibSumBlocks.lean ====
/-
  A sum over `Fin (A * B)` read block by block.

  An index `n < A · B` is uniquely `a · B + b` with `a < A` and `b < B` (division with remainder), so a sum over
  all `n` is the sum over the blocks `a` of the sums over the positions `b` inside a block.  Iterated three times
  this splits a sum over `C · I · K · R` indices into four nested sums; the case `2 · 64 · 16 · 512 = 1048576` is
  stated separately.  Only commutativity and associativity of the addition are used, so the statements hold in any
  additive commutative monoid (the extended reals included, infinite entries or not).
-/
import Mathlib.Algebra.BigOperators.Fin
import Mathlib.Logic.Equiv.Fin.Basic
import Mathlib.Data.Fintype.BigOperators

open scoped BigOperators

namespace Idealize.ShloMosaic.SumBlocks

/-- The index `a · B + b` of position `b` in block `a` is below `A · B`. -/
theorem idx_lt {A B : ℕ} (a : Fin A) (b : Fin B) : a.val * B + b.val < A * B :=
  calc a.val * B + b.val < a.val * B + B := Nat.add_lt_add_left b.isLt _
    _ = (a.val + 1) * B := (Nat.succ_mul _ _).symm
    _ ≤ A * B := Nat.mul_le_mul_right B a.isLt

/-- A sum over `Fin (A * B)` is the sum over the `A` blocks of the sums over the `B` positions of a block. -/
theorem sum_blocks {M : Type*} [AddCommMonoid M] {A B : ℕ} (f : Fin (A * B) → M) :
    ∑ n, f n = ∑ a : Fin A, ∑ b : Fin B, f ⟨a.val * B + b.val, idx_lt a b⟩ := by
  rw [← Equiv.sum_comp finProdFinEquiv f, Fintype.sum_prod_type]
  refine Finset.sum_congr rfl fun a _ => Finset.sum_congr rfl fun b _ => congrArg f (Fin.ext ?_)
  simp only [finProdFinEquiv_apply_val]
  rw [Nat.add_comm, Nat.mul_comm]

/-- The index of position `r` of block `k` of block `i` of block `c` is below `C · I · K · R`. -/
theorem idx4_lt {C I K R : ℕ} (c : Fin C) (i : Fin I) (k : Fin K) (r : Fin R) :
    ((c.val * I + i.val) * K + k.val) * R + r.val < C * I * K * R :=
  idx_lt (⟨(c.val * I + i.val) * K + k.val, idx_lt (⟨c.val * I + i.val, idx_lt c i⟩ : Fin (C * I)) k⟩ : Fin (C * I * K)) r

/-- A sum over `Fin (C * I * K * R)` as four nested sums. -/
theorem sum_blocks4 {M : Type*} [AddCommMonoid M] {C I K R : ℕ} (f : Fin (C * I * K * R) → M) :
    ∑ n, f n = ∑ c : Fin C, ∑ i : Fin I, ∑ k : Fin K, ∑ r : Fin R,
      f ⟨((c.val * I + i.val) * K + k.val) * R + r.val, idx4_lt c i k r⟩ := by
  rw [sum_blocks f,
    sum_blocks (fun x : Fin (C * I * K) => ∑ r : Fin R, f ⟨x.val * R + r.val, idx_lt x r⟩),
    sum_blocks (fun y : Fin (C * I) => ∑ k : Fin K, ∑ r : Fin R,
      f ⟨(y.val * K + k.val) * R + r.val, idx_lt (⟨y.val * K + k.val, idx_lt y k⟩ : Fin (C * I * K)) r⟩)]

/-- The index of row `r` of tile `k` of step `i` of half `c` is below `1048576 = 2 · 64 · 16 · 512`. -/
theorem idx_1048576_lt (c : Fin 2) (i : Fin 64) (k : Fin 16) (r : Fin 512) :
    ((c.val * 64 + i.val) * 16 + k.val) * 512 + r.val < 1048576 :=
  idx4_lt c i k r

/-- A sum over `Fin 1048576` as nested sums over `2`, `64`, `16` and `512` indices. -/
theorem sum_1048576 {M : Type*} [AddCommMonoid M] (f : Fin 1048576 → M) :
    ∑ n, f n = ∑ c : Fin 2, ∑ i : Fin 64, ∑ k : Fin 16, ∑ r : Fin 512,
      f ⟨((c.val * 64 + i.val) * 16 + k.val) * 512 + r.val, idx_1048576_lt c i k r⟩ :=
  sum_blocks4 (C := 2) (I := 64) (K := 16) (R := 512) f

end Idealize.ShloMosaic.SumBlocks
-- ==== Proof.RowSplit.lean ====
/-
  A sum over the 200000 input rows, regrouped the way the kernel walks them.

  Input rows 2R and 2R + 1 sit side by side in merged row R, and merged row R = (c * 50 + t) * 1000 + r is local
  row r of tile t of core c.  So every input row k < 200000 is exactly one of 2 * ((c * 50 + t) * 1000 + r) + b with
  c < 2, t < 50, r < 1000, b < 2, and a sum over all input rows is the sum over the two cores, the 50 tiles of a
  core, the 1000 rows of a tile and the two halves of a merged row.  Only commutativity and associativity of the
  addition are used, so this holds for extended reals as it does for reals.
-/
import proofs.«173802_j78176994722585_2_alg».proof.Proof.LibSumBlocks
import proofs.«173802_j78176994722585_2_alg».proof.Proof.Tiles

open scoped BigOperators

namespace Cert.Bridge

open Idealize.ShloMosaic.SumBlocks Cert.Tiles

/-- The even input row in the left half of merged row `R`. -/
def evenRow (R : Fin 100000) : Fin 200000 := ⟨2 * R.val, by omega⟩
/-- The odd input row in the right half of merged row `R`. -/
def oddRow (R : Fin 100000) : Fin 200000 := ⟨2 * R.val + 1, by omega⟩

theorem evenRow_val (R : Fin 100000) : (evenRow R).val = 2 * R.val := rfl
theorem oddRow_val (R : Fin 100000) : (oddRow R).val = 2 * R.val + 1 := rfl

/-- A sum over all input rows: over cores, tiles, rows of a tile, and the even and the odd row of a merged row. -/
theorem sum_rows_nested {M : Type*} [AddCommMonoid M] (g : Fin 200000 → M) :
    ∑ k, g k = ∑ c : Fin 2, ∑ t : Fin 50, ∑ r : Fin 1000, (g (evenRow (row c t r)) + g (oddRow (row c t r))) :=
  (sum_blocks4 (C := 2) (I := 50) (K := 1000) (R := 2) g).trans
    (Finset.sum_congr rfl fun c _ => Finset.sum_congr rfl fun t _ => Finset.sum_congr rfl fun r _ =>
      (Fin.sum_univ_two _).trans (congrArg₂ (· + ·)
        (congrArg g (Fin.ext (by
          show ((c.val * 50 + t.val) * 1000 + r.val) * 2 + 0 = 2 * ((c.val * 50 + t.val) * 1000 + r.val); omega)))
        (congrArg g (Fin.ext (by
          show ((c.val * 50 + t.val) * 1000 + r.val) * 2 + 1 = 2 * ((c.val * 50 + t.val) * 1000 + r.val) + 1; omega)))))

/-- The same with the four partial sums the kernel forms kept apart: core 0's and core 1's sums over the even rows,
    then core 0's and core 1's sums over the odd rows. -/
theorem sum_rows_split {M : Type*} [AddCommMonoid M] (g : Fin 200000 → M) :
    ∑ k, g k
      = ((∑ t : Fin 50, ∑ r : Fin 1000, g (evenRow (row 0 t r))) + ∑ t : Fin 50, ∑ r : Fin 1000, g (evenRow (row 1 t r)))
        + ((∑ t : Fin 50, ∑ r : Fin 1000, g (oddRow (row 0 t r))) + ∑ t : Fin 50, ∑ r : Fin 1000, g (oddRow (row 1 t r))) := by
  rw [sum_rows_nested g, Fin.sum_univ_two]
  simp only [Finset.sum_add_distrib]
  exact add_add_add_comm _ _ _ _

end Cert.Bridge
-- ==== Proof.KerTotals.lean ====
/-
  The kernel's totals are sums over all input rows.

  Suppose that for each core c and merged column col the core array holds the sum, over the core's 50 tiles of
  1000 merged rows, of some quantity Y taken at the input entry that sits at (merged row, col).  For an input
  column j the merged column j (left half) holds the even input rows and the merged column j + 576 (right half) the
  odd ones, so the four numbers the host adds are the sums of Y over core 0's even rows, core 1's even rows, core
  0's odd rows and core 1's odd rows of column j: together, each input row of column j exactly once.
-/
import proofs.«173802_j78176994722585_2_alg».proof.Proof.KerRead
import proofs.«173802_j78176994722585_2_alg».proof.Proof.RowSplit

noncomputable section

open scoped BigOperators

namespace Cert.Bridge

open Idealize.ShloMosaic Idealize.ShloMosaic.ValueIdx Cert.Tiles

/-- The left half of merged row `R` is the even input row `2 R`. -/
theorem cell_left (R : Fin 100000) (j : Fin 576) : cell R (leftCol j) = ix2 (evenRow R) j :=
  funext fun a => by
    match a with
    | ⟨0, _⟩ => exact Fin.ext (by show 2 * R.val + j.val / 576 = 2 * R.val; omega)
    | ⟨1, _⟩ => exact Fin.ext (by show j.val % 576 = j.val; omega)

/-- The right half of merged row `R` is the odd input row `2 R + 1`. -/
theorem cell_right (R : Fin 100000) (j : Fin 576) : cell R (rightCol j) = ix2 (oddRow R) j :=
  funext fun a => by
    match a with
    | ⟨0, _⟩ => exact Fin.ext (by show 2 * R.val + (j.val + 576) / 576 = 2 * R.val + 1; omega)
    | ⟨1, _⟩ => exact Fin.ext (by show (j.val + 576) % 576 = j.val; omega)

/-- The host's total for input column `j` over the number of rows, when the core arrays hold the tile sums of `Y`:
    the sum of `Y` over all 200000 rows of column `j`, over the number of rows. -/
theorem kerPerRow_total (Y : (⟨2, ![200000, 576]⟩ : Shape).Idx → EReal)
    (o : (⟨3, ![2, 1, 1152]⟩ : Shape).Idx → EReal)
    (h : ∀ (c : Fin 2) (col : Fin 1152), o (ix3 c (0 : Fin 1) col)
      = ∑ t : Fin 50, ∑ r : Fin 1000, Y (cell (row c t r) col)) (j : Fin 576) :
    kerPerRow o (ix1 j) = Ideal.div (∑ k : Fin 200000, Y (ix2 k j)) (Ideal.ofBits .f32 0x48435000#32) := by
  rw [kerPerRow_apply, h, h, h, h, sum_rows_split (fun k => Y (ix2 k j))]
  simp only [cell_left, cell_right]

end Cert.Bridge

end
-- ==== Proof.RefTerm.lean ====
/-
  The reference's result as a function of its three arguments.

  The reference computes, per input column j, the mean m(j) of the 200000 entries of the column, then the
  first central moment (the mean of x - m(j)) and the second central moment (the mean of (x - m(j))^2), and feeds
  these three vectors of length 576 to the common last stage.
-/
import proofs.«173802_j78176994722585_2_alg».proof.Proof.Gen.ReferenceIdeal.Read
import proofs.«173802_j78176994722585_2_alg».proof.Proof.StackTail

noncomputable section

namespace Cert.Bridge

open Cert.ReferenceIdeal Cert.ReferenceIdeal.Gen Idealize.ShloMosaic

/-- The reference's first vector: the column means. -/
def refMean (X : (⟨S200000x576, .f32⟩ : BufTy).Contents (Elt Ideal)) : (⟨S576, .f32⟩ : BufTy).Contents (Elt Ideal) :=
  Read.val_main_v2 (F := Ideal) X

/-- The reference's second vector: the mean of the centred entries. -/
def refMom1 (X : (⟨S200000x576, .f32⟩ : BufTy).Contents (Elt Ideal)) : (⟨S576, .f32⟩ : BufTy).Contents (Elt Ideal) :=
  Read.val_main_v8 (F := Ideal) X

/-- The reference's third vector: the mean of the squared centred entries. -/
def refMom2 (X : (⟨S200000x576, .f32⟩ : BufTy).Contents (Elt Ideal)) : (⟨S576, .f32⟩ : BufTy).Contents (Elt Ideal) :=
  Read.val_main_v12 (F := Ideal) X

/-- The reference's result. -/
def refTerm (X : (⟨S200000x576, .f32⟩ : BufTy).Contents (Elt Ideal)) (mu : (⟨S1728, .f32⟩ : BufTy).Contents (Elt Ideal))
    (W : (⟨S1728x4, .f32⟩ : BufTy).Contents (Elt Ideal)) : (⟨S1x4, .f32⟩ : BufTy).Contents (Elt Ideal) :=
  Read.val_main_v20 (F := Ideal) X mu W

/-- It is the last stage of the generated reading of the reference. -/
theorem refTerm_eq_stage (X : (⟨S200000x576, .f32⟩ : BufTy).Contents (Elt Ideal)) (mu : (⟨S1728, .f32⟩ : BufTy).Contents (Elt Ideal))
    (W : (⟨S1728x4, .f32⟩ : BufTy).Contents (Elt Ideal)) :
    Read.val_main_v20 (F := Ideal) X mu W = refTerm X mu W := rfl

/-- The reference ends in the common last stage, applied to its three vectors. -/
theorem refTerm_eq_tail (X : (⟨S200000x576, .f32⟩ : BufTy).Contents (Elt Ideal)) (mu : (⟨S1728, .f32⟩ : BufTy).Contents (Elt Ideal))
    (W : (⟨S1728x4, .f32⟩ : BufTy).Contents (Elt Ideal)) :
    refTerm X mu W = momentsTail (refMean X) (refMom1 X) (refMom2 X) mu W := rfl

end Cert.Bridge

end
-- ==== Proof.RefRead.lean ====
/-
  The reference's three vectors read at one input column.

  For input column j the reference forms the mean
      m(j) = (sum over the 200000 rows k of X(k, j)) / 200000,
  then the first central moment (sum_k (X(k, j) - m(j))) / 200000 and the second central moment
  (sum_k (X(k, j) - m(j)) * (X(k, j) - m(j))) / 200000.  The initial value of each sum is the literal zero, and
  the broadcasts that spread m over the rows only rename entries.
-/
import proofs.«173802_j78176994722585_2_alg».proof.Proof.RefTerm
import Idealize.ShloMosaic.Lib.ValueIdx
import Idealize.ShloMosaic.PureOps.Ideal.Laws

noncomputable section

open scoped BigOperators

namespace Cert.Bridge

open Cert.ReferenceIdeal Cert.ReferenceIdeal.Gen Idealize.ShloMosaic Idealize.ShloMosaic.ValueIdx

/-- The entry a column sum reads at row `k` of column `j`. -/
theorem sumIdx_eq (j : Fin 576) (k : Fin 200000) : Read.idx_main_v0 (ix1 j) k = ix2 k j :=
  funext fun a => by match a with | ⟨0, _⟩ => rfl | ⟨1, _⟩ => rfl

/-- The same for the sum of the centred entries. -/
theorem sumIdx1_eq (j : Fin 576) (k : Fin 200000) : Read.idx_main_v6 (ix1 j) k = ix2 k j :=
  funext fun a => by match a with | ⟨0, _⟩ => rfl | ⟨1, _⟩ => rfl

/-- The same for the sum of the squared centred entries. -/
theorem sumIdx2_eq (j : Fin 576) (k : Fin 200000) : Read.idx_main_v10 (ix1 j) k = ix2 k j :=
  funext fun a => by match a with | ⟨0, _⟩ => rfl | ⟨1, _⟩ => rfl

/-- The mean spread over the rows is read, at row `k` of column `j`, at column `j`. -/
theorem spreadIdx_eq (j : Fin 576) (k : Fin 200000) : Read.idx_main_v3 (Read.idx_main_v4 (ix2 k j)) = ix1 j :=
  funext fun a => by match a with | ⟨0, _⟩ => rfl

/-- The reference's mean at column `j`. -/
theorem refMean_apply (X : (⟨S200000x576, .f32⟩ : BufTy).Contents (Elt Ideal)) (j : Fin 576) :
    refMean X (ix1 j) = Ideal.div (∑ k : Fin 200000, X (ix2 k j)) (Ideal.ofBits .f32 0x48435000#32) := by
  unfold refMean
  rw [Read.val_main_v2_apply, Read.val_main_v0_apply, Read.val_main_v1_apply, Read.val_main_cst_apply,
    Read.val_main_cst_0_apply]
  simp only [Ideal.hostDivf_def, Ideal.ofBits_def, Ideal.ofBits_zero_f32, zero_add, sumIdx_eq]

/-- The centred entry at row `k` of column `j`. -/
theorem centred_apply (X : (⟨S200000x576, .f32⟩ : BufTy).Contents (Elt Ideal)) (j : Fin 576) (k : Fin 200000) :
    Read.val_main_v5 (F := Ideal) X (ix2 k j) = X (ix2 k j) - refMean X (ix1 j) := by
  unfold refMean
  rw [Read.val_main_v5_apply, Read.val_main_v4_apply, Read.val_main_v3_apply, spreadIdx_eq]
  rfl

/-- The reference's first central moment at column `j`. -/
theorem refMom1_apply (X : (⟨S200000x576, .f32⟩ : BufTy).Contents (Elt Ideal)) (j : Fin 576) :
    refMom1 X (ix1 j)
      = Ideal.div (∑ k : Fin 200000, (X (ix2 k j) - refMean X (ix1 j))) (Ideal.ofBits .f32 0x48435000#32) := by
  unfold refMom1
  rw [Read.val_main_v8_apply, Read.val_main_v6_apply, Read.val_main_v7_apply, Read.val_main_cst_1_apply,
    Read.val_main_cst_2_apply]
  simp only [Ideal.hostDivf_def, Ideal.ofBits_def, Ideal.ofBits_zero_f32, zero_add, sumIdx1_eq, centred_apply]

/-- The reference's second central moment at column `j`. -/
theorem refMom2_apply (X : (⟨S200000x576, .f32⟩ : BufTy).Contents (Elt Ideal)) (j : Fin 576) :
    refMom2 X (ix1 j)
      = Ideal.div (∑ k : Fin 200000, (X (ix2 k j) - refMean X (ix1 j)) * (X (ix2 k j) - refMean X (ix1 j)))
          (Ideal.ofBits .f32 0x48435000#32) := by
  unfold refMom2
  rw [Read.val_main_v12_apply, Read.val_main_v10_apply, Read.val_main_v11_apply, Read.val_main_cst_3_apply,
    Read.val_main_cst_4_apply]
  simp only [Ideal.hostDivf_def, Ideal.ofBits_def, Ideal.ofBits_zero_f32, zero_add, sumIdx2_eq, Read.val_main_v9_apply,
    Ideal.mulf_def, centred_apply]

end Cert.Bridge

end
-- ==== Proof.LibTripleSum.lean ====
/-
  Associativity of a triple product of finite families.

  For real families a(k), b(k, j), c(j) over any finite index types,
      ∑ k, a(k) · (∑ j, b(k, j) · c(j)) = ∑ j, (∑ k, a(k) · b(k, j)) · c(j):
  distribute both products over the inner sums, exchange the two sums, reassociate each term. This is the
  entrywise content of (A · B) · C = A · (B · C) for matrices. The coercion of the reals into the extended reals is
  additive and multiplicative, so it commutes with finite sums, and the same identity holds for extended reals that
  are coercions of reals — the form a proof about finite inputs meets. (With an infinite entry the two sides can
  differ, for instance through a product 0 · ∞ present on one side only.)
-/
import Mathlib.Data.EReal.Basic
import Mathlib.Algebra.BigOperators.Ring.Finset
import Mathlib.Algebra.BigOperators.Group.Finset.Sigma

noncomputable section

open scoped BigOperators

namespace Idealize.ShloMosaic.TripleSum

/-- The coercion of the reals into the extended reals commutes with finite sums. -/
theorem coe_finsetSum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Associativity of the triple product over the reals, for arbitrary finite index types. -/
theorem real_sum_assoc {κ ι : Type*} [Fintype κ] [Fintype ι] (a : κ → ℝ) (b : κ → ι → ℝ) (c : ι → ℝ) :
    ∑ k, a k * ∑ j, b k j * c j = ∑ j, (∑ k, a k * b k j) * c j := by
  simp only [Finset.mul_sum, Finset.sum_mul]
  rw [Finset.sum_comm]
  exact Finset.sum_congr rfl fun j _ => Finset.sum_congr rfl fun k _ => (mul_assoc _ _ _).symm

/-- Associativity of the triple product over extended reals that are coercions of reals. -/
theorem ereal_sum_assoc {κ ι : Type*} [Fintype κ] [Fintype ι] (a : κ → ℝ) (b : κ → ι → ℝ) (c : ι → ℝ) :
    ∑ k, (a k : EReal) * ∑ j, (b k j : EReal) * (c j : EReal)
      = ∑ j, (∑ k, (a k : EReal) * (b k j : EReal)) * (c j : EReal) := by
  simp only [← EReal.coe_mul, ← coe_finsetSum]
  exact congrArg _ (real_sum_assoc a b c)

end Idealize.ShloMosaic.TripleSum

end
-- ==== Proof.LibRealEntries.lean ====
/-
  Extended reals that are real numbers.

  The extended reals carry every operation a float program uses; on the two infinities the operations have corner
  values, and the ring laws (distributivity, cancellation) fail there.  On entries that are coercions of real
  numbers nothing of the kind happens: each operation is the coercion of the real operation.  The lemmas below state
  that, one operation at a time, in the direction that pushes a coercion outwards, so that an equation between
  extended reals whose entries are all real becomes the coercion of an equation between reals.
-/
import Idealize.ShloMosaic.PureOps.Ideal
import proofs.«173802_j78176994722585_2_alg».proof.Proof.LibTripleSum

noncomputable section

open scoped BigOperators

namespace Idealize.ShloMosaic.RealEntries

/-- The sum of two real entries is the real sum. -/
theorem add_coe (a b : ℝ) : (a : EReal) + (b : EReal) = ((a + b : ℝ) : EReal) := (EReal.coe_add a b).symm

/-- The product of two real entries is the real product. -/
theorem mul_coe (a b : ℝ) : (a : EReal) * (b : EReal) = ((a * b : ℝ) : EReal) := (EReal.coe_mul a b).symm

/-- The difference of two real entries is the real difference. -/
theorem sub_coe (a b : ℝ) : (a : EReal) - (b : EReal) = ((a - b : ℝ) : EReal) := (EReal.coe_sub a b).symm

/-- The negative of a real entry is the real negative. -/
theorem neg_coe (a : ℝ) : -(a : EReal) = ((-a : ℝ) : EReal) := (EReal.coe_neg a).symm

/-- The extended real `1` is the real `1`. -/
theorem one_coe : (1 : EReal) = ((1 : ℝ) : EReal) := EReal.coe_one.symm

/-- The extended real `0` is the real `0`. -/
theorem zero_coe : (0 : EReal) = ((0 : ℝ) : EReal) := EReal.coe_zero.symm

/-- The larger of two real entries is the real maximum. -/
theorem max_coe (a b : ℝ) : max (a : EReal) (b : EReal) = ((max a b : ℝ) : EReal) :=
  (EReal.coe_strictMono.monotone.map_max (a := a) (b := b)).symm

/-- Division of a real entry by a nonzero real entry is the real quotient. -/
theorem div_coe_coe (a : ℝ) {b : ℝ} (hb : b ≠ 0) : Ideal.div (a : EReal) (b : EReal) = ((a / b : ℝ) : EReal) := by
  rw [Ideal.div_coe hb, ← EReal.coe_mul, mul_one_div]

/-- The exponential of a real entry is the real exponential. -/
theorem exp_coe (a : ℝ) : Ideal.exp (a : EReal) = ((Real.exp a : ℝ) : EReal) := rfl

/-- The logistic function of a real entry is the real `(1 + e^(-a))⁻¹`. -/
theorem logistic_coe (a : ℝ) : Ideal.logistic (a : EReal) = (((1 + Real.exp (-a))⁻¹ : ℝ) : EReal) :=
  Ideal.logistic_coe a

/-- The square root of a nonnegative real entry is the real square root. -/
theorem sqrt_coe_of_nonneg {a : ℝ} (ha : 0 ≤ a) : Ideal.sqrt (a : EReal) = ((Real.sqrt a : ℝ) : EReal) := by
  rw [Ideal.sqrt_coe, if_neg (not_lt.mpr ha)]

/-- A finite sum of real entries is the real sum. -/
theorem sum_coe {ι : Type*} (s : Finset ι) (f : ι → ℝ) : ∑ i ∈ s, (f i : EReal) = ((∑ i ∈ s, f i : ℝ) : EReal) :=
  (TripleSum.coe_finsetSum s f).symm

/-- A sum of real entries over a finite type is the real sum. -/
theorem univ_sum_coe {ι : Type*} [Fintype ι] (f : ι → ℝ) : ∑ i, (f i : EReal) = ((∑ i, f i : ℝ) : EReal) :=
  sum_coe Finset.univ f

/-- The real logistic denominator is positive, hence not zero. -/
theorem one_add_exp_pos (a : ℝ) : 0 < 1 + Real.exp a := by positivity

/-- A sum of squares of reals is nonnegative. -/
theorem sum_mul_self_nonneg {ι : Type*} (s : Finset ι) (f : ι → ℝ) : 0 ≤ ∑ i ∈ s, f i * f i :=
  Finset.sum_nonneg fun i _ => mul_self_nonneg (f i)

/-- A maximum with a positive real is positive. -/
theorem max_pos_of_right (a : ℝ) {e : ℝ} (he : 0 < e) : 0 < max a e := lt_max_of_lt_right he

end Idealize.ShloMosaic.RealEntries

end
-- ==== Proof.LibRealMoments.lean ====
/-
  Two identities about the central moments of finitely many real numbers.

  Let x(i), i in a finite index set of n elements (n not 0), be real numbers with sum S and mean m = S / n.
  (1) The centred numbers add up to zero: sum_i (x(i) - m) = S - n * m = 0.
  (2) The mean of the squared centred numbers is the mean square minus the squared mean:
      (sum_i (x(i) - m)^2) / n = (sum_i x(i)^2 - 2 m S + n m^2) / n = (sum_i x(i)^2) / n - m^2,
      because S = n * m.
  Both need the numbers to be real: with an infinite entry the differences x(i) - m are no longer defined in a
  way that obeys these laws.
-/
import Mathlib.Algebra.BigOperators.Ring.Finset
import Mathlib.Algebra.BigOperators.Fin
import Mathlib.Data.Real.Basic
import Mathlib.Data.Fintype.BigOperators
import Mathlib.Tactic.Ring
import Mathlib.Tactic.FieldSimp

open scoped BigOperators

namespace Cert.Bridge.RealMoments

variable {ι : Type*} [Fintype ι]

/-- The centred numbers add up to zero. -/
theorem sum_centred (x : ι → ℝ) {n : ℝ} (hn : (Fintype.card ι : ℝ) = n) (h0 : n ≠ 0) :
    ∑ i, (x i - (∑ k, x k) / n) = 0 := by
  rw [Finset.sum_sub_distrib, Finset.sum_const, Finset.card_univ, nsmul_eq_mul, hn, mul_div_cancel₀ _ h0, sub_self]

/-- The sum of the squared centred numbers, expanded. -/
theorem sum_sq_centred (x : ι → ℝ) {n : ℝ} (hn : (Fintype.card ι : ℝ) = n) :
    ∑ i, (x i - (∑ k, x k) / n) * (x i - (∑ k, x k) / n)
      = (∑ i, x i * x i) - 2 * ((∑ k, x k) / n) * (∑ k, x k) + n * ((∑ k, x k) / n * ((∑ k, x k) / n)) := by
  have e : ∀ i, (x i - (∑ k, x k) / n) * (x i - (∑ k, x k) / n)
      = x i * x i - 2 * ((∑ k, x k) / n) * x i + (∑ k, x k) / n * ((∑ k, x k) / n) := fun i => by ring
  rw [Finset.sum_congr rfl fun i _ => e i, Finset.sum_add_distrib, Finset.sum_sub_distrib, ← Finset.mul_sum,
    Finset.sum_const, Finset.card_univ, nsmul_eq_mul, hn]

/-- The mean of the squared centred numbers is the mean square minus the squared mean. -/
theorem mean_sq_centred (x : ι → ℝ) {n : ℝ} (hn : (Fintype.card ι : ℝ) = n) (h0 : n ≠ 0) :
    (∑ i, (x i - (∑ k, x k) / n) * (x i - (∑ k, x k) / n)) / n
      = (∑ i, x i * x i) / n - (∑ k, x k) / n * ((∑ k, x k) / n) := by
  rw [sum_sq_centred x hn]
  field_simp
  ring

/-- There are 200000 indices below 200000. -/
theorem card_rows : (Fintype.card (Fin 200000) : ℝ) = 200000 := by
  rw [Fintype.card_fin]; norm_num

end Cert.Bridge.RealMoments
-- ==== Proof.RowCount.lean ====
/-
  The divisor of both programs.

  Both programs divide by the single-precision word 0x48435000: sign 0, exponent field 0x90 = 144, fraction field
  0x435000 = 4411392, that is (2^23 + 4411392) * 2^(144 - 127 - 23) = 12800000 / 64 = 200000, the number of input
  rows.  It is a real number and not zero.
-/
import Idealize.ShloMosaic.PureOps.Ideal

noncomputable section

namespace Cert.Bridge

open Idealize.ShloMosaic

/-- The word 0x48435000 denotes 200000. -/
theorem ofBits_rows : Ideal.ofBits .f32 0x48435000#32 = ((200000 : ℝ) : EReal) := by
  simp [Ideal.ofBits, Ideal.ieee, -EReal.coe_mul]
  norm_num

/-- 200000 is not zero. -/
theorem rows_ne_zero : (200000 : ℝ) ≠ 0 := by norm_num

end Cert.Bridge

end
-- ==== Proof.RealColumn.lean ====
/-
  One input column with real entries, as extended reals.

  Let x(k), k < 200000, be real numbers (one input column), N the divisor 200000 and M = (sum_k x(k)) / N their mean,
  all read as extended reals.  Because every entry is real, each sum, difference, product and quotient below is the
  coercion of the same real expression, and the real identities about central moments carry over:
    the mean of the centred entries is zero, and
    the mean of the squared centred entries is the mean square minus the squared mean.
-/
import proofs.«173802_j78176994722585_2_alg».proof.Proof.LibRealEntries
import proofs.«173802_j78176994722585_2_alg».proof.Proof.LibRealMoments
import proofs.«173802_j78176994722585_2_alg».proof.Proof.RowCount

noncomputable section

open scoped BigOperators

namespace Cert.Bridge

open Idealize.ShloMosaic Idealize.ShloMosaic.RealEntries

/-- The mean of a real column is the real mean. -/
theorem mean_coe (x : Fin 200000 → ℝ) :
    Ideal.div (∑ k, (x k : EReal)) (Ideal.ofBits .f32 0x48435000#32) = (((∑ k, x k) / 200000 : ℝ) : EReal) := by
  rw [ofBits_rows, univ_sum_coe, div_coe_coe _ rows_ne_zero]

/-- The mean of the centred entries of a real column is zero. -/
theorem mom1_coe (x : Fin 200000 → ℝ) :
    Ideal.div (∑ k, ((x k : EReal) - Ideal.div (∑ i, (x i : EReal)) (Ideal.ofBits .f32 0x48435000#32)))
        (Ideal.ofBits .f32 0x48435000#32) = 0 := by
  rw [mean_coe]
  simp only [sub_coe]
  rw [ofBits_rows, univ_sum_coe, div_coe_coe _ rows_ne_zero,
    RealMoments.sum_centred x RealMoments.card_rows rows_ne_zero, zero_div]
  exact EReal.coe_zero

/-- The mean of the squared centred entries of a real column is its mean square minus its squared mean. -/
theorem mom2_coe (x : Fin 200000 → ℝ) :
    Ideal.div (∑ k, ((x k : EReal) - Ideal.div (∑ i, (x i : EReal)) (Ideal.ofBits .f32 0x48435000#32))
          * ((x k : EReal) - Ideal.div (∑ i, (x i : EReal)) (Ideal.ofBits .f32 0x48435000#32)))
        (Ideal.ofBits .f32 0x48435000#32)
      = Ideal.div (∑ k, (x k : EReal) * (x k : EReal)) (Ideal.ofBits .f32 0x48435000#32)
        - Ideal.div (∑ i, (x i : EReal)) (Ideal.ofBits .f32 0x48435000#32)
          * Ideal.div (∑ i, (x i : EReal)) (Ideal.ofBits .f32 0x48435000#32) := by
  rw [mean_coe]
  simp only [sub_coe, mul_coe]
  rw [ofBits_rows, univ_sum_coe, univ_sum_coe, div_coe_coe _ rows_ne_zero, div_coe_coe _ rows_ne_zero, sub_coe]
  exact congrArg _ (RealMoments.mean_sq_centred x RealMoments.card_rows rows_ne_zero)

end Cert.Bridge

end
-- ==== Proof.Bridge.lean ====
/-
  The kernel's host code and the reference compute the same result.

  Both programs end in the same last stage applied to three vectors of length 576, so it is enough to compare the
  three vectors, input column by input column.  Fix a column j and write x(k) for its 200000 entries, which are real
  numbers.  When the two core arrays hold the tile sums of the entries and of their squares:
    - the kernel's first vector is (sum_k x(k)) / 200000, the same regrouped sum the reference divides: the mean m;
    - the kernel's second vector is the literal 0, and the reference's is (sum_k (x(k) - m)) / 200000 = 0;
    - the kernel's third vector is (sum_k x(k)^2) / 200000 - m * m, and the reference's is
      (sum_k (x(k) - m)^2) / 200000, equal by the variance identity.
  The last two use that the entries are real.
-/
import proofs.«173802_j78176994722585_2_alg».proof.Proof.KerTotals
import proofs.«173802_j78176994722585_2_alg».proof.Proof.RefRead
import proofs.«173802_j78176994722585_2_alg».proof.Proof.RealColumn

noncomputable section

open scoped BigOperators

namespace Cert.Bridge

open Idealize.ShloMosaic Idealize.ShloMosaic.ValueIdx Cert.Tiles

/-- The first vectors agree: both are the column means. -/
theorem mean_eq (X : FVec Ideal ⟨2, ![200000, 576]⟩ .f32) (o1 : FVec Ideal ⟨3, ![2, 1, 1152]⟩ .f32)
    (h1 : ∀ (c : Fin 2) (col : Fin 1152), o1 (ix3 c 0 col)
      = ∑ t : Fin 50, ∑ r : Fin 1000, X (cell (row c t r) col)) :
    kerMean o1 = refMean X := by
  funext i
  obtain ⟨j, rfl⟩ : ∃ j : Fin 576, i = ix1 j := ⟨i 0, eq_ix1 i⟩
  rw [refMean_apply]
  exact kerPerRow_total X o1 h1 j

/-- The second vectors agree: the centred entries of a real column add up to zero. -/
theorem mom1_eq (X : FVec Ideal ⟨2, ![200000, 576]⟩ .f32) (hX : ∀ i, ∃ r : ℝ, X i = (r : EReal)) :
    kerZero = refMom1 X := by
  choose x hx using hX
  funext i
  obtain ⟨j, rfl⟩ : ∃ j : Fin 576, i = ix1 j := ⟨i 0, eq_ix1 i⟩
  rw [kerZero_apply, refMom1_apply, refMean_apply]
  simp only [hx]
  exact (mom1_coe _).symm

/-- The third vectors agree: the variance identity on a real column. -/
theorem mom2_eq (X : FVec Ideal ⟨2, ![200000, 576]⟩ .f32) (hX : ∀ i, ∃ r : ℝ, X i = (r : EReal))
    (o1 o2 : FVec Ideal ⟨3, ![2, 1, 1152]⟩ .f32)
    (h1 : ∀ (c : Fin 2) (col : Fin 1152), o1 (ix3 c 0 col)
      = ∑ t : Fin 50, ∑ r : Fin 1000, X (cell (row c t r) col))
    (h2 : ∀ (c : Fin 2) (col : Fin 1152), o2 (ix3 c 0 col)
      = ∑ t : Fin 50, ∑ r : Fin 1000, X (cell (row c t r) col) * X (cell (row c t r) col)) :
    kerVar o1 o2 = refMom2 X := by
  choose x hx using hX
  funext i
  obtain ⟨j, rfl⟩ : ∃ j : Fin 576, i = ix1 j := ⟨i 0, eq_ix1 i⟩
  rw [kerVar_apply, kerPerRow_total (fun p => X p * X p) o2 h2 j, kerPerRow_total X o1 h1 j, refMom2_apply,
    refMean_apply]
  simp only [hx]
  exact (mom2_coe _).symm

/-- The kernel's host code, applied to core arrays that hold the tile sums of the entries and of their squares,
    gives the reference's result. -/
theorem result_eq (X : FVec Ideal ⟨2, ![200000, 576]⟩ .f32) (mu : FVec Ideal ⟨1, ![1728]⟩ .f32)
    (W : FVec Ideal ⟨2, ![1728, 4]⟩ .f32) (hX : ∀ i, ∃ r : ℝ, X i = (r : EReal))
    (o1 o2 : FVec Ideal ⟨3, ![2, 1, 1152]⟩ .f32)
    (h1 : ∀ (c : Fin 2) (col : Fin 1152), o1 (ix3 c 0 col)
      = ∑ t : Fin 50, ∑ r : Fin 1000, X (cell (row c t r) col))
    (h2 : ∀ (c : Fin 2) (col : Fin 1152), o2 (ix3 c 0 col)
      = ∑ t : Fin 50, ∑ r : Fin 1000, X (cell (row c t r) col) * X (cell (row c t r) col)) :
    kerTail o1 o2 mu W = refTerm X mu W := by
  rw [kerTail_eq_tail, refTerm_eq_tail, mean_eq X o1 h1, mom1_eq X hX, mom2_eq X hX o1 o2 h1 h2]

end Cert.Bridge

end
-- ==== Proof.IdealValue.Result.lean ====
/-
  The idealized kernel's run with its result named.  When every entry of the input is a real number,
  the result buffer ends at the reference's function of the three arguments: the region leaves in each
  output array, at (core, 0, column), the column's sum (of the entries; of their squares) over that
  core's 50000 merged rows; the later operations turn those into the mean, zero and variance columns
  and project; and over the reals that is what the reference computes from the input directly.
-/
import proofs.«173802_j78176994722585_2_alg».proof.Proof.IdealValue.Tail
import proofs.«173802_j78176994722585_2_alg».proof.Proof.IdealValue.Sums
import proofs.«173802_j78176994722585_2_alg».proof.Proof.IdealValue.ArrAt
import proofs.«173802_j78176994722585_2_alg».proof.Proof.Bridge

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

open Idealize.ShloMosaic.ValueIdx Cert.Tiles

theorem run_value (hX : ∀ (c : Dev nD) i, ∃ r : ℝ, m ((c.tc : Thread nD τ).loc main_arg0) i = (r : EReal)) :
    θ_run defs (onTc (τ := τ) (main (F := Ideal))) ⟨m, fun _ => 0, ρ⟩ (fun r => ∀ c : Dev nD,
      r.2.mem ((c.tc : Thread nD τ).loc main_v34) = Cert.Bridge.refTerm (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v34 v34_rest).trans ((tail_result m c).trans
        (Cert.Bridge.result_eq _ _ _ (hX c) _ _
          (fun cc col => (Cert.KernelIdeal.ArrAtLast.arrAt1_apply m c cc col).trans (out1_apply m c cc col))
          (fun cc col => (Cert.KernelIdeal.ArrAtLast.arrAt2_apply m c cc col).trans (out2_apply m c cc col)))),
      ((h c).2 main_arg0 arg0_rest).trans (kept_arg0 m c), ((h c).2 main_arg1 arg1_rest).trans (kept_arg1 m c),
      ((h c).2 main_arg2 arg2_rest).trans (kept_arg2 m c)⟩) (run_main m ρ)

end Cert.KernelIdeal.Frame

end
-- ==== Proof.LibFiniteEntry.lean ====
/-
  An extended real whose absolute value is below +∞ is a real number.

  A precondition "every input is finite" is stated entry by entry as the comparison |x| < +∞, with |x| = max x (−x) and
  +∞ given by its float pattern.  At an infinity the absolute value is +∞ and the comparison fails; so an entry that
  passes it is neither infinity.
-/
import Idealize.ShloMosaic.PureOps.Ideal

noncomputable section

namespace Idealize.ShloMosaic.FiniteEntry

/-- The f32 pattern 0x7F800000 is +∞. -/
theorem pinf_f32 : Ideal.ofBits .f32 0x7F800000#32 = ⊤ := by simp [Ideal.ofBits, Ideal.ieee]

/-- An extended real whose absolute value compares (ordered, less-than) below the pattern of +∞ is a real. -/
theorem real_of_abs_lt_inf (x : EReal) (h : Ideal.cmp .olt (max x (-x)) (Ideal.ofBits .f32 0x7F800000#32) = 1#1) :
    ∃ r : ℝ, x = (r : EReal) := by
  rw [pinf_f32] at h
  change BitVec.ofBool (decide (max x (-x) < (⊤ : EReal))) = 1#1 at h
  have hlt : max x (-x) < (⊤ : EReal) := by
    by_contra hn
    rw [show decide (max x (-x) < (⊤ : EReal)) = false from decide_eq_false hn] at h
    exact absurd h (by decide)
  induction x using EReal.rec with
  | bot => exact absurd hlt (by simp)
  | coe r => exact ⟨r, rfl⟩
  | top => exact absurd hlt (by simp)

end Idealize.ShloMosaic.FiniteEntry

end
-- ==== Proof.FiniteX.lean ====
/-
  Every entry of the first input is a real number, read out of the precondition.

  The precondition is the one-bit value

      all (|X| < +∞)  and  all (|mu| < +∞)  and  all (|W| < +∞)

  being 1.  A conjunction of one-bit words is 1 only when both words are 1, so the first conjunct, all (|X| < +∞), is 1.
  That conjunct is a reduction by "and", from the constant 1, of the array of comparisons |X i| < +∞ over both axes
  into a result with a single index; a reduction by "and" that comes out 1 met a 1 at every index, so the comparison
  holds at every index i.  There |X i| is max (X i) (−(X i)) and +∞ is the f32 pattern 0x7F800000 broadcast from a
  scalar; an extended real whose absolute value is below +∞ is neither infinity, hence a real.

  Only the first conjunct is used: nothing is said here about mu or W.
-/
import proofs.«173802_j78176994722585_2_alg».proof.Proof.Gen.Pre_finite_inputs
import proofs.«173802_j78176994722585_2_alg».proof.Proof.LibFiniteEntry
import Idealize.ShloMosaic.Lib.ReduceAll
import Idealize.ShloMosaic.Lib.ValueIdx
import Idealize.ShloMosaic.PureOps.Ideal

noncomputable section

namespace Cert.FiniteX

open Idealize.ShloMosaic Idealize.ShloMosaic.ValueIdx Cert.Pre_finite_inputs

/-- The scalar shape has exactly one index (a function out of the empty set of axes). -/
instance : Subsingleton S_.Idx := ⟨fun a b => funext fun d => d.elim0⟩

/-- If the precondition "all three inputs are finite" evaluates to 1 on the extended-real arrays `x`, `mu`, `w`,
    then every entry of `x` is (the coercion of) a real number. -/
theorem real_of_pre [Cert.Pre_finite_inputs.Facts]
    (x : FVec Ideal S200000x576 .f32) (mu : FVec Ideal S1728 .f32) (w : FVec Ideal S1728x4 .f32)
    (h : Cert.Pre_finite_inputs.fn (F := Ideal) x mu w = (fun _ => 1#1)) :
    ∀ i, ∃ r : ℝ, x i = (r : EReal) := by
  intro i
  -- the precondition's value at its one index, with the function's text in view
  have h0 := congrFun h ix0
  dsimp only [Cert.Pre_finite_inputs.fn] at h0
  -- ((all |x| < ∞) and (all |mu| < ∞)) and (all |w| < ∞) = 1 : keep the left word twice
  have h1 : IntOp.andi _ _ = 1#1 := h0
  have h2 : IntOp.andi _ _ = 1#1 := (IntOp.andi_eq_one.1 h1).1
  have h3 := (IntOp.andi_eq_one.1 h2).1
  -- a reduction by "and" over all axes that is 1 has a 1 at every index: |x i| < +∞ at i
  have h4 := Host.reduce_andi_all _ _ _ _ _ h3 i
  -- read at i the comparison is  max (x i) (−(x i)) < (the f32 pattern of +∞),  which excludes both infinities
  exact FiniteEntry.real_of_abs_lt_inf (x i) h4

end Cert.FiniteX

end
-- ==== Proof.lean ====
/-
  Column moments of a 200000 x 576 array, projected: the kernel against its reference.

  Both programs compute, per column j, the mean m_j = S_j / N, a centred first moment and a centred
  second moment (N = 200000, S_j the column's sum), interleave the three, subtract mu and multiply by W.
  The reference forms the centred moments from x - m_j directly.  The kernel sums the entries and their
  squares in one pass over a pair-merged copy of the input, two cores each accumulating 50 tiles of
  1000 merged rows, writes the literal zero for the first centred moment and Q_j / N - m_j * m_j for the
  second (Q_j the column's sum of squares).  Over the reals these agree: sum_i (x_i - S/N) = 0 and
  (sum_i (x_i - S/N)^2) / N = Q/N - (S/N)^2, and the kernel's regrouping of the sums is associativity
  and commutativity.  The precondition (every input finite) is what makes every entry a real.

  The five claims: each kernel program runs to the end with its arguments unchanged (the region's run,
  point by point, around the host operations); the reference likewise (its generated run); the
  idealization rewrote nothing; and the two idealized programs end with equal results.
-/
import proofs.«173802_j78176994722585_2_alg».proof.Defs
import proofs.«173802_j78176994722585_2_alg».proof.Proof.Gen.Kernel
import proofs.«173802_j78176994722585_2_alg».proof.Proof.Gen.KernelIdeal
import proofs.«173802_j78176994722585_2_alg».proof.Proof.Gen.ReferenceIdeal
import proofs.«173802_j78176994722585_2_alg».proof.Proof.Gen.ReferenceIdeal.Run
import proofs.«173802_j78176994722585_2_alg».proof.Proof.Gen.ReferenceIdeal.Read
import proofs.«173802_j78176994722585_2_alg».proof.Proof.Gen.Pre_finite_inputs
import proofs.«173802_j78176994722585_2_alg».proof.Proof.WordFrame.Post
import proofs.«173802_j78176994722585_2_alg».proof.Proof.IdealFrame.Post
import proofs.«173802_j78176994722585_2_alg».proof.Proof.IdealValue.Result
import proofs.«173802_j78176994722585_2_alg».proof.Proof.FiniteX
import proofs.«173802_j78176994722585_2_alg».proof.Proof.Bridge

noncomputable section

namespace Cert.Proof

open Idealize.ShloMosaic Idealize.SL.Sem

theorem frame_k : Cert.frame_Kernel := fun m ρ _ => Cert.Kernel.Frame.frame m ρ

theorem frame_ki : Cert.frame_KernelIdeal := fun m ρ _ => Cert.KernelIdeal.Frame.frame m ρ

/-- The reference has no region: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end at the reference's function of the arguments: the kernel because its
    input's entries are reals (the precondition), the reference by its run, the arguments agreeing. -/
theorem algebraic : Cert.algebraic_KernelIdeal_ReferenceIdeal := by
  intro m ρ m' ρ' hpre hagree
  refine ⟨_, Cert.KernelIdeal.Frame.run_value m ρ (fun c => Cert.FiniteX.real_of_pre _ _ _ (hpre c)), ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v20_eq, (hagree c).1, (hagree c).2.1, (hagree c).2.2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
